-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S64x128 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S128x64 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S64x128 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩
abbrev S1x64 : Shape := ⟨2, ![1, 64]⟩

abbrev nBuf : Space → Nat
  | .hbm => 122
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S64x128, .f32⟩
  | .hbm, ⟨45, _⟩ => ⟨S64x128, .bf16⟩
  | .hbm, ⟨46, _⟩ => ⟨S1x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S128x128, .bf16⟩
  | .hbm, ⟨78, _⟩ => ⟨S1x128, .f32⟩
  | .hbm, ⟨79, _⟩ => ⟨S100000x128, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S128x64, .f32⟩
  | .hbm, ⟨109, _⟩ => ⟨S128x64, .bf16⟩
  | .hbm, ⟨110, _⟩ => ⟨S1x64, .f32⟩
  | .hbm, ⟨111, _⟩ => ⟨S100000x64, .f32⟩
  | .hbm, ⟨112, _⟩ => ⟨S1x64, .f32⟩
  | .hbm, ⟨113, _⟩ => ⟨S1x64, .f32⟩
  | .hbm, ⟨114, _⟩ => ⟨S_, .f32⟩
  | .hbm, ⟨115, _⟩ => ⟨S1x64, .f32⟩
  | .hbm, ⟨116, _⟩ => ⟨S1x64, .f32⟩
  | .hbm, ⟨117, _⟩ => ⟨S_, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S1x64, .f32⟩
  | .local _ .vmem, ⟨0, _⟩ => ⟨S10000x64, .f32⟩
  | .local _ .vmem, ⟨1, _⟩ => ⟨S10000x64, .f32⟩
  | .local _ .vmem, ⟨2, _⟩ => ⟨S64x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .bf16⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x64, .bf16⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v53_2 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53_0) S10000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v53_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78_0) S10000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v78_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S64x128, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S100000x1, .f32⟩
  | 23 => ⟨S_, .f32⟩
  | 24 => ⟨S100000x1, .f32⟩
  | 25 => ⟨S100000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S100000x64, .f32⟩
  | 40 => ⟨S100000x64, .f32⟩
  | 41 => ⟨S64x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x128, .f32⟩
  | 104 => ⟨S128x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x64, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000x128, .f32⟩
  | 38 => ⟨S100000x128, .f32⟩
  | 39 => ⟨S128x64, .f32⟩
  | 40 => ⟨S100000x64, .f32⟩
  | 41 => ⟨S1x64, .f32⟩
  | 42 => ⟨S100000x64, .f32⟩
  | 43 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call1_cst : Ref sig .tc := ⟨.hbm, 139, rfl⟩
abbrev main_call1_v0 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_cst_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_22 : Ref sig .tc := ⟨.hbm, 149, rfl⟩
abbrev main_v109 : Ref sig .tc := ⟨.hbm, 150, rfl⟩
abbrev main_v110 : Ref sig .tc := ⟨.hbm, 151, rfl⟩
abbrev main_c_23 : Ref sig .tc := ⟨.hbm, 152, rfl⟩
abbrev main_v111 : Ref sig .tc := ⟨.hbm, 153, rfl⟩
abbrev main_v112 : Ref sig .tc := ⟨.hbm, 154, rfl⟩
abbrev main_c_24 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_25 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named. The program is five kernel launches among six
  stretches of host operations; the buffer contents at each boundary are a fold from the launch memory, and after
  the last stretch every unscoped buffer holds that fold's value. So every weakly fair execution terminates with the
  result array at the fold's value and the twelve argument arrays as launched.
-/
import proofs.«176481_j81363860455527_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the value
    the boundary fold gives it after the last host stretch, and with every argument array as launched. -/
theorem run_result : θ_run defs (onTc (τ := τ) (main (F := F))) ⟨m, fun _ => 0, ρ⟩ (fun r => ∀ c : Dev nD,
      r.2.mem ((c.tc : Thread nD τ).loc main_v78_0) = W11 m ρ c (Proc.devRef .tc main_v78_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Gen

end
-- ==== Proof.KernelBoundary.lean ====
/-
  The idealized kernel program between its launches: what each buffer holds at the boundaries of the five kernel
  regions, as terms of the host operations over the launch contents of the argument arrays. The edge-index arrays,
  the reciprocal degree column and the argument arrays are written once and never again, so at every later
  boundary they hold what they held after the first stretch; each region's output arrays hold what the region's
  write-backs leave; each stretch's results are its operations applied to the contents at its entry.
-/
import proofs.«176481_j81363860455527_1_alg».proof.Proof.Gen.KernelIdeal.Frame
import proofs.«176481_j81363860455527_1_alg».proof.Proof.Gen.ReferenceIdeal.Read
import Idealize.ShloMosaic.Lib.StableHlo.Run
import Idealize.ShloMosaic.PureOps.Ideal

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-- A buffer that no operation of a host stretch writes keeps its contents across the stretch. -/
macro "not_written" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)

/-- The reciprocal of (degree + ε), one per node, kept as a column: 1 / (deg + ε). -/
def dinv (e : (⟨S2x1600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (addf (val_main_v7 (F := Ideal) e) (broadcastInDim S100000 ![] bcast_S_S100000 (constant (F := Ideal) S_ .f32 0x358637BD#32))))

/-- The neighbourhood sum of a 128-wide feature array: gather the rows the edges start from, add them at the rows
    the edges end at. -/
def agg128 (f : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v68 (F := Ideal)) (val_main_v69 (F := Ideal) e)
    (Host.gather gather_S100000x128_S1600000x1_S1600000x128_1_0_n_n_0_1_1128 f (val_main_v66 (F := Ideal) e))

/-! ## After the first host stretch -/

set_option maxHeartbeats 4000000 in
theorem w1_v24 : (W1 m ρ c (Proc.devRef .tc main_v24) : (⟨S100000x64, .f32⟩ : BufTy).Contents (Elt Ideal))
    = mulf (F := Ideal) (φ := .f32) (val_main_v20 (F := Ideal) (a0 m c) (a1 m c)) (broadcastInDim S100000x64 ![0, 1] bcast_S100000x1_S100000x64_0_1 (dinv (a1 m c))) := by
  show StableHlo.after hostOps0 (W0 m ρ c) (Proc.devRef .tc main_v24) = _
  after_results_simp
  rfl

set_option maxHeartbeats 4000000 in
theorem w1_v12 : (W1 m ρ c (Proc.devRef .tc main_v12) : (⟨S100000x1, .f32⟩ : BufTy).Contents (Elt Ideal)) = dinv (a1 m c) := by
  show StableHlo.after hostOps0 (W0 m ρ c) (Proc.devRef .tc main_v12) = _
  after_results_simp
  rfl

set_option maxHeartbeats 4000000 in
theorem w1_v1 : (W1 m ρ c (Proc.devRef .tc main_v1) : (⟨S1600000, .i32⟩ : BufTy).Contents (Elt Ideal)) = val_main_v1 (F := Ideal) (a1 m c) := by
  show StableHlo.after hostOps0 (W0 m ρ c) (Proc.devRef .tc main_v1) = _
  after_results_simp
  rfl

set_option maxHeartbeats 4000000 in
theorem w1_v3 : (W1 m ρ c (Proc.devRef .tc main_v3) : (⟨S1600000, .i32⟩ : BufTy).Contents (Elt Ideal)) = val_main_v3 (F := Ideal) (a1 m c) := by
  show StableHlo.after hostOps0 (W0 m ρ c) (Proc.devRef .tc main_v3) = _
  after_results_simp
  rfl

set_option maxHeartbeats 4000000 in
theorem w1_v26 : (W1 m ρ c (Proc.devRef .tc main_v26) : (⟨S64x128, .bf16⟩ : BufTy).Contents (Elt Ideal)) = truncf (F := Ideal) .bf16 (val_main_v23 (F := Ideal) (a2 m c)) bitsLt_bf16_f32 := by
  show StableHlo.after hostOps0 (W0 m ρ c) (Proc.devRef .tc main_v26) = _
  after_results_simp
  rfl

set_option maxHeartbeats 4000000 in
theorem w1_v27 : (W1 m ρ c (Proc.devRef .tc main_v27) : (⟨S1x128, .f32⟩ : BufTy).Contents (Elt Ideal)) = shapeCast S1x128 (a3 m c) shapeCasts_S128_S1x128 := by
  show StableHlo.after hostOps0 (W0 m ρ c) (Proc.devRef .tc main_v27) = _
  after_results_simp
  rfl

/-! ## What is written once stays -/

theorem w2_arg4 : W2 m ρ c (Proc.devRef .tc main_arg4) = a4 m c := (W2_of_ne m ρ c main_arg4 (by decide)).trans ((show W1 m ρ c (Proc.devRef .tc main_arg4) = W0 m ρ c (Proc.devRef .tc main_arg4) by not_written hostOps0))
theorem w2_arg5 : W2 m ρ c (Proc.devRef .tc main_arg5) = a5 m c := (W2_of_ne m ρ c main_arg5 (by decide)).trans ((show W1 m ρ c (Proc.devRef .tc main_arg5) = W0 m ρ c (Proc.devRef .tc main_arg5) by not_written hostOps0))
theorem w4_arg6 : W4 m ρ c (Proc.devRef .tc main_arg6) = a6 m c := (W4_of_ne m ρ c main_arg6 (by decide)).trans ((show W3 m ρ c (Proc.devRef .tc main_arg6) = W2 m ρ c (Proc.devRef .tc main_arg6) by not_written hostOps1).trans ((W2_of_ne m ρ c main_arg6 (by decide)).trans ((show W1 m ρ c (Proc.devRef .tc main_arg6) = W0 m ρ c (Proc.devRef .tc main_arg6) by not_written hostOps0))))
theorem w4_arg7 : W4 m ρ c (Proc.devRef .tc main_arg7) = a7 m c := (W4_of_ne m ρ c main_arg7 (by decide)).trans ((show W3 m ρ c (Proc.devRef .tc main_arg7) = W2 m ρ c (Proc.devRef .tc main_arg7) by not_written hostOps1).trans ((W2_of_ne m ρ c main_arg7 (by decide)).trans ((show W1 m ρ c (Proc.devRef .tc main_arg7) = W0 m ρ c (Proc.devRef .tc main_arg7) by not_written hostOps0))))
theorem w6_arg8 : W6 m ρ c (Proc.devRef .tc main_arg8) = a8 m c := (W6_of_ne m ρ c main_arg8 (by decide)).trans ((show W5 m ρ c (Proc.devRef .tc main_arg8) = W4 m ρ c (Proc.devRef .tc main_arg8) by not_written hostOps2).trans ((W4_of_ne m ρ c main_arg8 (by decide)).trans ((show W3 m ρ c (Proc.devRef .tc main_arg8) = W2 m ρ c (Proc.devRef .tc main_arg8) by not_written hostOps1).trans ((W2_of_ne m ρ c main_arg8 (by decide)).trans ((show W1 m ρ c (Proc.devRef .tc main_arg8) = W0 m ρ c (Proc.devRef .tc main_arg8) by not_written hostOps0))))))
theorem w6_arg9 : W6 m ρ c (Proc.devRef .tc main_arg9) = a9 m c := (W6_of_ne m ρ c main_arg9 (by decide)).trans ((show W5 m ρ c (Proc.devRef .tc main_arg9) = W4 m ρ c (Proc.devRef .tc main_arg9) by not_written hostOps2).trans ((W4_of_ne m ρ c main_arg9 (by decide)).trans ((show W3 m ρ c (Proc.devRef .tc main_arg9) = W2 m ρ c (Proc.devRef .tc main_arg9) by not_written hostOps1).trans ((W2_of_ne m ρ c main_arg9 (by decide)).trans ((show W1 m ρ c (Proc.devRef .tc main_arg9) = W0 m ρ c (Proc.devRef .tc main_arg9) by not_written hostOps0))))))
theorem w8_arg10 : W8 m ρ c (Proc.devRef .tc main_arg10) = a10 m c := (W8_of_ne m ρ c main_arg10 (by decide)).trans ((show W7 m ρ c (Proc.devRef .tc main_arg10) = W6 m ρ c (Proc.devRef .tc main_arg10) by not_written hostOps3).trans ((W6_of_ne m ρ c main_arg10 (by decide)).trans ((show W5 m ρ c (Proc.devRef .tc main_arg10) = W4 m ρ c (Proc.devRef .tc main_arg10) by not_written hostOps2).trans ((W4_of_ne m ρ c main_arg10 (by decide)).trans ((show W3 m ρ c (Proc.devRef .tc main_arg10) = W2 m ρ c (Proc.devRef .tc main_arg10) by not_written hostOps1).trans ((W2_of_ne m ρ c main_arg10 (by decide)).trans ((show W1 m ρ c (Proc.devRef .tc main_arg10) = W0 m ρ c (Proc.devRef .tc main_arg10) by not_written hostOps0))))))))
theorem w8_arg11 : W8 m ρ c (Proc.devRef .tc main_arg11) = a11 m c := (W8_of_ne m ρ c main_arg11 (by decide)).trans ((show W7 m ρ c (Proc.devRef .tc main_arg11) = W6 m ρ c (Proc.devRef .tc main_arg11) by not_written hostOps3).trans ((W6_of_ne m ρ c main_arg11 (by decide)).trans ((show W5 m ρ c (Proc.devRef .tc main_arg11) = W4 m ρ c (Proc.devRef .tc main_arg11) by not_written hostOps2).trans ((W4_of_ne m ρ c main_arg11 (by decide)).trans ((show W3 m ρ c (Proc.devRef .tc main_arg11) = W2 m ρ c (Proc.devRef .tc main_arg11) by not_written hostOps1).trans ((W2_of_ne m ρ c main_arg11 (by decide)).trans ((show W1 m ρ c (Proc.devRef .tc main_arg11) = W0 m ρ c (Proc.devRef .tc main_arg11) by not_written hostOps0))))))))
theorem w4_v1 : (W4 m ρ c (Proc.devRef .tc main_v1) : (⟨S1600000, .i32⟩ : BufTy).Contents (Elt Ideal)) = val_main_v1 (F := Ideal) (a1 m c) := ((W4_of_ne m ρ c main_v1 (by decide)).trans ((show W3 m ρ c (Proc.devRef .tc main_v1) = W2 m ρ c (Proc.devRef .tc main_v1) by not_written hostOps1).trans ((W2_of_ne m ρ c main_v1 (by decide))))).trans (w1_v1 m ρ c)
theorem w4_v3 : (W4 m ρ c (Proc.devRef .tc main_v3) : (⟨S1600000, .i32⟩ : BufTy).Contents (Elt Ideal)) = val_main_v3 (F := Ideal) (a1 m c) := ((W4_of_ne m ρ c main_v3 (by decide)).trans ((show W3 m ρ c (Proc.devRef .tc main_v3) = W2 m ρ c (Proc.devRef .tc main_v3) by not_written hostOps1).trans ((W2_of_ne m ρ c main_v3 (by decide))))).trans (w1_v3 m ρ c)
theorem w4_v12 : (W4 m ρ c (Proc.devRef .tc main_v12) : (⟨S100000x1, .f32⟩ : BufTy).Contents (Elt Ideal)) = dinv (a1 m c) := ((W4_of_ne m ρ c main_v12 (by decide)).trans ((show W3 m ρ c (Proc.devRef .tc main_v12) = W2 m ρ c (Proc.devRef .tc main_v12) by not_written hostOps1).trans ((W2_of_ne m ρ c main_v12 (by decide))))).trans (w1_v12 m ρ c)
theorem w8_v1 : (W8 m ρ c (Proc.devRef .tc main_v1) : (⟨S1600000, .i32⟩ : BufTy).Contents (Elt Ideal)) = val_main_v1 (F := Ideal) (a1 m c) := ((W8_of_ne m ρ c main_v1 (by decide)).trans ((show W7 m ρ c (Proc.devRef .tc main_v1) = W6 m ρ c (Proc.devRef .tc main_v1) by not_written hostOps3).trans ((W6_of_ne m ρ c main_v1 (by decide)).trans ((show W5 m ρ c (Proc.devRef .tc main_v1) = W4 m ρ c (Proc.devRef .tc main_v1) by not_written hostOps2).trans ((W4_of_ne m ρ c main_v1 (by decide)).trans ((show W3 m ρ c (Proc.devRef .tc main_v1) = W2 m ρ c (Proc.devRef .tc main_v1) by not_written hostOps1).trans ((W2_of_ne m ρ c main_v1 (by decide))))))))).trans (w1_v1 m ρ c)
theorem w8_v3 : (W8 m ρ c (Proc.devRef .tc main_v3) : (⟨S1600000, .i32⟩ : BufTy).Contents (Elt Ideal)) = val_main_v3 (F := Ideal) (a1 m c) := ((W8_of_ne m ρ c main_v3 (by decide)).trans ((show W7 m ρ c (Proc.devRef .tc main_v3) = W6 m ρ c (Proc.devRef .tc main_v3) by not_written hostOps3).trans ((W6_of_ne m ρ c main_v3 (by decide)).trans ((show W5 m ρ c (Proc.devRef .tc main_v3) = W4 m ρ c (Proc.devRef .tc main_v3) by not_written hostOps2).trans ((W4_of_ne m ρ c main_v3 (by decide)).trans ((show W3 m ρ c (Proc.devRef .tc main_v3) = W2 m ρ c (Proc.devRef .tc main_v3) by not_written hostOps1).trans ((W2_of_ne m ρ c main_v3 (by decide))))))))).trans (w1_v3 m ρ c)
theorem w8_v12 : (W8 m ρ c (Proc.devRef .tc main_v12) : (⟨S100000x1, .f32⟩ : BufTy).Contents (Elt Ideal)) = dinv (a1 m c) := ((W8_of_ne m ρ c main_v12 (by decide)).trans ((show W7 m ρ c (Proc.devRef .tc main_v12) = W6 m ρ c (Proc.devRef .tc main_v12) by not_written hostOps3).trans ((W6_of_ne m ρ c main_v12 (by decide)).trans ((show W5 m ρ c (Proc.devRef .tc main_v12) = W4 m ρ c (Proc.devRef .tc main_v12) by not_written hostOps2).trans ((W4_of_ne m ρ c main_v12 (by decide)).trans ((show W3 m ρ c (Proc.devRef .tc main_v12) = W2 m ρ c (Proc.devRef .tc main_v12) by not_written hostOps1).trans ((W2_of_ne m ρ c main_v12 (by decide))))))))).trans (w1_v12 m ρ c)

/-! ## The regions' output arrays -/

theorem w2_h : W2 m ρ c (Proc.devRef .tc main_v28_0) = (dat0 (V1 m ρ) c).arrAt 3 cfg0.N := W2_arr m ρ c 3
theorem w2_sum : W2 m ρ c (Proc.devRef .tc main_v28_1) = (dat0 (V1 m ρ) c).arrAt 4 cfg0.N := W2_arr m ρ c 4
theorem w2_sumsq : W2 m ρ c (Proc.devRef .tc main_v28_2) = (dat0 (V1 m ρ) c).arrAt 5 cfg0.N := W2_arr m ρ c 5
theorem w3_h : W3 m ρ c (Proc.devRef .tc main_v28_0) = (dat0 (V1 m ρ) c).arrAt 3 cfg0.N := ((show W3 m ρ c (Proc.devRef .tc main_v28_0) = W2 m ρ c (Proc.devRef .tc main_v28_0) by not_written hostOps1)).trans (w2_h m ρ c)
theorem w4_out : W4 m ρ c (Proc.devRef .tc main_v37) = (dat1 (V3 m ρ) c).arrAt 5 cfg1.N := W4_arr m ρ c 5
theorem w6_h : W6 m ρ c (Proc.devRef .tc main_v53_0) = (dat2 (V5 m ρ) c).arrAt 3 cfg2.N := W6_arr m ρ c 3
theorem w6_sum : W6 m ρ c (Proc.devRef .tc main_v53_1) = (dat2 (V5 m ρ) c).arrAt 4 cfg2.N := W6_arr m ρ c 4
theorem w6_sumsq : W6 m ρ c (Proc.devRef .tc main_v53_2) = (dat2 (V5 m ρ) c).arrAt 5 cfg2.N := W6_arr m ρ c 5
theorem w7_h : W7 m ρ c (Proc.devRef .tc main_v53_0) = (dat2 (V5 m ρ) c).arrAt 3 cfg2.N := ((show W7 m ρ c (Proc.devRef .tc main_v53_0) = W6 m ρ c (Proc.devRef .tc main_v53_0) by not_written hostOps3)).trans (w6_h m ρ c)
theorem w8_out : W8 m ρ c (Proc.devRef .tc main_v62) = (dat3 (V7 m ρ) c).arrAt 5 cfg3.N := W8_arr m ρ c 5
theorem w11_result : W11 m ρ c (Proc.devRef .tc main_v78_0) = (dat4 (V9 m ρ) c).arrAt 3 cfg4.N := ((show W11 m ρ c (Proc.devRef .tc main_v78_0) = W10 m ρ c (Proc.devRef .tc main_v78_0) by not_written hostOps5)).trans (W10_arr m ρ c 3)

/-! ## After the second stretch: the batch statistics of layer 1 -/

theorem w3_mean : (W3 m ρ c (Proc.devRef .tc main_v30) : (⟨S1x128, .f32⟩ : BufTy).Contents (Elt Ideal))
    = Host.divf (F := Ideal) (φ := .f32) (W2 m ρ c (Proc.devRef .tc main_v28_1)) (broadcastInDim S1x128 ![] bcast_S_S1x128 (constant (F := Ideal) S_ .f32 0x47C35000#32)) := by
  show StableHlo.after hostOps1 (W2 m ρ c) (Proc.devRef .tc main_v30) = _
  after_results_simp

theorem w3_var : (W3 m ρ c (Proc.devRef .tc main_v34) : (⟨S1x128, .f32⟩ : BufTy).Contents (Elt Ideal))
    = subf (F := Ideal) (φ := .f32) (Host.divf (F := Ideal) (φ := .f32) (W2 m ρ c (Proc.devRef .tc main_v28_2)) (broadcastInDim S1x128 ![] bcast_S_S1x128 (constant (F := Ideal) S_ .f32 0x47C35000#32)))
        (mulf (F := Ideal) (φ := .f32) (W3 m ρ c (Proc.devRef .tc main_v30)) (W3 m ρ c (Proc.devRef .tc main_v30))) := by
  show StableHlo.after hostOps1 (W2 m ρ c) (Proc.devRef .tc main_v34) = _
  rw [w3_mean]
  after_results_simp

theorem w3_gamma : (W3 m ρ c (Proc.devRef .tc main_v35) : (⟨S1x128, .f32⟩ : BufTy).Contents (Elt Ideal)) = shapeCast S1x128 (a4 m c) shapeCasts_S128_S1x128 := by
  show StableHlo.after hostOps1 (W2 m ρ c) (Proc.devRef .tc main_v35) = _
  after_results_simp
  rw [w2_arg4]
  rfl

theorem w3_beta : (W3 m ρ c (Proc.devRef .tc main_v36) : (⟨S1x128, .f32⟩ : BufTy).Contents (Elt Ideal)) = shapeCast S1x128 (a5 m c) shapeCasts_S128_S1x128 := by
  show StableHlo.after hostOps1 (W2 m ρ c) (Proc.devRef .tc main_v36) = _
  after_results_simp
  rw [w2_arg5]
  rfl

end Cert.KernelIdeal.Boundary
end
-- ==== Proof.LibRealValued.lean ====
/-
  Real-valued extended reals. A quantity is real-valued when it is the image of a real number, that is,
  neither of the two infinities. The arithmetic of the extended reals restricted to real-valued
  quantities is the arithmetic of the real numbers, and the elementary functions used here (exponential,
  division by a nonzero real, reciprocal square root of a positive real) keep a real-valued argument
  real-valued.
-/
import Mathlib
import Idealize.ShloMosaic.PureOps.Ideal
import Idealize.ShloMosaic.PureOps.Ideal.Laws
import Idealize.ShloMosaic.Lib.ValueIdx

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

/-- The reciprocal square root of a positive real number is real-valued (and is `(√r)⁻¹`). -/
theorem rsqrt_coe_of_pos {r : ℝ} (h : 0 < r) :
    Ideal.rsqrt (r : EReal) = (((Real.sqrt r)⁻¹ : ℝ) : EReal) := by
  rw [Ideal.rsqrt_coe, if_neg (not_lt.2 h.le), if_neg h.ne']

/-- The reciprocal square root of a positive real number is real-valued. -/
theorem isReal_rsqrt_of_pos {r : ℝ} (h : 0 < r) : IsReal (Ideal.rsqrt (r : EReal)) :=
  ⟨_, rsqrt_coe_of_pos h⟩

/-- A finite sum of squared deviations `(x i - μ) * (x i - μ)` of real-valued quantities from a
    real-valued centre is a nonnegative real number. -/
theorem IsReal.exists_nonneg_sq_sum {ι : Type*} (s : Finset ι) (x : ι → EReal) (μ : EReal)
    (hx : ∀ i ∈ s, IsReal (x i)) (hμ : IsReal μ) :
    ∃ r : ℝ, 0 ≤ r ∧ ∑ i ∈ s, (x i - μ) * (x i - μ) = (r : EReal) := by
  classical
  obtain ⟨m, rfl⟩ := hμ
  induction s using Finset.induction_on with
  | empty => exact ⟨0, le_refl 0, by simp⟩
  | insert a s ha ih =>
    obtain ⟨r, hr, hsum⟩ := ih fun i hi => hx i (Finset.mem_insert_of_mem hi)
    obtain ⟨xa, hxa⟩ := hx a (Finset.mem_insert_self a s)
    refine ⟨(xa - m) * (xa - m) + r, add_nonneg (mul_self_nonneg _) hr, ?_⟩
    rw [Finset.sum_insert ha, hsum, hxa, ← EReal.coe_sub, ← EReal.coe_mul, ← EReal.coe_add]

/-- A nonnegative real divided by a positive real is a nonnegative real. -/
theorem div_coe_nonneg {r : ℝ} (hr : 0 ≤ r) {n : ℝ} (hn : 0 < n) :
    ∃ v : ℝ, 0 ≤ v ∧ Ideal.div (r : EReal) (n : EReal) = (v : EReal) :=
  ⟨r * (1 / n), mul_nonneg hr (by positivity), by
    rw [Ideal.div_coe hn.ne' (r : EReal), ← EReal.coe_mul]⟩

/-- The biased variance shape: a finite sum of squared deviations of real-valued quantities from a
    real-valued centre, divided by a positive real number, is a nonnegative real number. -/
theorem IsReal.exists_nonneg_sq_sum_div {ι : Type*} (s : Finset ι) (x : ι → EReal) (μ : EReal)
    (hx : ∀ i ∈ s, IsReal (x i)) (hμ : IsReal μ) {n : ℝ} (hn : 0 < n) :
    ∃ v : ℝ, 0 ≤ v ∧ Ideal.div (∑ i ∈ s, (x i - μ) * (x i - μ)) (n : EReal) = (v : EReal) := by
  obtain ⟨r, hr, hsum⟩ := IsReal.exists_nonneg_sq_sum s x μ hx hμ
  rw [hsum]
  exact div_coe_nonneg hr hn

/-- A nonnegative real plus a positive real is a positive real. -/
theorem add_coe_pos {v : ℝ} (hv : 0 ≤ v) {ε : ℝ} (hε : 0 < ε) :
    ∃ p : ℝ, 0 < p ∧ (v : EReal) + (ε : EReal) = (p : EReal) :=
  ⟨v + ε, add_pos_of_nonneg_of_pos hv hε, (EReal.coe_add v ε).symm⟩

/-- The reciprocal square root of (a nonnegative real plus a positive real) is real-valued. -/
theorem isReal_rsqrt_add {v : ℝ} (hv : 0 ≤ v) {ε : ℝ} (hε : 0 < ε) :
    IsReal (Ideal.rsqrt ((v : EReal) + (ε : EReal))) := by
  obtain ⟨p, hp, h⟩ := add_coe_pos hv hε
  rw [h]
  exact isReal_rsqrt_of_pos hp

end Cert.RealValued
-- ==== Proof.FiniteInputs.lean ====
/-
  Finite inputs are real-valued. The precondition states, for each floating-point argument array x, that
  the conjunction over all entries of the strict comparison |x i| < +∞ holds, and that all these
  conjunctions hold together. Over the extended reals |x| = max x (-x), so |x| = +∞ exactly when x is one
  of the two infinities; hence the precondition says that every entry of every floating-point argument is
  (the image of) a real number.
-/
import proofs.«176481_j81363860455527_1_alg».proof.Pre_finite_inputs
import Idealize.ShloMosaic.PureOps.Ideal
import Idealize.ShloMosaic.Lib.ValueIdx
import Idealize.ShloMosaic.Lib.ReduceAll
import proofs.«176481_j81363860455527_1_alg».proof.Proof.LibRealValued

namespace Cert.FiniteInputs

open Idealize.ShloMosaic Cert.RealValued Cert.Pre_finite_inputs

/-- The rank-zero shape has exactly one index. -/
instance : Subsingleton S_.Idx := ⟨fun a b => funext fun d => d.elim0⟩

/-- An extended real whose absolute value max x (-x) is strictly below +∞ is a real number: for x = -∞
    and for x = +∞ the absolute value is +∞, and the strict comparison fails. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One array, of any shape: if the conjunction over all entries of |a i| < +∞ (the constant with the
    bit pattern 0x7F800000, which denotes +∞) is true, every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant S_ .f32 0x7F800000#32))) init hr hu j = 1#1) :
    ∀ i, IsReal (a i) := by
  intro i
  have h1 := Host.reduce_andi_all _ init hr hu j e i
  apply isReal_of_abs_lt_top
  have htop : Ideal.ofBits .f32 0x7F800000#32 = ⊤ := by simp [Ideal.ofBits, Ideal.ieee]
  rw [← htop]
  exact h1

/-- The precondition, read back: every entry of every floating-point argument is a real number. (The
    integer argument a1 is not constrained.) -/
theorem real_of_fn [Facts] (a0 : FVec Ideal S100000x64 .f32) (a1 : IVec S2x1600000 32) (a2 : FVec Ideal S128x64 .f32)
    (a3 a4 a5 : FVec Ideal S128 .f32) (a6 : FVec Ideal S128x128 .f32) (a7 a8 a9 : FVec Ideal S128 .f32)
    (a10 : FVec Ideal S64x128 .f32) (a11 : FVec Ideal S64 .f32)
    (h : Cert.Pre_finite_inputs.fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) ∧ (∀ i, IsReal (a8 i)) ∧
      (∀ i, IsReal (a9 i)) ∧ (∀ i, IsReal (a10 i)) ∧ (∀ i, IsReal (a11 i)) := by
  have h0 := congrFun h ValueIdx.ix0
  dsimp only [fn, fn_part1, fn_part2, fn_part3] at h0
  simp only [andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨all_real a0 _ _ _ _ _ e0, all_real a2 _ _ _ _ _ e2, all_real a3 _ _ _ _ _ e3,
    all_real a4 _ _ _ _ _ e4, all_real a5 _ _ _ _ _ e5, all_real a6 _ _ _ _ _ e6,
    all_real a7 _ _ _ _ _ e7, all_real a8 _ _ _ _ _ e8, all_real a9 _ _ _ _ _ e9,
    all_real a10 _ _ _ _ _ e10, all_real a11 _ _ _ _ _ e11⟩

end Cert.FiniteInputs
-- ==== Proof.KernelBoundary2.lean ====
/-
  The idealized kernel program between its launches, continued: the second and third layers' host stretches. The
  neighbourhood sum is taken of the previous layer's output array, scaled by the same reciprocal degree column; the
  batch statistics are the region's column sums divided by the node count.
-/
import proofs.«176481_j81363860455527_1_alg».proof.Proof.KernelBoundary

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## After the third stretch: layer 2's normalised neighbourhood sum, weights and bias -/

set_option maxHeartbeats 4000000 in
theorem w5_v49 : (W5 m ρ c (Proc.devRef .tc main_v49) : (⟨S100000x128, .f32⟩ : BufTy).Contents (Elt Ideal))
    = mulf (F := Ideal) (φ := .f32) (agg128 (W4 m ρ c (Proc.devRef .tc main_v37)) (a1 m c)) (broadcastInDim S100000x128 ![0, 1] bcast_S100000x1_S100000x128_0_1 (dinv (a1 m c))) := by
  show StableHlo.after hostOps2 (W4 m ρ c) (Proc.devRef .tc main_v49) = _
  after_results_simp
  rw [w4_v1, w4_v3, w4_v12]
  rfl

set_option maxHeartbeats 4000000 in
theorem w5_v51 : (W5 m ρ c (Proc.devRef .tc main_v51) : (⟨S128x128, .bf16⟩ : BufTy).Contents (Elt Ideal)) = truncf (F := Ideal) .bf16 (val_main_v73 (F := Ideal) (a6 m c)) bitsLt_bf16_f32 := by
  show StableHlo.after hostOps2 (W4 m ρ c) (Proc.devRef .tc main_v51) = _
  after_results_simp
  rw [w4_arg6]
  rfl

set_option maxHeartbeats 4000000 in
theorem w5_v52 : (W5 m ρ c (Proc.devRef .tc main_v52) : (⟨S1x128, .f32⟩ : BufTy).Contents (Elt Ideal)) = shapeCast S1x128 (a7 m c) shapeCasts_S128_S1x128 := by
  show StableHlo.after hostOps2 (W4 m ρ c) (Proc.devRef .tc main_v52) = _
  after_results_simp
  rw [w4_arg7]
  rfl

/-! ## After the fourth stretch: the batch statistics of layer 2 -/

theorem w7_mean : (W7 m ρ c (Proc.devRef .tc main_v55) : (⟨S1x128, .f32⟩ : BufTy).Contents (Elt Ideal))
    = Host.divf (F := Ideal) (φ := .f32) (W6 m ρ c (Proc.devRef .tc main_v53_1)) (broadcastInDim S1x128 ![] bcast_S_S1x128 (constant (F := Ideal) S_ .f32 0x47C35000#32)) := by
  show StableHlo.after hostOps3 (W6 m ρ c) (Proc.devRef .tc main_v55) = _
  after_results_simp

theorem w7_var : (W7 m ρ c (Proc.devRef .tc main_v59) : (⟨S1x128, .f32⟩ : BufTy).Contents (Elt Ideal))
    = subf (F := Ideal) (φ := .f32) (Host.divf (F := Ideal) (φ := .f32) (W6 m ρ c (Proc.devRef .tc main_v53_2)) (broadcastInDim S1x128 ![] bcast_S_S1x128 (constant (F := Ideal) S_ .f32 0x47C35000#32)))
        (mulf (F := Ideal) (φ := .f32) (W7 m ρ c (Proc.devRef .tc main_v55)) (W7 m ρ c (Proc.devRef .tc main_v55))) := by
  show StableHlo.after hostOps3 (W6 m ρ c) (Proc.devRef .tc main_v59) = _
  rw [w7_mean]
  after_results_simp

theorem w7_gamma : (W7 m ρ c (Proc.devRef .tc main_v60) : (⟨S1x128, .f32⟩ : BufTy).Contents (Elt Ideal)) = shapeCast S1x128 (a8 m c) shapeCasts_S128_S1x128 := by
  show StableHlo.after hostOps3 (W6 m ρ c) (Proc.devRef .tc main_v60) = _
  after_results_simp
  rw [w6_arg8]
  rfl

theorem w7_beta : (W7 m ρ c (Proc.devRef .tc main_v61) : (⟨S1x128, .f32⟩ : BufTy).Contents (Elt Ideal)) = shapeCast S1x128 (a9 m c) shapeCasts_S128_S1x128 := by
  show StableHlo.after hostOps3 (W6 m ρ c) (Proc.devRef .tc main_v61) = _
  after_results_simp
  rw [w6_arg9]
  rfl

/-! ## After the fifth stretch: layer 3's normalised neighbourhood sum, weights and bias -/

set_option maxHeartbeats 4000000 in
theorem w9_v74 : (W9 m ρ c (Proc.devRef .tc main_v74) : (⟨S100000x128, .f32⟩ : BufTy).Contents (Elt Ideal))
    = mulf (F := Ideal) (φ := .f32) (agg128 (W8 m ρ c (Proc.devRef .tc main_v62)) (a1 m c)) (broadcastInDim S100000x128 ![0, 1] bcast_S100000x1_S100000x128_0_1 (dinv (a1 m c))) := by
  show StableHlo.after hostOps4 (W8 m ρ c) (Proc.devRef .tc main_v74) = _
  after_results_simp
  rw [w8_v1, w8_v3, w8_v12]
  rfl

set_option maxHeartbeats 4000000 in
theorem w9_v76 : (W9 m ρ c (Proc.devRef .tc main_v76) : (⟨S128x64, .bf16⟩ : BufTy).Contents (Elt Ideal)) = truncf (F := Ideal) .bf16 (val_main_v123 (F := Ideal) (a10 m c)) bitsLt_bf16_f32 := by
  show StableHlo.after hostOps4 (W8 m ρ c) (Proc.devRef .tc main_v76) = _
  after_results_simp
  rw [w8_arg10]
  rfl

set_option maxHeartbeats 4000000 in
theorem w9_v77 : (W9 m ρ c (Proc.devRef .tc main_v77) : (⟨S1x64, .f32⟩ : BufTy).Contents (Elt Ideal)) = shapeCast S1x64 (a11 m c) shapeCasts_S64_S1x64 := by
  show StableHlo.after hostOps4 (W8 m ρ c) (Proc.devRef .tc main_v77) = _
  after_results_simp
  rw [w8_arg11]
  rfl

end Cert.KernelIdeal.Boundary
end
-- ==== Proof.BnAlgebra.lean ====
/-
  Algebra of batch normalisation over the extended reals, restricted to real-valued quantities:
  multiplying by a reciprocal is dividing, the two forms of the biased variance agree, the mean is
  real-valued, the variance is a nonnegative real, the normalised and rectified output is real-valued,
  a sum over tiles is the sum over the whole range, and adding scattered updates or gathering entries
  keeps real-valued data real-valued.
-/
import Mathlib
import Idealize.ShloMosaic.PureOps.Ideal
import Idealize.ShloMosaic.PureOps.Ideal.Laws
import proofs.«176481_j81363860455527_1_alg».proof.Proof.LibRealValued

namespace Cert.BnAlgebra

open Cert.RealValued Idealize.ShloMosaic

/-- The image of a finite sum of real numbers is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplying by the reciprocal of a nonzero real number is dividing by it. -/
theorem mul_inv_eq_div (a : EReal) {d : ℝ} (hd : d ≠ 0) :
    a * Ideal.div 1 (d : EReal) = Ideal.div a (d : EReal) := by
  rw [Ideal.div_coe hd, Ideal.div_coe hd, one_mul]

/-- Over the reals, the mean of the squares minus the square of the mean is the mean of the squared
    deviations from the mean. -/
theorem real_var_two_forms {N : ℕ} (f : Fin N → ℝ) (hN : (N : ℝ) ≠ 0) :
    (∑ r, f r * f r) * (1 / (N : ℝ))
        - ((∑ r, f r) * (1 / (N : ℝ))) * ((∑ r, f r) * (1 / (N : ℝ)))
      = (∑ r, (f r - (∑ r, f r) * (1 / (N : ℝ))) * (f r - (∑ r, f r) * (1 / (N : ℝ))))
        * (1 / (N : ℝ)) := by
  have key : ∀ m : ℝ, ∑ r, (f r - m) * (f r - m)
      = (∑ r, f r * f r) - 2 * m * (∑ r, f r) + N * (m * m) := by
    intro m
    have : ∀ r, (f r - m) * (f r - m) = f r * f r - 2 * m * f r + m * m := fun r => by ring
    simp only [this, Finset.sum_add_distrib, Finset.sum_sub_distrib, ← Finset.mul_sum,
      Finset.sum_const, Finset.card_univ, Fintype.card_fin, nsmul_eq_mul]
    ring
  rw [key]
  generalize (∑ r, f r) = S
  generalize (∑ r, f r * f r) = Q
  field_simp
  ring

/-- The two forms of the biased variance of real-valued data agree: the mean of the squares minus the
    square of the mean is the mean of the squared deviations from the mean. -/
theorem var_two_forms {N : ℕ} (h : Fin N → EReal) (hh : ∀ r, IsReal (h r)) (hN : (N : ℝ) ≠ 0)
    (n μ : EReal) (hn : n = ((N : ℝ) : EReal)) (hμ : μ = Ideal.div (∑ r, h r) n) :
    Ideal.div (∑ r, h r * h r) n - μ * μ = Ideal.div (∑ r, (h r - μ) * (h r - μ)) n := by
  choose f hf using hh
  obtain rfl : h = fun r => ((f r : ℝ) : EReal) := funext hf
  subst hn
  subst hμ
  simp only [Ideal.div_coe hN, coe_sum, ← EReal.coe_mul, ← EReal.coe_sub]
  rw [EReal.coe_eq_coe_iff]
  exact real_var_two_forms f hN

/-- The mean of real-valued data (their sum divided by a nonzero count) is real-valued. -/
theorem isReal_mean {N : ℕ} (h : Fin N → EReal) (hh : ∀ r, IsReal (h r)) (hN : (N : ℝ) ≠ 0)
    (n μ : EReal) (hn : n = ((N : ℝ) : EReal)) (hμ : μ = Ideal.div (∑ r, h r) n) : IsReal μ := by
  subst hn
  subst hμ
  exact isReal_div_coe (IsReal.sum _ _ fun r _ => hh r) hN

/-- The biased variance of real-valued data (the mean of the squared deviations from the mean) is a
    nonnegative real number. -/
theorem var_nonneg {N : ℕ} (h : Fin N → EReal) (hh : ∀ r, IsReal (h r)) (hN : (N : ℝ) ≠ 0)
    (n μ : EReal) (hn : n = ((N : ℝ) : EReal)) (hμ : μ = Ideal.div (∑ r, h r) n) :
    ∃ v : ℝ, 0 ≤ v ∧ Ideal.div (∑ r, (h r - μ) * (h r - μ)) n = (v : EReal) := by
  have hμr : IsReal μ := isReal_mean h hh hN n μ hn hμ
  have hpos : (0 : ℝ) < (N : ℝ) := lt_of_le_of_ne (Nat.cast_nonneg N) (Ne.symm hN)
  subst hn
  exact IsReal.exists_nonneg_sq_sum_div Finset.univ h μ (fun r _ => hh r) hμr hpos

/-- Normalising a real-valued entry by a real-valued mean and the reciprocal square root of a
    nonnegative variance plus a positive constant, scaling, shifting and rectifying, gives a
    real-valued result. -/
theorem isReal_bn_out {x μ g b : EReal} (hx : IsReal x) (hμ : IsReal μ) (hg : IsReal g)
    (hb : IsReal b) {v ε : ℝ} (hv : 0 ≤ v) (hε : 0 < ε) :
    IsReal (max ((x - μ) * Ideal.rsqrt ((v : EReal) + (ε : EReal)) * g + b) 0) :=
  ((((hx.sub hμ).mul (isReal_rsqrt_add hv hε)).mul hg).add hb).max IsReal.zero

/-- Summing tile by tile, `T` tiles of `B` consecutive terms each, is summing the first `T * B` terms. -/
theorem sum_tiles_gen (T B : ℕ) (f : ℕ → EReal) :
    (∑ t ∈ Finset.range T, ∑ q : Fin B, f (B * t + q.val)) = ∑ r ∈ Finset.range (T * B), f r := by
  induction T with
  | zero => simp
  | succ T ih =>
    rw [Finset.sum_range_succ, ih, Nat.succ_mul, Finset.sum_range_add,
      Fin.sum_univ_eq_sum_range (fun q => f (B * T + q)) B, Nat.mul_comm B T]

/-- Summing ten tiles of ten thousand consecutive terms each is summing the first hundred thousand
    terms. -/
theorem sum_tiles (f : ℕ → EReal) :
    (∑ t ∈ Finset.range 10, ∑ q : Fin 10000, f (10000 * t + q.val)) = ∑ r : Fin 100000, f r.val := by
  rw [sum_tiles_gen 10 10000 f, Fin.sum_univ_eq_sum_range f 100000]

/-- Adding scattered real-valued updates to real-valued entries gives real-valued entries: each entry
    is the old entry plus a finite sum of updates. -/
theorem isReal_hostScatterAdd {s si su : Shape} (d : ScatterDims s si su) {w : Nat}
    (x : s.Idx → EReal) (idx : IVec si w) (upd : su.Idx → EReal)
    (hx : ∀ i, IsReal (x i)) (hupd : ∀ j, IsReal (upd j)) (i : s.Idx) :
    IsReal (Ideal.hostScatterAdd d x idx upd i) := by
  unfold Ideal.hostScatterAdd
  exact (hx i).add (IsReal.sum _ _ fun j _ => hupd j)

/-- A finite sum of nonnegative real numbers is a nonnegative real number. -/
theorem exists_nonneg_sum {ι : Type*} (s : Finset ι) (f : ι → EReal)
    (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    obtain ⟨r, hr, hsum⟩ := ih fun i hi => h i (Finset.mem_insert_of_mem hi)
    obtain ⟨ra, hra, hfa⟩ := h a (Finset.mem_insert_self a s)
    exact ⟨ra + r, add_nonneg hra hr, by rw [Finset.sum_insert ha, hsum, hfa, ← EReal.coe_add]⟩

/-- Adding scattered nonnegative real updates to nonnegative real entries gives nonnegative real
    entries. -/
theorem scatter_nonneg {s si su : Shape} (d : ScatterDims s si su) {w : Nat}
    (x : s.Idx → EReal) (idx : IVec si w) (upd : su.Idx → EReal)
    (hx : ∀ i, ∃ r : ℝ, 0 ≤ r ∧ x i = (r : EReal))
    (hupd : ∀ j, ∃ r : ℝ, 0 ≤ r ∧ upd j = (r : EReal)) (i : s.Idx) :
    ∃ r : ℝ, 0 ≤ r ∧ Ideal.hostScatterAdd d x idx upd i = (r : EReal) := by
  unfold Ideal.hostScatterAdd
  obtain ⟨a, ha, hxa⟩ := hx i
  obtain ⟨r, hr, hsum⟩ := exists_nonneg_sum
    (Finset.univ.filter (fun j => d.resultIdx? j idx = some i)) upd (fun j _ => hupd j)
  exact ⟨a + r, add_nonneg ha hr, by rw [hxa, hsum, ← EReal.coe_add]⟩

/-- Scattering ones onto zeros counts the updates landing at each entry: every entry is a nonnegative
    real number. -/
theorem scatter_ones_nonneg {s si su : Shape} (d : ScatterDims s si su) {w : Nat}
    (x : s.Idx → EReal) (idx : IVec si w) (upd : su.Idx → EReal)
    (hx : x = fun _ => 0) (hupd : upd = fun _ => 1) (i : s.Idx) :
    ∃ r : ℝ, 0 ≤ r ∧ Ideal.hostScatterAdd d x idx upd i = (r : EReal) := by
  subst hx
  subst hupd
  exact scatter_nonneg d _ idx _ (fun _ => ⟨0, le_refl 0, EReal.coe_zero.symm⟩)
    (fun _ => ⟨1, zero_le_one, EReal.coe_one.symm⟩) i

/-- Gathering entries of real-valued data gives real-valued entries: each result is one of the
    operand's entries. -/
theorem isReal_gather {s si t : Shape} (d : GatherDims s si t) {w : Nat}
    (x : s.Idx → EReal) (idx : IVec si w) (hx : ∀ i, IsReal (x i)) (j : t.Idx) :
    IsReal (Host.gather d x idx j) := by
  unfold Host.gather
  exact hx _

end Cert.BnAlgebra
-- ==== Proof.Consts.lean ====
/-
  The float constants spelled by the two programs, as the extended reals their bit patterns denote.
  A normal single-precision pattern with exponent field E and significand field T denotes
  (2^23 + T) * 2^(E - 150).
-/
import Idealize.ShloMosaic.PureOps.Ideal

noncomputable section

namespace Cert.Consts

open Idealize.ShloMosaic

/-- The all-zero pattern denotes `0`. -/
theorem ofBits_zero : Ideal.ofBits .f32 0x00000000#32 = 0 := by
  simp [Ideal.ofBits, Ideal.ieee]

/-- The pattern of `1.0` denotes `1 = 2^23 * 2^(127 - 150)`. -/
theorem ofBits_one : Ideal.ofBits .f32 0x3F800000#32 = 1 := by
  simp [Ideal.ofBits, Ideal.ieee, -EReal.coe_mul]; norm_num

/-- The pattern of `100000.0` denotes the real `100000 = 12800000 * 2^(143 - 150)`. -/
theorem ofBits_1e5 : Ideal.ofBits .f32 0x47C35000#32 = ((100000 : ℝ) : EReal) := by
  simp [Ideal.ofBits, Ideal.ieee, -EReal.coe_mul]; norm_num

/-- The pattern `0x358637BD` (about `1e-6`) denotes the positive real `8796093 * 2^(107 - 150)`. -/
theorem eps_deg : ∃ e : ℝ, 0 < e ∧ Ideal.ofBits .f32 0x358637BD#32 = (e : EReal) := by
  refine ⟨(8796093 : ℝ) * (2 : ℝ) ^ (-43 : Int), by positivity, ?_⟩
  simp [Ideal.ofBits, Ideal.ieee, -EReal.coe_mul]

/-- The pattern `0x3727C5AC` (about `1e-5`) denotes the positive real `10995116 * 2^(110 - 150)`. -/
theorem eps_bn : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

end Cert.Consts

end
-- ==== Proof.Layer.lean ====
/-
  One graph-convolution layer over the extended reals, in two spellings. Multiplying by the reciprocal
  of a positive normaliser is dividing by it; a nonnegative degree plus a positive constant is a positive
  real; a linear map of real-valued data is real-valued; and batch normalisation computed from tiled sums
  of the entries and of their squares (mean of squares minus squared mean) agrees with batch
  normalisation computed from the mean and the mean squared deviation, and is real-valued.
-/
import Mathlib
import proofs.«176481_j81363860455527_1_alg».proof.Proof.BnAlgebra
import proofs.«176481_j81363860455527_1_alg».proof.Proof.Consts

noncomputable section

namespace Cert.Layer

open Cert.RealValued Cert.BnAlgebra Idealize.ShloMosaic

/-- Multiplying by one over a nonzero real normaliser is dividing by the normaliser. -/
theorem norm_eq (a den one : EReal) (h1 : one = 1) {d : ℝ} (hd : d ≠ 0) (hden : den = (d : EReal)) :
    a * Ideal.div one den = Ideal.div a den := by
  subst h1
  subst hden
  exact mul_inv_eq_div a hd

/-- A nonnegative real plus a positive real is a positive real. -/
theorem den_pos (deg e : EReal) (hdeg : ∃ r : ℝ, 0 ≤ r ∧ deg = (r : EReal))
    (he : ∃ ε : ℝ, 0 < ε ∧ e = (ε : EReal)) : ∃ d : ℝ, 0 < d ∧ deg + e = (d : EReal) := by
  obtain ⟨r, hr, rfl⟩ := hdeg
  obtain ⟨ε, hε, rfl⟩ := he
  exact ⟨r + ε, add_pos_of_nonneg_of_pos hr hε, (EReal.coe_add r ε).symm⟩

/-- A real-valued quantity divided by a nonzero real normaliser is real-valued. -/
theorem isReal_norm {a den : EReal} (ha : IsReal a) {d : ℝ} (hd : d ≠ 0) (hden : den = (d : EReal)) :
    IsReal (Ideal.div a den) := by
  subst hden
  exact isReal_div_coe ha hd

/-- A linear combination of real-valued entries with real-valued weights plus a real-valued offset is
    real-valued. -/
theorem isReal_lin {K : ℕ} (na w : Fin K → EReal) (b : EReal) (hna : ∀ k, IsReal (na k))
    (hw : ∀ k, IsReal (w k)) (hb : IsReal b) : IsReal ((∑ k, na k * w k) + b) :=
  (IsReal.sum _ _ fun k _ => (hna k).mul (hw k)).add hb

/-- The mean of column `q`: the initial value plus the sum of the column, divided by the count. -/
def meanR {D : ℕ} (h : Fin 100000 → Fin D → EReal) (n zero : EReal) (q : Fin D) : EReal :=
  Ideal.div (zero + ∑ r, h r q) n

/-- The biased variance of column `q`: the initial value plus the sum of the squared deviations from
    the mean, divided by the count. -/
def varR {D : ℕ} (h : Fin 100000 → Fin D → EReal) (n zero : EReal) (q : Fin D) : EReal :=
  Ideal.div (zero + ∑ r, (h r q - meanR h n zero q) * (h r q - meanR h n zero q)) n

/-- The mean of a column, spelled out. -/
theorem meanR_def {D : ℕ} (h : Fin 100000 → Fin D → EReal) (n zero : EReal) (q : Fin D) :
    meanR h n zero q = Ideal.div (zero + ∑ r, h r q) n := rfl

/-- The biased variance of a column, spelled out. -/
theorem varR_def {D : ℕ} (h : Fin 100000 → Fin D → EReal) (n zero : EReal) (q : Fin D) :
    varR h n zero q
      = Ideal.div (zero + ∑ r, (h r q - meanR h n zero q) * (h r q - meanR h n zero q)) n := rfl

/-- A sum taken tile by tile (ten tiles of ten thousand terms) of a sequence that agrees with a family
    on the first hundred thousand indices is the sum of the family. -/
theorem sum_tiles_congr (F : ℕ → EReal) (G : Fin 100000 → EReal)
    (hFG : ∀ r : Fin 100000, F r.val = G r) :
    (∑ t ∈ Finset.range 10, ∑ p : Fin 10000, F (10000 * t + p.val)) = ∑ r, G r := by
  rw [sum_tiles F]
  exact Finset.sum_congr rfl fun r _ => hFG r

/-- The tiled column sum is the initial value plus the sum of the column. -/
theorem S_eq {D : ℕ} (h : Fin 100000 → Fin D → EReal) (zero : EReal) (S : Fin D → EReal)
    (hN : ℕ → Fin D → EReal) (hhN : ∀ (r : Fin 100000) q, hN r.val q = h r q)
    (hS : ∀ q, S q = zero + ∑ t ∈ Finset.range 10, ∑ p : Fin 10000, hN (10000 * t + p.val) q)
    (q : Fin D) : S q = zero + ∑ r, h r q := by
  have e : (∑ t ∈ Finset.range 10, ∑ p : Fin 10000, hN (10000 * t + p.val) q) = ∑ r, h r q :=
    sum_tiles_congr (fun r => hN r q) (fun r => h r q) (fun r => hhN r q)
  rw [hS q, e]

/-- The tiled column sum of squares is the initial value plus the sum of the squares of the column. -/
theorem Q_eq {D : ℕ} (h : Fin 100000 → Fin D → EReal) (zero : EReal) (Q : Fin D → EReal)
    (hN : ℕ → Fin D → EReal) (hhN : ∀ (r : Fin 100000) q, hN r.val q = h r q)
    (hQ : ∀ q, Q q = zero + ∑ t ∈ Finset.range 10, ∑ p : Fin 10000,
      hN (10000 * t + p.val) q * hN (10000 * t + p.val) q)
    (q : Fin D) : Q q = zero + ∑ r, h r q * h r q := by
  have e : (∑ t ∈ Finset.range 10, ∑ p : Fin 10000,
      hN (10000 * t + p.val) q * hN (10000 * t + p.val) q) = ∑ r, h r q * h r q :=
    sum_tiles_congr (fun r => hN r q * hN r q) (fun r => h r q * h r q)
      (fun r => by rw [hhN r q])
  rw [hQ q, e]

/-- The count `100000`, as a natural number cast to the reals, is not zero. -/
theorem count_ne_zero : ((100000 : ℕ) : ℝ) ≠ 0 := by norm_num

/-- The real `100000` is the cast of the natural number `100000`. -/
theorem count_cast {n : EReal} (hn : n = ((100000 : ℝ) : EReal)) :
    n = (((100000 : ℕ) : ℝ) : EReal) := by
  rw [hn, Nat.cast_ofNat]

/-- The column sum divided by the count is the mean of the column. -/
theorem mean_eq {D : ℕ} (h : Fin 100000 → Fin D → EReal) (n zero : EReal) (S : Fin D → EReal)
    (hS : ∀ q, S q = zero + ∑ r : Fin 100000, h r q) :
    ∀ q, Ideal.div (S q) n = meanR h n zero q := by
  intro q
  rw [hS q, meanR_def]

/-- The mean of the squares minus the square of the mean is the biased variance of the column. -/
theorem var_eq {D : ℕ} (h : Fin 100000 → Fin D → EReal) (hh : ∀ r q, IsReal (h r q))
    (n zero : EReal) (hn : n = ((100000 : ℝ) : EReal)) (hz : zero = 0) (S Q : Fin D → EReal)
    (hS : ∀ q, S q = zero + ∑ r : Fin 100000, h r q)
    (hQ : ∀ q, Q q = zero + ∑ r : Fin 100000, h r q * h r q) :
    ∀ q, Ideal.div (Q q) n - Ideal.div (S q) n * Ideal.div (S q) n = varR h n zero q := by
  intro q
  rw [hS q, hQ q, varR_def, meanR_def]
  subst hz
  simp only [zero_add]
  exact var_two_forms (fun r => h r q) (fun r => hh r q) count_ne_zero n _ (count_cast hn) rfl

/-- Batch normalisation from the column sum and the column sum of squares agrees with batch
    normalisation from the mean and the biased variance. -/
theorem out_eq {D : ℕ} (h : Fin 100000 → Fin D → EReal) (hh : ∀ r q, IsReal (h r q))
    (g be : Fin D → EReal) (n e2 zero : EReal) (hn : n = ((100000 : ℝ) : EReal)) (hz : zero = 0)
    (S Q : Fin D → EReal)
    (hS : ∀ q, S q = zero + ∑ r : Fin 100000, h r q)
    (hQ : ∀ q, Q q = zero + ∑ r : Fin 100000, h r q * h r q) :
    ∀ r q, max ((h r q - Ideal.div (S q) n)
          * Ideal.rsqrt ((Ideal.div (Q q) n - Ideal.div (S q) n * Ideal.div (S q) n) + e2)
          * g q + be q) zero
      = max ((h r q - meanR h n zero q) * Ideal.rsqrt (varR h n zero q + e2) * g q + be q) zero := by
  intro r q
  rw [var_eq h hh n zero hn hz S Q hS hQ q, mean_eq h n zero S hS q]

/-- The mean of a real-valued column is real-valued. -/
theorem isReal_meanR {D : ℕ} (h : Fin 100000 → Fin D → EReal) (hh : ∀ r q, IsReal (h r q))
    (n zero : EReal) (hn : n = ((100000 : ℝ) : EReal)) (hz : zero = 0) (q : Fin D) :
    IsReal (meanR h n zero q) := by
  rw [meanR_def]
  subst hz
  rw [zero_add]
  exact isReal_mean (fun r => h r q) (fun r => hh r q) count_ne_zero n _ (count_cast hn) rfl

/-- The biased variance of a real-valued column is a nonnegative real number. -/
theorem varR_nonneg {D : ℕ} (h : Fin 100000 → Fin D → EReal) (hh : ∀ r q, IsReal (h r q))
    (n zero : EReal) (hn : n = ((100000 : ℝ) : EReal)) (hz : zero = 0) (q : Fin D) :
    ∃ v : ℝ, 0 ≤ v ∧ varR h n zero q = (v : EReal) := by
  rw [varR_def, meanR_def]
  subst hz
  simp only [zero_add]
  exact var_nonneg (fun r => h r q) (fun r => hh r q) count_ne_zero n _ (count_cast hn) rfl

/-- Batch normalisation of real-valued data with real-valued scale and offset and a positive constant
    under the square root, followed by rectification, is real-valued. -/
theorem isReal_out {D : ℕ} (h : Fin 100000 → Fin D → EReal) (hh : ∀ r q, IsReal (h r q))
    (g be : Fin D → EReal) (hg : ∀ q, IsReal (g q)) (hbe : ∀ q, IsReal (be q))
    (n e2 zero : EReal) (hn : n = ((100000 : ℝ) : EReal))
    (he2 : ∃ ε : ℝ, 0 < ε ∧ e2 = (ε : EReal)) (hz : zero = 0) :
    ∀ r q, IsReal (max ((h r q - meanR h n zero q) * Ideal.rsqrt (varR h n zero q + e2)
      * g q + be q) zero) := by
  intro r q
  subst hz
  obtain ⟨ε, hε, rfl⟩ := he2
  obtain ⟨v, hv, hvar⟩ := varR_nonneg h hh n 0 hn rfl q
  have hμ : IsReal (meanR h n 0 q) := isReal_meanR h hh n 0 hn rfl q
  rw [hvar]
  exact isReal_bn_out (hh r q) hμ (hg q) (hbe q) hv hε

end Cert.Layer

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Linear0.lean ====
/-
  The linear layer with column statistics of region 0, read off its frame at the ideal values.

  The region runs over ten tiles of 10000 rows. At tile t the body forms h = x_t · W + b for the tile's rows (the
  left operand rounded to the narrower format, which is the identity at the ideal values; the product accumulated
  into zero), stores h, and adds the column sums of h and of h * h onto two running rows that the first tile resets
  to the zero word. With X the 100000×64 operand, W the 64×128 weights and b the 1×128 bias as the region
  finds them, and hval r q = (∑ k, X (r, k) * W (k, q)) + b (0, q):

    * the h result holds hval r q at (r, q);
    * the two statistics rows hold, at (0, q), the zero word plus the sum over all 100000 rows of hval r q, and of
      hval r q * hval r q (addition of extended reals is commutative and associative, so the tile order does not
      show).
-/
import proofs.«176481_j81363860455527_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«176481_j81363860455527_1_alg».proof.Proof.LibPlainDot

noncomputable section

open scoped BigOperators
open Idealize.ShloMosaic Idealize.ShloMosaic.TcCoe Idealize.SL.Sem
open Idealize.ShloMosaic.Pipeline (Dat)
open Idealize.ShloMosaic.ValueIdx

namespace Cert.KernelIdeal.Linear0

open Cert.KernelIdeal Cert.KernelIdeal.Gen

/-! ## The body's values at a tile, over any operand blocks -/

/-- The tile of h at (p, q): the row of x against the column of W, plus the bias. -/
theorem pay3_apply (x0 : Vec Ideal S10000x64 .f32) (x1 : Vec Ideal S64x128 .bf16) (x2 : Vec Ideal S1x128 .f32) (p : Fin 10000) (q : Fin 128) :
    k0_pay3 (F := Ideal) x0 x1 x2 (ix2 p q) = (∑ k : Fin 64, x0 (ix2 p k) * x1 (ix2 k q)) + x2 (ix2 (0 : Fin 1) q) := by
  unfold k0_pay3
  simp only [shapeCast_self]
  refine (addf_apply _ _ _).trans ?_
  refine congrArg₂ (· + ·) ?_ ?_
  · exact (PlainDot.matmul_zero_apply (M := 10000) (K := 64) (N := 128) none _ _ p q)
  · exact (broadcastTo_1b_ab_apply _ _ p q)

/-- The index a column sum reads at row p of column q. -/
theorem lift_eq (q : Fin 128) (p : Fin 10000) : reduces_S10000x128_S128.lift (ix1 q) p = ix2 p q := by
  funext a
  match a with
  | ⟨0, _⟩ => rfl
  | ⟨1, _⟩ => rfl

/-- The running sum row after a tile: what it held plus the tile's column sum of h. -/
theorem pay4_apply (x0 : Vec Ideal S10000x64 .f32) (x1 : Vec Ideal S64x128 .bf16) (x2 : Vec Ideal S1x128 .f32) (a : Vec Ideal S1x128 .f32) (q : Fin 128) :
    k0_pay4 (F := Ideal) x0 x1 x2 a (ix2 (0 : Fin 1) q)
      = a (ix2 (0 : Fin 1) q) + ∑ p : Fin 10000, k0_pay3 (F := Ideal) x0 x1 x2 (ix2 p q) := by
  unfold k0_pay4
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => congrArg _ (lift_eq q p)

/-- The running sum-of-squares row after a tile: what it held plus the tile's column sum of h * h. -/
theorem pay5_apply (x0 : Vec Ideal S10000x64 .f32) (x1 : Vec Ideal S64x128 .bf16) (x2 : Vec Ideal S1x128 .f32) (a : Vec Ideal S1x128 .f32) (q : Fin 128) :
    k0_pay5 (F := Ideal) x0 x1 x2 a (ix2 (0 : Fin 1) q)
      = a (ix2 (0 : Fin 1) q) + ∑ p : Fin 10000, k0_pay3 (F := Ideal) x0 x1 x2 (ix2 p q) * k0_pay3 (F := Ideal) x0 x1 x2 (ix2 p q) := by
  unfold k0_pay5
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => (congrArg _ (lift_eq q p)).trans (mulf_apply _ _ _)

/-! ## What each case of the body leaves in the three results' blocks -/

section Pieces
variable {F : FTy → Type} [FloatOps F]

theorem hz : (![0, 0] : Fin 2 → Nat) = fun _ => 0 := funext fun a => by fin_cases a <;> rfl

theorem out_A_3 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i) (x0 : Vec F S10000x64 .f32) (x1 : Vec F S64x128 .bf16) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

theorem out_A_4 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i) (x0 : Vec F S10000x64 .f32) (x1 : Vec F S64x128 .bf16) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

theorem out_A_5 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i) (x0 : Vec F S10000x64 .f32) (x1 : Vec F S64x128 .bf16) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

theorem out_B_3 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S10000x64 .f32) (x1 : Vec F S64x128 .bf16) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

theorem out_B_4 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S10000x64 .f32) (x1 : Vec F S64x128 .bf16) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

theorem out_B_5 (c : Dev nD) (i : grid0.Coords) (a1 : Memref sig .tc .vmem S10000x64 .f32) (h1 : a1.IsWhole) (a2 : Memref sig .tc .vmem S64x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S10000x64 .f32) (x1 : Vec F S64x128 .bf16) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x64) hz, View.ld_unit_zero (S := S64x128) hz, View.ld_unit_zero (S := S1x128) hz]

end Pieces

/-! ## The operands as the region finds them, and the blocks the windows read -/

variable (V : (c : Dev nD) → (b : Ref sig .tc) → Buf (Elt Ideal) ((c : Thread nD τ).loc b)) (c : Dev nD)

/-- The 100000×64 left operand. -/
abbrev X : S100000x64.Idx → Elt Ideal .f32 := V c (Pipeline.arrRef spec0 0)
/-- The 64×128 weights. -/
abbrev Wt : S64x128.Idx → Elt Ideal .bf16 := V c (Pipeline.arrRef spec0 1)
/-- The 1×128 bias row. -/
abbrev B : S1x128.Idx → Elt Ideal .f32 := V c (Pipeline.arrRef spec0 2)

/-- The block index of every window at every tile: the row windows move with the tile, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of the left operand's block at tile t is row 10000 t + p of the operand. -/
theorem iblk_0_apply (t : Fin cfg0.N) (p : Fin 10000) (k : Fin 64) (r : Fin 100000) (hr : r.val = 10000 * t.val + p.val) :
    (iblk0 V c 0 t : Vec Ideal S10000x64 .f32) (ix2 p k) = X V c (ix2 r k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * p.val = r.val; rw [e0, hr]; omega
  | ⟨1, _⟩ => show win0_0.index t 1 * 64 + 1 * k.val = k.val; rw [e1]; omega

/-- The weights' block is the weights at every tile. -/
theorem iblk_1_apply (t : Fin cfg0.N) (k : Fin 64) (q : Fin 128) :
    (iblk0 V c 1 t : Vec Ideal S64x128 .bf16) (ix2 k q) = Wt V c (ix2 k q) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 64 + 1 * k.val = k.val; rw [e0]; omega
  | ⟨1, _⟩ => show win0_1.index t 1 * 128 + 1 * q.val = q.val; rw [e1]; omega

/-- The bias row's block is the bias row at every tile. -/
theorem iblk_2_apply (t : Fin cfg0.N) (u : Fin 1) (q : Fin 128) :
    (iblk0 V c 2 t : Vec Ideal S1x128 .f32) (ix2 u q) = B V c (ix2 u q) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * u.val = u.val; rw [e0]; omega
  | ⟨1, _⟩ => show win0_2.index t 1 * 128 + 1 * q.val = q.val; rw [e1]; omega

/-! ## The h result -/

/-- The value of h at row r, column q. -/
def hval (r : Fin 100000) (q : Fin 128) : EReal :=
  (∑ k : Fin 64, X V c (ix2 r k) * Wt V c (ix2 k q)) + B V c (ix2 (0 : Fin 1) q)

/-- The tile of h the body forms at tile t, at (p, q), is h at row 10000 t + p. -/
theorem tile_apply (t : Fin cfg0.N) (p : Fin 10000) (q : Fin 128) (r : Fin 100000) (hr : r.val = 10000 * t.val + p.val) :
    k0_pay3 (F := Ideal) (iblk0 V c 0 t) (iblk0 V c 1 t) (iblk0 V c 2 t) (ix2 p q) = hval V c r q := by
  refine (pay3_apply (iblk0 V c 0 t) (iblk0 V c 1 t) (iblk0 V c 2 t) p q).trans ?_
  unfold hval
  exact congrArg₂ (· + ·) (Finset.sum_congr rfl fun k _ => congrArg₂ (· * ·) (iblk_0_apply V c t p k r hr) (iblk_1_apply V c t k q)) (iblk_2_apply V c t 0 q)

/-- After every tile the h block holds that tile of h, whichever case the tile is in. -/
theorem outs3_eq (t : Fin cfg0.N) : (outsAt0 V c t.val t.isLt).1 = k0_pay3 (F := Ideal) (iblk0 V c 0 t) (iblk0 V c 1 t) (iblk0 V c 2 t) := by
  by_cases h0 : t.val % 10 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- The whole h result. -/
def H : S100000x128.Idx → Elt Ideal .f32 := fun i => hval V c (i 0) (i 1)

/-- What tile t writes back is its block of H. -/
theorem flushed3_eq (t : Fin cfg0.N) : (dat0 V c).flushed 3 t = ((cfg0.win 3).blk t).view.read (Elt Ideal) (H V c) := by
  have hN : t.val < 10 := lt_of_lt_of_eq t.isLt (show cfg0.N = 10 from N_0)
  obtain ⟨-, -, -, -, -, -, e0, e1, -⟩ := idx_facts t
  show (cfg0.win 3).cut (grid0.coords t) ((dat0 V c).after 3 t) = _
  rw [after0_3, outs3_eq]
  funext j
  show k0_pay3 (F := Ideal) (iblk0 V c 0 t) (iblk0 V c 1 t) (iblk0 V c 2 t) j = H V c (((cfg0.win 3).blk t).view.emb j)
  obtain ⟨p, q, rfl⟩ : ∃ (p : Fin 10000) (q : Fin 128), j = ix2 p q := ⟨j 0, j 1, eq_ix2 (n0 := 10000) (n1 := 128) j⟩
  refine (tile_apply V c t p q ⟨10000 * t.val + p.val, by omega⟩ rfl).trans ?_
  unfold H
  congr 1 <;> apply Fin.ext
  · show 10000 * t.val + p.val = win0_3.index t 0 * 10000 + 1 * p.val
    rw [e0]; omega
  · show q.val = win0_3.index t 1 * 128 + 1 * q.val
    rw [e1]; omega

/-- An index of the h result is in tile t's block iff each coordinate is in the block's range. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v28_0).slice (win0_3.rect t)).set ↔ _
  rw [View.set_slice_whole, Rect.mem_set_unit]
  exact Iff.rfl

/-- The ten tiles cover the h result (row r is in tile r / 10000), so it ends holding H. -/
theorem final3 : (dat0 V c).arrAt 3 cfg0.N = H V c :=
  (dat0 V c).arrAt_eq_of_cover 3 (H V c) (fun t _ => flushed3_eq V c t) fun i => by
    have hi0 : (i 0).val < 100000 := (i 0).isLt
    have hi1 : (i 1).val < 128 := (i 1).isLt
    have hN : cfg0.N = 10 := N_0
    refine ⟨⟨(i 0).val / 10000, by rw [hN]; omega⟩, flush0_3 _, ?_⟩
    rw [mem_blk3]
    obtain ⟨-, -, -, -, -, -, e0, e1, -⟩ := idx_facts ⟨(i 0).val / 10000, by rw [hN]; omega⟩
    intro a
    match a with
    | ⟨0, _⟩ =>
      show win0_3.index _ (0 : Fin 2) * 10000 ≤ (i 0).val ∧ (i 0).val < win0_3.index _ (0 : Fin 2) * 10000 + 10000
      rw [e0]; dsimp only; omega
    | ⟨1, _⟩ =>
      show win0_3.index _ (1 : Fin 2) * 128 ≤ (i 1).val ∧ (i 1).val < win0_3.index _ (1 : Fin 2) * 128 + 128
      rw [e1]; omega

/-- THE h RESULT, entry by entry. -/
theorem h_apply (r : Fin 100000) (q : Fin 128) :
    ((dat0 V c).arrAt 3 cfg0.N : S100000x128.Idx → Elt Ideal .f32) (ix2 r q) = hval V c r q := by
  rw [final3]
  rfl

end Cert.KernelIdeal.Linear0

end
-- ==== Proof.Linear0Stats.lean ====
/-
  The two statistics rows of the linear layer of region 0, read off its frame at the ideal values.

  Each of the ten tiles adds the column sums of its 10000 rows of h (and of h * h) onto a running 1×128 row that the
  first tile resets to the zero word; the row is written back once, after the last tile. By induction on the tile the
  row after tile n is the zero word plus the column sums over tiles 0 … n, and the ten tiles' rows are exactly the
  100000 rows, so at (0, q) the rows end holding the zero word plus the sum over all rows r of hval r q, and of
  hval r q * hval r q.
-/
import proofs.«176481_j81363860455527_1_alg».proof.Proof.Linear0
import proofs.«176481_j81363860455527_1_alg».proof.Proof.BnAlgebra

noncomputable section

open scoped BigOperators
open Idealize.ShloMosaic Idealize.ShloMosaic.TcCoe Idealize.SL.Sem
open Idealize.ShloMosaic.Pipeline (Dat)
open Idealize.ShloMosaic.ValueIdx

namespace Cert.KernelIdeal.Linear0

open Cert.KernelIdeal Cert.KernelIdeal.Gen

variable (V : (c : Dev nD) → (b : Ref sig .tc) → Buf (Elt Ideal) ((c : Thread nD τ).loc b)) (c : Dev nD)

/-! ## The two statistics rows -/

/-- h at a row number, zero past the last row. -/
def hvalN (r : ℕ) (q : Fin 128) : EReal := if h : r < 100000 then hval V c ⟨r, h⟩ q else 0

/-- The tile of h at tile t, at (p, q), by row number. -/
theorem tile_apply_N (t : Fin cfg0.N) (p : Fin 10000) (q : Fin 128) :
    k0_pay3 (F := Ideal) (iblk0 V c 0 t) (iblk0 V c 1 t) (iblk0 V c 2 t) (ix2 p q) = hvalN V c (10000 * t.val + p.val) q := by
  have hN : t.val < 10 := lt_of_lt_of_eq t.isLt (show cfg0.N = 10 from N_0)
  have hr : 10000 * t.val + p.val < 100000 := by omega
  refine (tile_apply V c t p q ⟨10000 * t.val + p.val, hr⟩ rfl).trans ?_
  unfold hvalN
  rw [dif_pos hr]

/-- The column sum of h over tile n. -/
def tileSum (n : ℕ) (q : Fin 128) : EReal := ∑ p : Fin 10000, hvalN V c (10000 * n + p.val) q

/-- At the first tile the row holds the zero word plus the tile's column sum of h. -/
theorem outs4_first (t : Fin cfg0.N) (h0 : t.val % 10 = 0) (q : Fin 128) :
    (outsAt0 V c t.val t.isLt).2.1 (ix2 (0 : Fin 1) q) = Ideal.ofBits .f32 0x00000000#32 + tileSum V c t.val q := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 (0 : Fin 1) q)).trans ?_
  refine (pay4_apply (iblk0 V c 0 t) (iblk0 V c 1 t) (iblk0 V c 2 t) (k0_pay1 (F := Ideal)) q).trans ?_
  exact congrArg₂ (· + ·) rfl (Finset.sum_congr rfl fun p _ => tile_apply_N V c t p q)

/-- At a later tile the row holds what the tile before left plus the tile's column sum of h. -/
theorem outs4_step (t : Fin cfg0.N) (h0 : ¬t.val % 10 = 0) (q : Fin 128) :
    (outsAt0 V c t.val t.isLt).2.1 (ix2 (0 : Fin 1) q)
      = (outsAt0 V c (t.val - 1) (Nat.lt_of_le_of_lt (Nat.sub_le _ _) t.isLt)).2.1 (ix2 (0 : Fin 1) q) + tileSum V c t.val q := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (pay4_apply (iblk0 V c 0 t) (iblk0 V c 1 t) (iblk0 V c 2 t) (outsAt0 V c (t.val - 1) (Nat.lt_of_le_of_lt (Nat.sub_le _ _) t.isLt)).2.1 q).trans ?_
  exact congrArg₂ (· + ·) rfl (Finset.sum_congr rfl fun p _ => tile_apply_N V c t p q)

/-- After tile n the row holds the zero word plus the column sums of h over tiles 0 … n. -/
theorem outs4_eq : ∀ (n : ℕ) (h : n < cfg0.N) (q : Fin 128),
    (outsAt0 V c n h).2.1 (ix2 (0 : Fin 1) q) = Ideal.ofBits .f32 0x00000000#32 + ∑ t ∈ Finset.range (n + 1), tileSum V c t q
  | 0, h, q => by
    refine (outs4_first V c ⟨0, h⟩ rfl q).trans ?_
    rw [Finset.sum_range_one]
  | n + 1, h, q => by
    have h' : n + 1 < 10 := lt_of_lt_of_eq h N_0
    refine (outs4_step V c ⟨n + 1, h⟩ (by dsimp only; omega) q).trans ?_
    show (outsAt0 V c n _).2.1 (ix2 (0 : Fin 1) q) + tileSum V c (n + 1) q = _
    rw [outs4_eq n _ q, Finset.sum_range_succ _ (n + 1), add_assoc]

/-- The ten tiles' column sums of h add up to the sum over all 100000 rows. -/
theorem sum_all (q : Fin 128) : ∑ t ∈ Finset.range 10, tileSum V c t q = ∑ r : Fin 100000, hval V c r q := by
  unfold tileSum
  rw [Cert.BnAlgebra.sum_tiles (fun r => hvalN V c r q)]
  exact Finset.sum_congr rfl fun r _ => by unfold hvalN; rw [dif_pos r.isLt]

/-- The whole row of column sums of h. -/
def S4 : S1x128.Idx → Elt Ideal .f32 := fun i => Ideal.ofBits .f32 0x00000000#32 + ∑ r : Fin 100000, hval V c r (i 1)

/-- The one write-back, after the last tile, writes that row. -/
theorem flushed4_eq (t : Fin cfg0.N) (hf : (cfg0.win 4).flush t = true) :
    (dat0 V c).flushed 4 t = ((cfg0.win 4).blk t).view.read (Elt Ideal) (S4 V c) := by
  have hN : t.val < 10 := lt_of_lt_of_eq t.isLt (show cfg0.N = 10 from N_0)
  have h9 : t.val = 9 := by have := (flush0_4 t).mp hf; omega
  obtain ⟨-, -, -, -, -, -, -, -, e0, e1, -⟩ := idx_facts t
  show (cfg0.win 4).cut (grid0.coords t) ((dat0 V c).after 4 t) = _
  rw [after0_4]
  funext j
  show (outsAt0 V c t.val t.isLt).2.1 j = S4 V c (((cfg0.win 4).blk t).view.emb j)
  obtain ⟨u, q, rfl⟩ : ∃ (u : Fin 1) (q : Fin 128), j = ix2 u q := ⟨j 0, j 1, eq_ix2 (n0 := 1) (n1 := 128) j⟩
  obtain rfl : u = 0 := Subsingleton.elim _ _
  refine (outs4_eq V c t.val t.isLt q).trans ?_
  unfold S4
  refine congrArg₂ (· + ·) rfl ?_
  rw [h9]
  refine (sum_all V c q).trans ?_
  have hq : q = ((cfg0.win 4).blk t).view.emb (ix2 (0 : Fin 1) q) 1 := by
    apply Fin.ext
    show q.val = win0_4.index t 1 * 128 + 1 * q.val
    rw [e1]; omega
  rw [← hq]

/-- An index of the row is in a tile's block iff each coordinate is in the block's range. -/
theorem mem_blk4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v28_1).slice (win0_4.rect t)).set ↔ _
  rw [View.set_slice_whole, Rect.mem_set_unit]
  exact Iff.rfl

/-- The last tile's block is the whole row, so the row ends holding the sums over all rows. -/
theorem final4 : (dat0 V c).arrAt 4 cfg0.N = S4 V c :=
  (dat0 V c).arrAt_eq_of_cover 4 (S4 V c) (flushed4_eq V c) fun i => by
    have hi0 : (i 0).val < 1 := (i 0).isLt
    have hi1 : (i 1).val < 128 := (i 1).isLt
    have hN : cfg0.N = 10 := N_0
    refine ⟨⟨9, by rw [hN]; omega⟩, (flush0_4 _).mpr rfl, ?_⟩
    rw [mem_blk4]
    obtain ⟨-, -, -, -, -, -, -, -, e0, e1, -⟩ := idx_facts ⟨9, by rw [hN]; omega⟩
    intro a
    match a with
    | ⟨0, _⟩ =>
      show win0_4.index _ (0 : Fin 2) * 1 ≤ (i 0).val ∧ (i 0).val < win0_4.index _ (0 : Fin 2) * 1 + 1
      rw [e0]; omega
    | ⟨1, _⟩ =>
      show win0_4.index _ (1 : Fin 2) * 128 ≤ (i 1).val ∧ (i 1).val < win0_4.index _ (1 : Fin 2) * 128 + 128
      rw [e1]; omega

/-- THE ROW OF COLUMN SUMS OF h, entry by entry. -/
theorem sum_apply (q : Fin 128) :
    ((dat0 V c).arrAt 4 cfg0.N : S1x128.Idx → Elt Ideal .f32) (ix2 (0 : Fin 1) q)
      = Ideal.ofBits .f32 0x00000000#32 + ∑ r : Fin 100000, hval V c r q := by
  rw [final4]
  rfl

/-- The column sum of h * h over tile n. -/
def tileSumSq (n : ℕ) (q : Fin 128) : EReal := ∑ p : Fin 10000, hvalN V c (10000 * n + p.val) q * hvalN V c (10000 * n + p.val) q

/-- At the first tile the row holds the zero word plus the tile's column sum of h * h. -/
theorem outs5_first (t : Fin cfg0.N) (h0 : t.val % 10 = 0) (q : Fin 128) :
    (outsAt0 V c t.val t.isLt).2.2 (ix2 (0 : Fin 1) q) = Ideal.ofBits .f32 0x00000000#32 + tileSumSq V c t.val q := by
  rw [outsAt0_A V c t h0]
  dsimp only
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 (0 : Fin 1) q)).trans ?_
  refine (pay5_apply (iblk0 V c 0 t) (iblk0 V c 1 t) (iblk0 V c 2 t) (k0_pay2 (F := Ideal)) q).trans ?_
  exact congrArg₂ (· + ·) rfl (Finset.sum_congr rfl fun p _ => congrArg₂ (· * ·) (tile_apply_N V c t p q) (tile_apply_N V c t p q))

/-- At a later tile the row holds what the tile before left plus the tile's column sum of h * h. -/
theorem outs5_step (t : Fin cfg0.N) (h0 : ¬t.val % 10 = 0) (q : Fin 128) :
    (outsAt0 V c t.val t.isLt).2.2 (ix2 (0 : Fin 1) q)
      = (outsAt0 V c (t.val - 1) (Nat.lt_of_le_of_lt (Nat.sub_le _ _) t.isLt)).2.2 (ix2 (0 : Fin 1) q) + tileSumSq V c t.val q := by
  rw [outsAt0_B V c t h0]
  dsimp only
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (pay5_apply (iblk0 V c 0 t) (iblk0 V c 1 t) (iblk0 V c 2 t) (outsAt0 V c (t.val - 1) (Nat.lt_of_le_of_lt (Nat.sub_le _ _) t.isLt)).2.2 q).trans ?_
  exact congrArg₂ (· + ·) rfl (Finset.sum_congr rfl fun p _ => congrArg₂ (· * ·) (tile_apply_N V c t p q) (tile_apply_N V c t p q))

/-- After tile n the row holds the zero word plus the column sums of h * h over tiles 0 … n. -/
theorem outs5_eq : ∀ (n : ℕ) (h : n < cfg0.N) (q : Fin 128),
    (outsAt0 V c n h).2.2 (ix2 (0 : Fin 1) q) = Ideal.ofBits .f32 0x00000000#32 + ∑ t ∈ Finset.range (n + 1), tileSumSq V c t q
  | 0, h, q => by
    refine (outs5_first V c ⟨0, h⟩ rfl q).trans ?_
    rw [Finset.sum_range_one]
  | n + 1, h, q => by
    have h' : n + 1 < 10 := lt_of_lt_of_eq h N_0
    refine (outs5_step V c ⟨n + 1, h⟩ (by dsimp only; omega) q).trans ?_
    show (outsAt0 V c n _).2.2 (ix2 (0 : Fin 1) q) + tileSumSq V c (n + 1) q = _
    rw [outs5_eq n _ q, Finset.sum_range_succ _ (n + 1), add_assoc]

/-- The ten tiles' column sums of h * h add up to the sum over all 100000 rows. -/
theorem sumsq_all (q : Fin 128) : ∑ t ∈ Finset.range 10, tileSumSq V c t q = ∑ r : Fin 100000, hval V c r q * hval V c r q := by
  unfold tileSumSq
  rw [Cert.BnAlgebra.sum_tiles (fun r => hvalN V c r q * hvalN V c r q)]
  exact Finset.sum_congr rfl fun r _ => by unfold hvalN; rw [dif_pos r.isLt]

/-- The whole row of column sums of h * h. -/
def S5 : S1x128.Idx → Elt Ideal .f32 := fun i => Ideal.ofBits .f32 0x00000000#32 + ∑ r : Fin 100000, hval V c r (i 1) * hval V c r (i 1)

/-- The one write-back, after the last tile, writes that row. -/
theorem flushed5_eq (t : Fin cfg0.N) (hf : (cfg0.win 5).flush t = true) :
    (dat0 V c).flushed 5 t = ((cfg0.win 5).blk t).view.read (Elt Ideal) (S5 V c) := by
  have hN : t.val < 10 := lt_of_lt_of_eq t.isLt (show cfg0.N = 10 from N_0)
  have h9 : t.val = 9 := by have := (flush0_5 t).mp hf; omega
  obtain ⟨-, -, -, -, -, -, -, -, -, -, e0, e1⟩ := idx_facts t
  show (cfg0.win 5).cut (grid0.coords t) ((dat0 V c).after 5 t) = _
  rw [after0_5]
  funext j
  show (outsAt0 V c t.val t.isLt).2.2 j = S5 V c (((cfg0.win 5).blk t).view.emb j)
  obtain ⟨u, q, rfl⟩ : ∃ (u : Fin 1) (q : Fin 128), j = ix2 u q := ⟨j 0, j 1, eq_ix2 (n0 := 1) (n1 := 128) j⟩
  obtain rfl : u = 0 := Subsingleton.elim _ _
  refine (outs5_eq V c t.val t.isLt q).trans ?_
  unfold S5
  refine congrArg₂ (· + ·) rfl ?_
  rw [h9]
  refine (sumsq_all V c q).trans ?_
  have hq : q = ((cfg0.win 5).blk t).view.emb (ix2 (0 : Fin 1) q) 1 := by
    apply Fin.ext
    show q.val = win0_5.index t 1 * 128 + 1 * q.val
    rw [e1]; omega
  rw [← hq]

/-- An index of the row is in a tile's block iff each coordinate is in the block's range. -/
theorem mem_blk5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v28_2).slice (win0_5.rect t)).set ↔ _
  rw [View.set_slice_whole, Rect.mem_set_unit]
  exact Iff.rfl

/-- The last tile's block is the whole row, so the row ends holding the sums over all rows. -/
theorem final5 : (dat0 V c).arrAt 5 cfg0.N = S5 V c :=
  (dat0 V c).arrAt_eq_of_cover 5 (S5 V c) (flushed5_eq V c) fun i => by
    have hi0 : (i 0).val < 1 := (i 0).isLt
    have hi1 : (i 1).val < 128 := (i 1).isLt
    have hN : cfg0.N = 10 := N_0
    refine ⟨⟨9, by rw [hN]; omega⟩, (flush0_5 _).mpr rfl, ?_⟩
    rw [mem_blk5]
    obtain ⟨-, -, -, -, -, -, -, -, -, -, e0, e1⟩ := idx_facts ⟨9, by rw [hN]; omega⟩
    intro a
    match a with
    | ⟨0, _⟩ =>
      show win0_5.index _ (0 : Fin 2) * 1 ≤ (i 0).val ∧ (i 0).val < win0_5.index _ (0 : Fin 2) * 1 + 1
      rw [e0]; omega
    | ⟨1, _⟩ =>
      show win0_5.index _ (1 : Fin 2) * 128 ≤ (i 1).val ∧ (i 1).val < win0_5.index _ (1 : Fin 2) * 128 + 128
      rw [e1]; omega

/-- THE ROW OF COLUMN SUMS OF h * h, entry by entry. -/
theorem sumsq_apply (q : Fin 128) :
    ((dat0 V c).arrAt 5 cfg0.N : S1x128.Idx → Elt Ideal .f32) (ix2 (0 : Fin 1) q)
      = Ideal.ofBits .f32 0x00000000#32 + ∑ r : Fin 100000, hval V c r q * hval V c r q := by
  rw [final5]
  rfl

end Cert.KernelIdeal.Linear0

end
-- ==== Proof.BnRelu1.lean ====
/-
  Batch normalization followed by rectification, launch one of two, at extended-real values. The launch
  runs over ten row tiles of 10000 rows of a 100000 x 128 array; the mean, variance, scale and shift are 1 x 128
  rows, the same at every tile. Written here: the body's result at a row and lane of a tile (`pay_apply`), each
  input block as the rows of its array (`tile_apply`, `row1_apply` … `row4_apply`), what each tile writes back
  (`flushed_eq`), the tiles cover the array (`cover`), and so the result array, entry by entry (`final`,
  `out_apply`, `out_apply_of`):
    out r q = max ((x r q - mean q) * rsqrt (var q + eps) * gamma q + beta q) 0.
-/
import proofs.«176481_j81363860455527_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BnRelu1

open Cert.KernelIdeal Cert.KernelIdeal.Gen

/-- The body's result at row p, lane q of a tile. -/
theorem pay_apply (x0 : Vec Ideal S10000x128 .f32) (x1 x2 x3 x4 : Vec Ideal S1x128 .f32) (p : Fin 10000) (q : Fin 128) :
    k1_pay1 (F := Ideal) x0 x2 x1 x3 x4 (ix2 p q)
      = max ((x0 (ix2 p q) - x1 (ix2 0 q)) * Ideal.rsqrt (x2 (ix2 0 q) + Ideal.ofBits .f32 0x3727C5AC#32) * x3 (ix2 0 q) + x4 (ix2 0 q))
          (Ideal.ofBits .f32 0x00000000#32) := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- Batch normalization followed by rectification, index by index. -/
def bnRelu (H : S100000x128.Idx → Elt Ideal .f32) (Mu Va Ga Be : S1x128.Idx → Elt Ideal .f32) : S100000x128.Idx → Elt Ideal .f32 :=
  fun i => max ((H i - Mu (ix2 (0 : Fin 1) (i 1 : Fin 128))) * Ideal.rsqrt (Va (ix2 (0 : Fin 1) (i 1 : Fin 128)) + Ideal.ofBits .f32 0x3727C5AC#32)
      * Ga (ix2 (0 : Fin 1) (i 1 : Fin 128)) + Be (ix2 (0 : Fin 1) (i 1 : Fin 128))) (Ideal.ofBits .f32 0x00000000#32)

/-- The index maps over the grid: the tile windows sit at row block t, the row windows at block 0. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem t_lt (t : Fin cfg1.N) : t.val < 10 := lt_of_lt_of_eq t.isLt N_1

/-- The input tile at point t is rows 10000 t … 10000 t + 9999 of the activations. -/
theorem tile_apply (c : Dev nD) (t : Fin cfg1.N) (p : Fin 10000) (q : Fin 128) (h : t.val * 10000 + p.val < 100000) :
    (iblk1 V c 0 t : Vec Ideal S10000x128 .f32) (ix2 p q)
      = (V c (Pipeline.arrRef spec1 0) : S100000x128.Idx → Elt Ideal .f32) (ix2 (⟨t.val * 10000 + p.val, h⟩ : Fin 100000) q) := by
  obtain ⟨e0, e1, -⟩ := idx_facts t
  unfold iblk1
  rw [View.read_apply]
  refine congrArg (V c (Pipeline.arrRef spec1 0) : S100000x128.Idx → Elt Ideal .f32) ?_
  funext a; apply Fin.ext
  match a with
  | ⟨0, _⟩ => show win1_0.index t (0 : Fin 2) * 10000 + 1 * p.val = t.val * 10000 + p.val; omega
  | ⟨1, _⟩ => show win1_0.index t (1 : Fin 2) * 128 + 1 * q.val = q.val; omega

/-- The row windows' blocks are the whole rows at every point. -/
theorem row1_apply (c : Dev nD) (t : Fin cfg1.N) (q : Fin 128) :
    (iblk1 V c 1 t : Vec Ideal S1x128 .f32) (ix2 (0 : Fin 1) q) = (V c (Pipeline.arrRef spec1 1) : S1x128.Idx → Elt Ideal .f32) (ix2 (0 : Fin 1) q) := by
  obtain ⟨-, -, -, -, e0, e1, -⟩ := idx_facts t
  unfold iblk1
  rw [View.read_apply]
  refine congrArg (V c (Pipeline.arrRef spec1 1) : S1x128.Idx → Elt Ideal .f32) ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 128 + 1 * q.val = q.val; omega
theorem row2_apply (c : Dev nD) (t : Fin cfg1.N) (q : Fin 128) :
    (iblk1 V c 2 t : Vec Ideal S1x128 .f32) (ix2 (0 : Fin 1) q) = (V c (Pipeline.arrRef spec1 2) : S1x128.Idx → Elt Ideal .f32) (ix2 (0 : Fin 1) q) := by
  obtain ⟨-, -, -, -, -, -, e0, e1, -⟩ := idx_facts t
  unfold iblk1
  rw [View.read_apply]
  refine congrArg (V c (Pipeline.arrRef spec1 2) : S1x128.Idx → Elt Ideal .f32) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega
theorem row3_apply (c : Dev nD) (t : Fin cfg1.N) (q : Fin 128) :
    (iblk1 V c 3 t : Vec Ideal S1x128 .f32) (ix2 (0 : Fin 1) q) = (V c (Pipeline.arrRef spec1 3) : S1x128.Idx → Elt Ideal .f32) (ix2 (0 : Fin 1) q) := by
  obtain ⟨-, -, -, -, -, -, -, -, e0, e1, -⟩ := idx_facts t
  unfold iblk1
  rw [View.read_apply]
  refine congrArg (V c (Pipeline.arrRef spec1 3) : S1x128.Idx → Elt Ideal .f32) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega
theorem row4_apply (c : Dev nD) (t : Fin cfg1.N) (q : Fin 128) :
    (iblk1 V c 4 t : Vec Ideal S1x128 .f32) (ix2 (0 : Fin 1) q) = (V c (Pipeline.arrRef spec1 4) : S1x128.Idx → Elt Ideal .f32) (ix2 (0 : Fin 1) q) := by
  obtain ⟨-, -, -, -, -, -, -, -, -, -, e0, e1⟩ := idx_facts t
  unfold iblk1
  rw [View.read_apply]
  refine congrArg (V c (Pipeline.arrRef spec1 4) : S1x128.Idx → Elt Ideal .f32) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- Point t's output block sits at rows 10000 t … 10000 t + 9999 of the result array. -/
theorem read_out (G : S100000x128.Idx → Elt Ideal .f32) (t : Fin cfg1.N) (p : Fin 10000) (q : Fin 128) (h : t.val * 10000 + p.val < 100000) :
    ((cfg1.win 5).blk t).view.read (Elt Ideal) G (ix2 p q : S10000x128.Idx) = G (ix2 (⟨t.val * 10000 + p.val, h⟩ : Fin 100000) q) := by
  obtain ⟨-, -, e0, e1, -⟩ := idx_facts t
  rw [View.read_apply]
  refine congrArg G ?_
  funext a; apply Fin.ext
  match a with
  | ⟨0, _⟩ => show win1_5.index t (0 : Fin 2) * 10000 + 1 * p.val = t.val * 10000 + p.val; omega
  | ⟨1, _⟩ => show win1_5.index t (1 : Fin 2) * 128 + 1 * q.val = q.val; omega

theorem flushed_eq (c : Dev nD) (t : Fin cfg1.N) :
    (dat1 V c).flushed 5 t = ((cfg1.win 5).blk t).view.read (Elt Ideal)
      (bnRelu (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  have h : t.val * 10000 + p.val < 100000 := by have := t_lt t; have := p.isLt; omega
  refine (pay_apply (iblk1 V c 0 t) (iblk1 V c 1 t) (iblk1 V c 2 t) (iblk1 V c 3 t) (iblk1 V c 4 t) p q).trans ?_
  refine Eq.trans ?_ (read_out _ t p q h).symm
  rw [tile_apply V c t p q h, row1_apply V c t q, row2_apply V c t q, row3_apply V c t q, row4_apply V c t q]
  rfl

/-- An index of the result array is in point t's block iff each coordinate is in the block's range on its axis. -/
theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v37).slice (win1_5.rect t)).set ↔ _
  rw [View.set_slice_whole, Rect.mem_set_unit]
  exact Iff.rfl

/-- Every row of the result array is in the block of the point its row block names: row r in point r / 10000. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 10 := N_1
  let t : Fin cfg1.N := ⟨(i 0).val / 10000, by rw [hN]; omega⟩
  obtain ⟨-, -, e0, e1, -⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The result array after the launch is the normalized, rectified activations. -/
theorem final (c : Dev nD) : (dat1 V c).arrAt 5 cfg1.N
    = bnRelu (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed_eq V c t) cover

/-- The launch's operands as the region finds them: activations, mean, variance, scale, shift. -/
abbrev opX (c : Dev nD) : S100000x128.Idx → EReal := V c (Pipeline.arrRef spec1 0)
abbrev opMean (c : Dev nD) : S1x128.Idx → EReal := V c (Pipeline.arrRef spec1 1)
abbrev opVar (c : Dev nD) : S1x128.Idx → EReal := V c (Pipeline.arrRef spec1 2)
abbrev opGamma (c : Dev nD) : S1x128.Idx → EReal := V c (Pipeline.arrRef spec1 3)
abbrev opBeta (c : Dev nD) : S1x128.Idx → EReal := V c (Pipeline.arrRef spec1 4)

/-- The result array at row r, lane q: max ((x - mean) * rsqrt (var + eps) * gamma + beta, 0). -/
theorem out_apply (c : Dev nD) (r : Fin 100000) (q : Fin 128) :
    (dat1 V c).arrAt 5 cfg1.N (ix2 r q)
      = max ((opX V c (ix2 r q) - opMean V c (ix2 0 q)) * Ideal.rsqrt (opVar V c (ix2 0 q) + Ideal.ofBits .f32 0x3727C5AC#32)
            * opGamma V c (ix2 0 q) + opBeta V c (ix2 0 q))
          (Ideal.ofBits .f32 0x00000000#32) :=
  congrFun (final V c) (ix2 r q)

/-- The same with the operands named by the caller. -/
theorem out_apply_of (c : Dev nD) (H : S100000x128.Idx → EReal) (Mu Va Ga Be : S1x128.Idx → EReal)
    (hH : (V c (Pipeline.arrRef spec1 0) : S100000x128.Idx → EReal) = H) (hMu : (V c (Pipeline.arrRef spec1 1) : S1x128.Idx → EReal) = Mu)
    (hVa : (V c (Pipeline.arrRef spec1 2) : S1x128.Idx → EReal) = Va) (hGa : (V c (Pipeline.arrRef spec1 3) : S1x128.Idx → EReal) = Ga)
    (hBe : (V c (Pipeline.arrRef spec1 4) : S1x128.Idx → EReal) = Be) (r : Fin 100000) (q : Fin 128) :
    (dat1 V c).arrAt 5 cfg1.N (ix2 r q)
      = max ((H (ix2 r q) - Mu (ix2 0 q)) * Ideal.rsqrt (Va (ix2 0 q) + Ideal.ofBits .f32 0x3727C5AC#32) * Ga (ix2 0 q) + Be (ix2 0 q))
          (Ideal.ofBits .f32 0x00000000#32) := by
  subst hH hMu hVa hGa hBe
  exact out_apply V c r q

end Cert.KernelIdeal.BnRelu1

end
-- ==== Proof.RefStages.lean ====
/-
  The reference program's stages read at explicit coordinates. Each graph-convolution layer is, entry by
  entry: the aggregated neighbour sum divided by (degree plus a small constant); a linear map (a sum over
  the input features of entry times weight, plus an offset); the column mean and the column mean of
  squared deviations over the hundred thousand rows; and the normalised, scaled, shifted and rectified
  entry. Each statement follows the program's operations from the result back to its operands, reading
  layout operations (broadcasts, transposes) at the index they copy from.
-/
import proofs.«176481_j81363860455527_1_alg».proof.Proof.Gen.ReferenceIdeal.Read
import Idealize.ShloMosaic.Lib.ValueIdx
import Idealize.ShloMosaic.PureOps.Ideal.Laws

noncomputable section

namespace Cert.RefStages

open Cert.ReferenceIdeal Cert.ReferenceIdeal.Read Idealize.ShloMosaic Idealize.ShloMosaic.ValueIdx

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S64x128, .f32⟩ : BufTy).Contents (Elt Ideal))
  (x11 : (⟨S64, .f32⟩ : BufTy).Contents (Elt Ideal))

/-! ## Layer 1 -/

/-- Layer 1: the degree broadcast along the features reads the degree of the row. -/
theorem idx_l1_deg (r : Fin 100000) (k : Fin 64) : idx_main_v8 (idx_main_v21 (ix2 r k)) = ix1 r :=
  funext fun a => Fin.ext (by match a with | ⟨0, _⟩ => rfl)

/-- Layer 1, normalisation: the aggregated sum divided by the degree plus the small constant. -/
theorem l1_norm (r : Fin 100000) (k : Fin 64) :
    val_main_v22 (F := Ideal) x0 x1 (ix2 r k)
      = Ideal.div (val_main_v20 (F := Ideal) x0 x1 (ix2 r k))
          (val_main_v7 (F := Ideal) x1 (ix1 r) + Ideal.ofBits .f32 0x358637BD#32) := by
  rw [val_main_v22_apply, val_main_v21_apply, val_main_v10_apply, val_main_v8_apply, val_main_v9_apply,
    val_main_cst_1_apply]
  simp only [idx_l1_deg, Ideal.hostDivf_def, Ideal.addf_def, Ideal.ofBits_def]

/-- Layer 1: the left operand of the product at row `r`, feature `k`. -/
theorem lidx_l1 (r : Fin 100000) (q : Fin 128) (k : Fin 64) : lidx_main_v24 (ix2 r q) k = ix2 r k :=
  funext fun a => Fin.ext (by match a with | ⟨0, _⟩ => rfl | ⟨1, _⟩ => rfl)

/-- Layer 1: the right operand of the product is the transposed weight, entry `(q, k)`. -/
theorem ridx_l1 (r : Fin 100000) (q : Fin 128) (k : Fin 64) :
    idx_main_v23 (ridx_main_v24 (ix2 r q) k) = ix2 q k :=
  funext fun a => Fin.ext (by match a with | ⟨0, _⟩ => rfl | ⟨1, _⟩ => rfl)

/-- Layer 1: the offset broadcast along the rows reads the offset of the column. -/
theorem idx_l1_bias (r : Fin 100000) (q : Fin 128) : idx_main_v25 (idx_main_v26 (ix2 r q)) = ix1 q :=
  funext fun a => Fin.ext (by match a with | ⟨0, _⟩ => rfl)

/-- Layer 1, linear map: the sum over the features of normalised entry times weight, plus the
    offset. -/
theorem l1_lin (r : Fin 100000) (q : Fin 128) :
    val_main_v27 (F := Ideal) x0 x1 x2 x3 (ix2 r q)
      = (∑ k : Fin 64, val_main_v22 (F := Ideal) x0 x1 (ix2 r k) * x2 (ix2 q k)) + x3 (ix1 q) := by
  rw [val_main_v27_apply, val_main_v24_apply, val_main_v26_apply, val_main_v25_apply]
  simp only [val_main_v23_apply, lidx_l1, ridx_l1, idx_l1_bias, Ideal.addf_def]

/-- Layer 1: the column sum reads row `k` of column `q`. -/
theorem idx_l1_sum (q : Fin 128) (k : Fin 100000) : idx_main_v28 (ix1 q) k = ix2 k q :=
  funext fun a => Fin.ext (by match a with | ⟨0, _⟩ => rfl | ⟨1, _⟩ => rfl)

/-- Layer 1, column mean: the initial value plus the column sum, divided by the count. -/
theorem l1_mean (q : Fin 128) :
    val_main_v30 (F := Ideal) x0 x1 x2 x3 (ix1 q)
      = Ideal.div (Ideal.ofBits .f32 0x00000000#32
          + ∑ r : Fin 100000, val_main_v27 (F := Ideal) x0 x1 x2 x3 (ix2 r q))
          (Ideal.ofBits .f32 0x47C35000#32) := by
  rw [val_main_v30_apply, val_main_v28_apply, val_main_v29_apply, val_main_cst_4_apply,
    val_main_cst_5_apply]
  simp only [idx_l1_sum, Ideal.hostDivf_def, Ideal.ofBits_def]

/-- Layer 1: the column sum of squared deviations reads row `k` of column `q`. -/
theorem idx_l1_sqsum (q : Fin 128) (k : Fin 100000) : idx_main_v35 (ix1 q) k = ix2 k q :=
  funext fun a => Fin.ext (by match a with | ⟨0, _⟩ => rfl | ⟨1, _⟩ => rfl)

/-- Layer 1: the mean broadcast along the rows (for the squared deviations) reads the mean of the
    column. -/
theorem idx_l1_mean_a (r : Fin 100000) (q : Fin 128) : idx_main_v31 (idx_main_v32 (ix2 r q)) = ix1 q :=
  funext fun a => Fin.ext (by match a with | ⟨0, _⟩ => rfl)

/-- Layer 1, squared deviation: the entry minus the column mean, squared. -/
theorem l1_sq (r : Fin 100000) (q : Fin 128) :
    val_main_v34 (F := Ideal) x0 x1 x2 x3 (ix2 r q)
      = (val_main_v27 (F := Ideal) x0 x1 x2 x3 (ix2 r q) - val_main_v30 (F := Ideal) x0 x1 x2 x3 (ix1 q))
        * (val_main_v27 (F := Ideal) x0 x1 x2 x3 (ix2 r q) - val_main_v30 (F := Ideal) x0 x1 x2 x3 (ix1 q)) := by
  rw [val_main_v34_apply, val_main_v33_apply, val_main_v32_apply, val_main_v31_apply, idx_l1_mean_a]
  simp only [Ideal.mulf_def, Ideal.subf_def]

/-- Layer 1, column variance: the initial value plus the column sum of squared deviations from the
    column mean, divided by the count. -/
theorem l1_var (q : Fin 128) :
    val_main_v37 (F := Ideal) x0 x1 x2 x3 (ix1 q)
      = Ideal.div (Ideal.ofBits .f32 0x00000000#32
          + ∑ r : Fin 100000,
              (val_main_v27 (F := Ideal) x0 x1 x2 x3 (ix2 r q) - val_main_v30 (F := Ideal) x0 x1 x2 x3 (ix1 q))
              * (val_main_v27 (F := Ideal) x0 x1 x2 x3 (ix2 r q) - val_main_v30 (F := Ideal) x0 x1 x2 x3 (ix1 q)))
          (Ideal.ofBits .f32 0x47C35000#32) := by
  rw [val_main_v37_apply, val_main_v35_apply, val_main_v36_apply, val_main_cst_6_apply,
    val_main_cst_7_apply]
  simp only [idx_l1_sqsum, l1_sq, Ideal.hostDivf_def, Ideal.ofBits_def]

/-- Layer 1: the mean broadcast along the rows (for the output) reads the mean of the column. -/
theorem idx_l1_mean_b (r : Fin 100000) (q : Fin 128) : idx_main_v38 (idx_main_v39 (ix2 r q)) = ix1 q :=
  funext fun a => Fin.ext (by match a with | ⟨0, _⟩ => rfl)

/-- Layer 1: the reciprocal standard deviation broadcast along the rows reads that of the column. -/
theorem idx_l1_rstd (r : Fin 100000) (q : Fin 128) : idx_main_v44 (idx_main_v45 (ix2 r q)) = ix1 q :=
  funext fun a => Fin.ext (by match a with | ⟨0, _⟩ => rfl)

/-- Layer 1: the scale broadcast along the rows reads the scale of the column. -/
theorem idx_l1_scale (r : Fin 100000) (q : Fin 128) : idx_main_v47 (idx_main_v48 (ix2 r q)) = ix1 q :=
  funext fun a => Fin.ext (by match a with | ⟨0, _⟩ => rfl)

/-- Layer 1: the shift broadcast along the rows reads the shift of the column. -/
theorem idx_l1_shift (r : Fin 100000) (q : Fin 128) : idx_main_v50 (idx_main_v51 (ix2 r q)) = ix1 q :=
  funext fun a => Fin.ext (by match a with | ⟨0, _⟩ => rfl)

/-- Layer 1, output: the entry minus the column mean, times the reciprocal square root of the column
    variance plus the small constant, times the scale, plus the shift, rectified at the zero constant
    (the maximum of that value and the zero constant, in this order). -/
theorem l1_out (r : Fin 100000) (q : Fin 128) :
    val_main_v53 (F := Ideal) x0 x1 x2 x3 x4 x5 (ix2 r q)
      = max ((val_main_v27 (F := Ideal) x0 x1 x2 x3 (ix2 r q) - val_main_v30 (F := Ideal) x0 x1 x2 x3 (ix1 q))
            * Ideal.rsqrt (val_main_v37 (F := Ideal) x0 x1 x2 x3 (ix1 q) + Ideal.ofBits .f32 0x3727C5AC#32)
            * x4 (ix1 q) + x5 (ix1 q))
          (Ideal.ofBits .f32 0x00000000#32) := by
  rw [val_main_v53_apply, val_main_v52_apply, val_main_v49_apply, val_main_v46_apply, val_main_v40_apply,
    val_main_v39_apply, val_main_v38_apply, val_main_v45_apply, val_main_v44_apply, val_main_v43_apply,
    val_main_v42_apply, val_main_v41_apply, val_main_cst_8_apply, val_main_v48_apply, val_main_v47_apply,
    val_main_v51_apply, val_main_v50_apply, val_main_call0_v0_apply, val_main_call0_cst_apply]
  simp only [idx_l1_mean_b, idx_l1_rstd, idx_l1_scale, idx_l1_shift, Ideal.maximumf_def,
    Ideal.addf_def, Ideal.mulf_def, Ideal.subf_def, Ideal.hostUnary_rsqrt_def, Ideal.ofBits_def]

end Cert.RefStages

end
-- ==== Proof.RefReal.lean ====
/-
  The reference program's stage arrays are real-valued. With real-valued argument arrays, every stage of
  the reference's graph-convolution layers stays within the real numbers: an accumulating scatter of
  real-valued updates onto zeros is real-valued; the degree of a row is a count, hence nonnegative, and
  adding the small positive constant makes it a positive real, so dividing by it keeps real values real;
  a linear map of real-valued data with real-valued weights is real-valued; and batch normalisation of
  real-valued data (mean, biased variance, a positive constant under the reciprocal square root, scale,
  shift, rectification) is real-valued.
-/
import proofs.«176481_j81363860455527_1_alg».proof.Proof.Gen.ReferenceIdeal.Read
import proofs.«176481_j81363860455527_1_alg».proof.Proof.BnAlgebra
import proofs.«176481_j81363860455527_1_alg».proof.Proof.Layer
import proofs.«176481_j81363860455527_1_alg».proof.Proof.Consts
import proofs.«176481_j81363860455527_1_alg».proof.Proof.RefStages

noncomputable section

namespace Cert.RefReal

open Cert.ReferenceIdeal Cert.ReferenceIdeal.Read Idealize.ShloMosaic Idealize.ShloMosaic.ValueIdx
open Cert.RealValued Cert.BnAlgebra Cert.Layer

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))

/-- The accumulating scatter of real-valued updates onto real-valued entries is real-valued. -/
theorem isReal_scatterAdd {s si su : Shape} (d : ScatterDims s si su) {w : Nat}
    (x : FVec Ideal s .f32) (idx : IVec si w) (upd : FVec Ideal su .f32)
    (hx : ∀ i, IsReal (x i)) (hupd : ∀ j, IsReal (upd j)) (i : s.Idx) :
    IsReal (Host.scatterAdd d x idx upd i) :=
  isReal_hostScatterAdd d x idx upd hx hupd i

/-- The accumulating scatter of nonnegative reals onto nonnegative reals is a nonnegative real. -/
theorem scatterAdd_nonneg {s si su : Shape} (d : ScatterDims s si su) {w : Nat}
    (x : FVec Ideal s .f32) (idx : IVec si w) (upd : FVec Ideal su .f32)
    (hx : ∀ i, ∃ r : ℝ, 0 ≤ r ∧ x i = (r : EReal))
    (hupd : ∀ j, ∃ r : ℝ, 0 ≤ r ∧ upd j = (r : EReal)) (i : s.Idx) :
    ∃ r : ℝ, 0 ≤ r ∧ Host.scatterAdd d x idx upd i = (r : EReal) :=
  scatter_nonneg d x idx upd hx hupd i

/-- The zero array onto which the neighbour sums of layer 1 accumulate. -/
theorem v18_zero (i : S100000x64.Idx) : val_main_v18 (F := Ideal) i = 0 := by
  rw [val_main_v18_apply, val_main_cst_3_apply, Ideal.ofBits_def, Cert.Consts.ofBits_zero]

/-- Layer 1: the aggregated neighbour sums of real-valued features are real-valued. -/
theorem real_v20 (h0 : ∀ i, IsReal (x0 i)) : ∀ i, IsReal (val_main_v20 (F := Ideal) x0 x1 i) := by
  intro i
  unfold val_main_v20
  have hupd : ∀ j, IsReal (val_main_v17 (F := Ideal) x0 x1 j) := by
    intro j
    unfold val_main_v17
    exact isReal_gather _ x0 _ h0 j
  have hz : ∀ j, IsReal (val_main_v18 (F := Ideal) j) := fun j => by rw [v18_zero]; exact IsReal.zero
  generalize val_main_v17 (F := Ideal) x0 x1 = upd at hupd ⊢
  generalize val_main_v19 (F := Ideal) x1 = idx
  generalize val_main_v18 (F := Ideal) = z at hz ⊢
  exact isReal_scatterAdd _ z idx upd hz hupd i

/-- The zero array onto which the degrees accumulate. -/
theorem v5_zero (i : S100000.Idx) : val_main_v5 (F := Ideal) i = 0 := by
  rw [val_main_v5_apply, val_main_cst_0_apply, Ideal.ofBits_def, Cert.Consts.ofBits_zero]

/-- The array of ones that the degrees accumulate. -/
theorem v4_one (j : S1600000.Idx) : val_main_v4 (F := Ideal) j = 1 := by
  rw [val_main_v4_apply, val_main_cst_apply, Ideal.ofBits_def, Cert.Consts.ofBits_one]

/-- The degree of a row (a count of ones accumulated onto zero) is a nonnegative real. -/
theorem deg_nonneg : ∀ i, ∃ d : ℝ, 0 ≤ d ∧ val_main_v7 (F := Ideal) x1 i = (d : EReal) := by
  intro i
  unfold val_main_v7
  have hz : ∀ j, ∃ r : ℝ, 0 ≤ r ∧ val_main_v5 (F := Ideal) j = (r : EReal) :=
    fun j => ⟨0, le_refl 0, by rw [v5_zero, EReal.coe_zero]⟩
  have ho : ∀ j, ∃ r : ℝ, 0 ≤ r ∧ val_main_v4 (F := Ideal) j = (r : EReal) :=
    fun j => ⟨1, zero_le_one, by rw [v4_one, EReal.coe_one]⟩
  generalize val_main_v6 (F := Ideal) x1 = idx
  generalize val_main_v5 (F := Ideal) = z at hz ⊢
  generalize val_main_v4 (F := Ideal) = o at ho ⊢
  exact scatterAdd_nonneg _ z idx o hz ho i

/-- The degree of a row plus the small positive constant is a positive real. -/
theorem deg_pos : ∀ r : Fin 100000, ∃ d : ℝ, 0 < d ∧
    val_main_v7 (F := Ideal) x1 (ix1 r) + Ideal.ofBits .f32 0x358637BD#32 = (d : EReal) :=
  fun r => den_pos _ _ (deg_nonneg x1 (ix1 r)) Cert.Consts.eps_deg

/-- Layer 2 recomputes the same degrees. -/
theorem deg_eq57 : val_main_v57 (F := Ideal) x1 = val_main_v7 (F := Ideal) x1 := rfl

/-- Layer 3 recomputes the same degrees. -/
theorem deg_eq107 : val_main_v107 (F := Ideal) x1 = val_main_v7 (F := Ideal) x1 := rfl

/-- One layer's batch normalisation, stated over named quantities: if the column means, the column
    variances and the outputs are what batch normalisation says they are, and the data, scale and shift
    are real-valued, the outputs are real-valued. -/
theorem isReal_bn {D : ℕ} (h : Fin 100000 → Fin D → EReal) (hh : ∀ r q, IsReal (h r q))
    (g be : Fin D → EReal) (hg : ∀ q, IsReal (g q)) (hbe : ∀ q, IsReal (be q))
    (μ v : Fin D → EReal) (out : Fin 100000 → Fin D → EReal) (n e2 zero : EReal)
    (hn : n = ((100000 : ℝ) : EReal)) (he2 : ∃ ε : ℝ, 0 < ε ∧ e2 = (ε : EReal)) (hz : zero = 0)
    (hμ : ∀ q, μ q = Ideal.div (zero + ∑ r, h r q) n)
    (hv : ∀ q, v q = Ideal.div (zero + ∑ r, (h r q - μ q) * (h r q - μ q)) n)
    (hout : ∀ r q, out r q = max ((h r q - μ q) * Ideal.rsqrt (v q + e2) * g q + be q) zero) :
    ∀ r q, IsReal (out r q) := by
  intro r q
  have hm : μ q = meanR h n zero q := hμ q
  have hvv : v q = varR h n zero q := by
    rw [varR_def, ← hm]
    exact hv q
  rw [hout r q, hvv, hm]
  exact isReal_out h hh g be hg hbe n e2 zero hn he2 hz r q

open Cert.RefStages

/-- Layer 1: the normalised neighbour sums are real-valued. -/
theorem real_v22 (h0 : ∀ i, IsReal (x0 i)) :
    ∀ (r : Fin 100000) (k : Fin 64), IsReal (val_main_v22 (F := Ideal) x0 x1 (ix2 r k)) := by
  intro r k
  rw [l1_norm]
  obtain ⟨d, hd, e⟩ := deg_pos x1 r
  exact isReal_norm (real_v20 x0 x1 h0 _) (ne_of_gt hd) e

/-- Layer 1: the linear map of the normalised neighbour sums is real-valued. -/
theorem real_v27 (h0 : ∀ i, IsReal (x0 i)) (h2 : ∀ i, IsReal (x2 i)) (h3 : ∀ i, IsReal (x3 i)) :
    ∀ (r : Fin 100000) (q : Fin 128), IsReal (val_main_v27 (F := Ideal) x0 x1 x2 x3 (ix2 r q)) := by
  intro r q
  rw [l1_lin]
  exact isReal_lin (fun k => val_main_v22 (F := Ideal) x0 x1 (ix2 r k)) (fun k => x2 (ix2 q k)) (x3 (ix1 q))
    (fun k => real_v22 x0 x1 h0 r k) (fun k => h2 _) (h3 _)

/-- Layer 1: the batch-normalised, rectified output is real-valued. -/
theorem real_v53 (h0 : ∀ i, IsReal (x0 i)) (h2 : ∀ i, IsReal (x2 i)) (h3 : ∀ i, IsReal (x3 i))
    (h4 : ∀ i, IsReal (x4 i)) (h5 : ∀ i, IsReal (x5 i)) :
    ∀ i, IsReal (val_main_v53 (F := Ideal) x0 x1 x2 x3 x4 x5 i) := by
  intro i
  rw [eq_ix2 i]
  exact isReal_bn (fun r q => val_main_v27 (F := Ideal) x0 x1 x2 x3 (ix2 r q)) (real_v27 x0 x1 x2 x3 h0 h2 h3)
    (fun q => x4 (ix1 q)) (fun q => x5 (ix1 q)) (fun q => h4 _) (fun q => h5 _)
    (fun q => val_main_v30 (F := Ideal) x0 x1 x2 x3 (ix1 q)) (fun q => val_main_v37 (F := Ideal) x0 x1 x2 x3 (ix1 q))
    (fun r q => val_main_v53 (F := Ideal) x0 x1 x2 x3 x4 x5 (ix2 r q))
    (Ideal.ofBits .f32 0x47C35000#32) (Ideal.ofBits .f32 0x3727C5AC#32) (Ideal.ofBits .f32 0x00000000#32)
    Cert.Consts.ofBits_1e5 Cert.Consts.eps_bn Cert.Consts.ofBits_zero
    (fun q => l1_mean x0 x1 x2 x3 q) (fun q => l1_var x0 x1 x2 x3 q) (fun r q => l1_out x0 x1 x2 x3 x4 x5 r q)
    (i 0) (i 1)

end Cert.RefReal

end
-- ==== Proof.Bridge1.lean ====
/-
  Layer 1 of the network, the kernel program against the reference, array by array. The normalised neighbourhood
  sum: multiplying by 1/(deg+ε) is dividing by deg+ε, a positive real. The linear map: the same sum of products over
  the feature axis plus the bias. The batch normalisation: the column sums and sums of squares over all rows give
  the mean and, the rows being real numbers, E[h²] − (E[h])² is the mean squared deviation.
-/
import proofs.«176481_j81363860455527_1_alg».proof.Proof.KernelBoundary2
import proofs.«176481_j81363860455527_1_alg».proof.Proof.Layer
import proofs.«176481_j81363860455527_1_alg».proof.Proof.Linear0Stats
import proofs.«176481_j81363860455527_1_alg».proof.Proof.BnRelu1
import proofs.«176481_j81363860455527_1_alg».proof.Proof.RefStages
import proofs.«176481_j81363860455527_1_alg».proof.Proof.RefReal
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.Bridge
open Cert.KernelIdeal Cert.KernelIdeal.Gen Cert.KernelIdeal.Boundary Idealize.ShloMosaic Idealize.ShloMosaic.TcCoe Idealize.ShloMosaic.ValueIdx
open Cert.ReferenceIdeal.Read Cert.RealValued
set_option maxHeartbeats 1000000

/-- The host's quotient read at an index. -/
theorem hostDivf_apply {s : Shape} {φ : FTy} (a b : FVec Ideal s φ) (i : s.Idx) : Host.divf a b i = Ideal.div (a i) (b i) := rfl

/-- A scalar constant broadcast to any shape reads the constant's value everywhere. -/
theorem bcast_const_apply {t : Shape} (h : S_.BroadcastsInDim t ![]) (w : BitVec 32) (j : t.Idx) :
    broadcastInDim t ![] h (constant (F := Ideal) S_ .f32 w) j = Ideal.ofBits .f32 w :=
  (broadcastInDim_apply _ h (constant (F := Ideal) S_ .f32 w) j (fun a => a.elim0) (fun a => a.elim0)).trans (constant_apply _ _)

/-- A vector kept as a column reads the vector at the row. -/
theorem col_apply (y : FVec Ideal S100000 .f32) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => by
    match a with
    | ⟨0, _⟩ => show r.val = if (100000 : Nat) = 1 then 0 else r.val; rw [if_neg (by decide)])

/-- A column broadcast along 64 columns reads the column at the row. -/
theorem bcast64_apply (v : FVec Ideal S100000x1 .f32) (r : Fin 100000) (k : Fin 64) :
    broadcastInDim S100000x64 ![0, 1] bcast_S100000x1_S100000x64_0_1 v (ix2 r k) = v (ix2 r (0 : Fin 1)) :=
  broadcastInDim_apply _ bcast_S100000x1_S100000x64_0_1 v (ix2 r k) (ix2 r (0 : Fin 1)) (fun a => by
    match a with
    | ⟨0, _⟩ => show r.val = if (100000 : Nat) = 1 then 0 else r.val; rw [if_neg (by decide)]
    | ⟨1, _⟩ => show 0 = if (1 : Nat) = 1 then 0 else k.val; rw [if_pos rfl])

/-- A column broadcast along 128 columns reads the column at the row. -/
theorem bcast128_apply (v : FVec Ideal S100000x1 .f32) (r : Fin 100000) (k : Fin 128) :
    broadcastInDim S100000x128 ![0, 1] bcast_S100000x1_S100000x128_0_1 v (ix2 r k) = v (ix2 r (0 : Fin 1)) :=
  broadcastInDim_apply _ bcast_S100000x1_S100000x128_0_1 v (ix2 r k) (ix2 r (0 : Fin 1)) (fun a => by
    match a with
    | ⟨0, _⟩ => show r.val = if (100000 : Nat) = 1 then 0 else r.val; rw [if_neg (by decide)]
    | ⟨1, _⟩ => show 0 = if (1 : Nat) = 1 then 0 else k.val; rw [if_pos rfl])

/-- The reciprocal-degree column read at a row: 1 / (deg + ε). -/
theorem dinv_apply (e : (⟨S2x1600000, .i32⟩ : BufTy).Contents (Elt Ideal)) (r : Fin 100000) :
    dinv e (ix2 r (0 : Fin 1)) = Ideal.div (Ideal.ofBits .f32 0x3F800000#32) (val_main_v7 (F := Ideal) e (ix1 r) + Ideal.ofBits .f32 0x358637BD#32) := by
  unfold dinv
  generalize val_main_v7 (F := Ideal) e = y
  rw [col_apply, hostDivf_apply, addf_apply, bcast_const_apply, bcast_const_apply]

variable (m : (ℓ : Loc nD τ sig) → Buf (Elt Ideal) ℓ) (ρ : Dev nD → PrngReg) (c : Dev nD)

/-! ## The normalised neighbourhood sum -/

theorem norm1_read (r : Fin 100000) (k : Fin 64) :
    (W1 m ρ c (Proc.devRef .tc main_v24) : FVec Ideal S100000x64 .f32) (ix2 r k)
      = val_main_v20 (F := Ideal) (a0 m c) (a1 m c) (ix2 r k) * Ideal.div (Ideal.ofBits .f32 0x3F800000#32) (val_main_v7 (F := Ideal) (a1 m c) (ix1 r) + Ideal.ofBits .f32 0x358637BD#32) := by
  rw [w1_v24]
  generalize val_main_v20 (F := Ideal) (a0 m c) (a1 m c) = A
  rw [mulf_apply, bcast64_apply, dinv_apply]

theorem norm1 (r : Fin 100000) (k : Fin 64) :
    (W1 m ρ c (Proc.devRef .tc main_v24) : FVec Ideal S100000x64 .f32) (ix2 r k) = val_main_v22 (F := Ideal) (a0 m c) (a1 m c) (ix2 r k) := by
  obtain ⟨d, hd, he⟩ := Cert.RefReal.deg_pos (a1 m c) r
  rw [norm1_read m ρ c r k, Cert.RefStages.l1_norm (a0 m c) (a1 m c) r k, he]
  generalize val_main_v20 (F := Ideal) (a0 m c) (a1 m c) (ix2 r k) = A
  exact Cert.Layer.norm_eq A _ _ Cert.Consts.ofBits_one hd.ne' rfl

/-! ## The linear map -/

theorem wt1_apply (k : Fin 64) (q : Fin 128) :
    (W1 m ρ c (Proc.devRef .tc main_v26) : FVec Ideal S64x128 .bf16) (ix2 k q) = a2 m c (ix2 q k) := by
  rw [w1_v26, truncf_apply]
  unfold val_main_v23
  exact transpose_ix2_apply _ _ k q

theorem b1_apply (q : Fin 128) :
    (W1 m ρ c (Proc.devRef .tc main_v27) : FVec Ideal S1x128 .f32) (ix2 (0 : Fin 1) q) = a3 m c (ix1 q) := by
  rw [w1_v27]
  exact shapeCast_a_1a_apply _ _ 0 q

theorem hval1 (r : Fin 100000) (q : Fin 128) :
    Linear0.hval (V1 m ρ) c r q = val_main_v27 (F := Ideal) (a0 m c) (a1 m c) (a2 m c) (a3 m c) (ix2 r q) := by
  rw [Cert.RefStages.l1_lin (a0 m c) (a1 m c) (a2 m c) (a3 m c) r q]
  unfold Linear0.hval
  refine congrArg₂ (· + ·) (Finset.sum_congr rfl fun k _ => ?_) ?_
  · exact congrArg₂ (· * ·) (norm1 m ρ c r k) (wt1_apply m ρ c k q)
  · exact b1_apply m ρ c q

theorem h1 (r : Fin 100000) (q : Fin 128) :
    (W2 m ρ c (Proc.devRef .tc main_v28_0) : FVec Ideal S100000x128 .f32) (ix2 r q) = val_main_v27 (F := Ideal) (a0 m c) (a1 m c) (a2 m c) (a3 m c) (ix2 r q) := by
  rw [w2_h]
  exact (Linear0.h_apply (V1 m ρ) c r q).trans (hval1 m ρ c r q)

theorem h1_arr : (W3 m ρ c (Proc.devRef .tc main_v28_0) : FVec Ideal S100000x128 .f32) = val_main_v27 (F := Ideal) (a0 m c) (a1 m c) (a2 m c) (a3 m c) := by
  rw [w3_h, ← w2_h]
  funext i
  rw [eq_ix2 i]
  exact h1 m ρ c (i 0) (i 1)

/-! ## The batch statistics -/

theorem sum1 (q : Fin 128) :
    (W2 m ρ c (Proc.devRef .tc main_v28_1) : FVec Ideal S1x128 .f32) (ix2 (0 : Fin 1) q)
      = Ideal.ofBits .f32 0x00000000#32 + ∑ r : Fin 100000, val_main_v27 (F := Ideal) (a0 m c) (a1 m c) (a2 m c) (a3 m c) (ix2 r q) := by
  rw [w2_sum]
  refine (Linear0.sum_apply (V1 m ρ) c q).trans ?_
  exact congrArg (_ + ·) (Finset.sum_congr rfl fun r _ => hval1 m ρ c r q)

theorem sumsq1 (q : Fin 128) :
    (W2 m ρ c (Proc.devRef .tc main_v28_2) : FVec Ideal S1x128 .f32) (ix2 (0 : Fin 1) q)
      = Ideal.ofBits .f32 0x00000000#32 + ∑ r : Fin 100000, val_main_v27 (F := Ideal) (a0 m c) (a1 m c) (a2 m c) (a3 m c) (ix2 r q) * val_main_v27 (F := Ideal) (a0 m c) (a1 m c) (a2 m c) (a3 m c) (ix2 r q) := by
  rw [w2_sumsq]
  refine (Linear0.sumsq_apply (V1 m ρ) c q).trans ?_
  exact congrArg (_ + ·) (Finset.sum_congr rfl fun r _ => by rw [hval1 m ρ c r q])

theorem mu1 (q : Fin 128) :
    (W3 m ρ c (Proc.devRef .tc main_v30) : FVec Ideal S1x128 .f32) (ix2 (0 : Fin 1) q)
      = Ideal.div ((W2 m ρ c (Proc.devRef .tc main_v28_1) : FVec Ideal S1x128 .f32) (ix2 (0 : Fin 1) q)) (Ideal.ofBits .f32 0x47C35000#32) := by
  rw [w3_mean]
  generalize (W2 m ρ c (Proc.devRef .tc main_v28_1) : FVec Ideal S1x128 .f32) = S
  rw [hostDivf_apply, bcast_const_apply]

theorem va1 (q : Fin 128) :
    (W3 m ρ c (Proc.devRef .tc main_v34) : FVec Ideal S1x128 .f32) (ix2 (0 : Fin 1) q)
      = Ideal.div ((W2 m ρ c (Proc.devRef .tc main_v28_2) : FVec Ideal S1x128 .f32) (ix2 (0 : Fin 1) q)) (Ideal.ofBits .f32 0x47C35000#32)
        - Ideal.div ((W2 m ρ c (Proc.devRef .tc main_v28_1) : FVec Ideal S1x128 .f32) (ix2 (0 : Fin 1) q)) (Ideal.ofBits .f32 0x47C35000#32)
          * Ideal.div ((W2 m ρ c (Proc.devRef .tc main_v28_1) : FVec Ideal S1x128 .f32) (ix2 (0 : Fin 1) q)) (Ideal.ofBits .f32 0x47C35000#32) := by
  rw [w3_var, w3_mean]
  generalize (W2 m ρ c (Proc.devRef .tc main_v28_2) : FVec Ideal S1x128 .f32) = Q
  generalize (W2 m ρ c (Proc.devRef .tc main_v28_1) : FVec Ideal S1x128 .f32) = S
  rw [subf_apply, mulf_apply, hostDivf_apply, hostDivf_apply, bcast_const_apply]

theorem ga1 (q : Fin 128) :
    (W3 m ρ c (Proc.devRef .tc main_v35) : FVec Ideal S1x128 .f32) (ix2 (0 : Fin 1) q) = a4 m c (ix1 q) := by
  rw [w3_gamma]
  exact shapeCast_a_1a_apply _ _ 0 q

theorem be1 (q : Fin 128) :
    (W3 m ρ c (Proc.devRef .tc main_v36) : FVec Ideal S1x128 .f32) (ix2 (0 : Fin 1) q) = a5 m c (ix1 q) := by
  rw [w3_beta]
  exact shapeCast_a_1a_apply _ _ 0 q

end Cert.Bridge
end
-- ==== Proof.Bridge1b.lean ====
/-
  Layer 1, the normalised and rectified output: the kernel's max((h − mean)·rsqrt(var + ε)·γ + β, 0) with
  var = E[h²] − (E[h])² is the reference's with var the mean squared deviation, the rows of h being real numbers.
-/
import proofs.«176481_j81363860455527_1_alg».proof.Proof.Bridge1

set_option maxRecDepth 16384
set_option maxHeartbeats 1000000
noncomputable section
namespace Cert.Bridge
open Cert.KernelIdeal Cert.KernelIdeal.Gen Cert.KernelIdeal.Boundary Idealize.ShloMosaic Idealize.ShloMosaic.TcCoe Idealize.ShloMosaic.ValueIdx
open Cert.ReferenceIdeal.Read Cert.RealValued

variable (m : (ℓ : Loc nD τ sig) → Buf (Elt Ideal) ℓ) (ρ : Dev nD → PrngReg) (c : Dev nD)

/-- Layer 1's pre-activation as a function of row and column. -/
abbrev hh1 : Fin 100000 → Fin 128 → EReal := fun r q => val_main_v27 (F := Ideal) (a0 m c) (a1 m c) (a2 m c) (a3 m c) (ix2 r q)

theorem mean1_ref (q : Fin 128) :
    val_main_v30 (F := Ideal) (a0 m c) (a1 m c) (a2 m c) (a3 m c) (ix1 q) = Cert.Layer.meanR (hh1 m c) (Ideal.ofBits .f32 0x47C35000#32) (Ideal.ofBits .f32 0x00000000#32) q :=
  (Cert.RefStages.l1_mean (a0 m c) (a1 m c) (a2 m c) (a3 m c) q).trans (Cert.Layer.meanR_def (hh1 m c) _ _ q).symm

theorem var1_ref (q : Fin 128) :
    val_main_v37 (F := Ideal) (a0 m c) (a1 m c) (a2 m c) (a3 m c) (ix1 q) = Cert.Layer.varR (hh1 m c) (Ideal.ofBits .f32 0x47C35000#32) (Ideal.ofBits .f32 0x00000000#32) q := by
  rw [Cert.RefStages.l1_var (a0 m c) (a1 m c) (a2 m c) (a3 m c) q, mean1_ref m c q]
  exact (Cert.Layer.varR_def (hh1 m c) _ _ q).symm

theorem out1 (hh : ∀ r q, IsReal (hh1 m c r q)) (r : Fin 100000) (q : Fin 128) :
    (W4 m ρ c (Proc.devRef .tc main_v37) : FVec Ideal S100000x128 .f32) (ix2 r q) = val_main_v53 (F := Ideal) (a0 m c) (a1 m c) (a2 m c) (a3 m c) (a4 m c) (a5 m c) (ix2 r q) := by
  rw [w4_out]
  refine (BnRelu1.out_apply_of (V3 m ρ) c (val_main_v27 (F := Ideal) (a0 m c) (a1 m c) (a2 m c) (a3 m c))
    (W3 m ρ c (Proc.devRef .tc main_v30)) (W3 m ρ c (Proc.devRef .tc main_v34)) (W3 m ρ c (Proc.devRef .tc main_v35)) (W3 m ρ c (Proc.devRef .tc main_v36))
    (h1_arr m ρ c) rfl rfl rfl rfl r q).trans ?_
  rw [va1 m ρ c q, mu1 m ρ c q, ga1 m ρ c q, be1 m ρ c q, sum1 m ρ c q, sumsq1 m ρ c q]
  refine (Cert.Layer.out_eq (hh1 m c) hh (fun q => a4 m c (ix1 q)) (fun q => a5 m c (ix1 q)) (Ideal.ofBits .f32 0x47C35000#32) (Ideal.ofBits .f32 0x3727C5AC#32) (Ideal.ofBits .f32 0x00000000#32)
    Cert.Consts.ofBits_1e5 Cert.Consts.ofBits_zero
    (fun q => Ideal.ofBits .f32 0x00000000#32 + ∑ r : Fin 100000, hh1 m c r q) (fun q => Ideal.ofBits .f32 0x00000000#32 + ∑ r : Fin 100000, hh1 m c r q * hh1 m c r q)
    (fun _ => rfl) (fun _ => rfl) r q).trans ?_
  rw [Cert.RefStages.l1_out (a0 m c) (a1 m c) (a2 m c) (a3 m c) (a4 m c) (a5 m c) r q, mean1_ref m c q, var1_ref m c q]

theorem out1_arr (hh : ∀ r q, IsReal (hh1 m c r q)) :
    (W4 m ρ c (Proc.devRef .tc main_v37) : FVec Ideal S100000x128 .f32) = val_main_v53 (F := Ideal) (a0 m c) (a1 m c) (a2 m c) (a3 m c) (a4 m c) (a5 m c) := by
  funext i
  rw [eq_ix2 i]
  exact out1 m ρ c hh (i 0) (i 1)

end Cert.Bridge
end
-- ==== Proof.Linear2.lean ====
/-
  The linear layer with column statistics of region 2, read off its frame at the ideal values.

  The region runs over ten tiles of 10000 rows. At tile t the body forms h = x_t · W + b for the tile's rows (the
  left operand rounded to the narrower format, which is the identity at the ideal values; the product accumulated
  into zero), stores h, and adds the column sums of h and of h * h onto two running rows that the first tile resets
  to the zero word. With X the 100000×128 operand, W the 128×128 weights and b the 1×128 bias as the region
  finds them, and hval r q = (∑ k, X (r, k) * W (k, q)) + b (0, q):

    * the h result holds hval r q at (r, q);
    * the two statistics rows hold, at (0, q), the zero word plus the sum over all 100000 rows of hval r q, and of
      hval r q * hval r q (addition of extended reals is commutative and associative, so the tile order does not
      show).
-/
import proofs.«176481_j81363860455527_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«176481_j81363860455527_1_alg».proof.Proof.LibPlainDot

noncomputable section

open scoped BigOperators
open Idealize.ShloMosaic Idealize.ShloMosaic.TcCoe Idealize.SL.Sem
open Idealize.ShloMosaic.Pipeline (Dat)
open Idealize.ShloMosaic.ValueIdx

namespace Cert.KernelIdeal.Linear2

open Cert.KernelIdeal Cert.KernelIdeal.Gen

/-! ## The body's values at a tile, over any operand blocks -/

/-- The tile of h at (p, q): the row of x against the column of W, plus the bias. -/
theorem pay3_apply (x0 : Vec Ideal S10000x128 .f32) (x1 : Vec Ideal S128x128 .bf16) (x2 : Vec Ideal S1x128 .f32) (p : Fin 10000) (q : Fin 128) :
    k2_pay3 (F := Ideal) x0 x1 x2 (ix2 p q) = (∑ k : Fin 128, x0 (ix2 p k) * x1 (ix2 k q)) + x2 (ix2 (0 : Fin 1) q) := by
  unfold k2_pay3
  simp only [shapeCast_self]
  refine (addf_apply _ _ _).trans ?_
  refine congrArg₂ (· + ·) ?_ ?_
  · exact (PlainDot.matmul_zero_apply (M := 10000) (K := 128) (N := 128) none _ _ p q)
  · exact (broadcastTo_1b_ab_apply _ _ p q)

/-- The index a column sum reads at row p of column q. -/
theorem lift_eq (q : Fin 128) (p : Fin 10000) : reduces_S10000x128_S128.lift (ix1 q) p = ix2 p q := by
  funext a
  match a with
  | ⟨0, _⟩ => rfl
  | ⟨1, _⟩ => rfl

/-- The running sum row after a tile: what it held plus the tile's column sum of h. -/
theorem pay4_apply (x0 : Vec Ideal S10000x128 .f32) (x1 : Vec Ideal S128x128 .bf16) (x2 : Vec Ideal S1x128 .f32) (a : Vec Ideal S1x128 .f32) (q : Fin 128) :
    k2_pay4 (F := Ideal) x0 x1 x2 a (ix2 (0 : Fin 1) q)
      = a (ix2 (0 : Fin 1) q) + ∑ p : Fin 10000, k2_pay3 (F := Ideal) x0 x1 x2 (ix2 p q) := by
  unfold k2_pay4
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => congrArg _ (lift_eq q p)

/-- The running sum-of-squares row after a tile: what it held plus the tile's column sum of h * h. -/
theorem pay5_apply (x0 : Vec Ideal S10000x128 .f32) (x1 : Vec Ideal S128x128 .bf16) (x2 : Vec Ideal S1x128 .f32) (a : Vec Ideal S1x128 .f32) (q : Fin 128) :
    k2_pay5 (F := Ideal) x0 x1 x2 a (ix2 (0 : Fin 1) q)
      = a (ix2 (0 : Fin 1) q) + ∑ p : Fin 10000, k2_pay3 (F := Ideal) x0 x1 x2 (ix2 p q) * k2_pay3 (F := Ideal) x0 x1 x2 (ix2 p q) := by
  unfold k2_pay5
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => (congrArg _ (lift_eq q p)).trans (mulf_apply _ _ _)

/-! ## What each case of the body leaves in the three results' blocks -/

section Pieces
variable {F : FTy → Type} [FloatOps F]

theorem hz : (![0, 0] : Fin 2 → Nat) = fun _ => 0 := funext fun a => by fin_cases a <;> rfl

theorem out_A_3 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond2_0 i) (x0 : Vec F S10000x128 .f32) (x1 : Vec F S128x128 .bf16) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

theorem out_A_4 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond2_0 i) (x0 : Vec F S10000x128 .f32) (x1 : Vec F S128x128 .bf16) (x2 : Vec F S1x128 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

theorem out_A_5 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond2_0 i) (x0 : Vec F S10000x128 .f32) (x1 : Vec F S128x128 .bf16) (x2 : Vec F S1x128 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

theorem out_B_3 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S10000x128 .f32) (x1 : Vec F S128x128 .bf16) (x2 : Vec F S1x128 .f32) (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

theorem out_B_4 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S10000x128 .f32) (x1 : Vec F S128x128 .bf16) (x2 : Vec F S1x128 .f32) (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

theorem out_B_5 (c : Dev nD) (i : grid2.Coords) (a1 : Memref sig .tc .vmem S10000x128 .f32) (h1 : a1.IsWhole) (a2 : Memref sig .tc .vmem S128x128 .bf16) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S10000x128 .f32) (x1 : Vec F S128x128 .bf16) (x2 : Vec F S1x128 .f32) (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x128) hz, View.ld_unit_zero (S := S1x128) hz]

end Pieces

/-! ## The operands as the region finds them, and the blocks the windows read -/

variable (V : (c : Dev nD) → (b : Ref sig .tc) → Buf (Elt Ideal) ((c : Thread nD τ).loc b)) (c : Dev nD)

/-- The 100000×128 left operand. -/
abbrev X : S100000x128.Idx → Elt Ideal .f32 := V c (Pipeline.arrRef spec2 0)
/-- The 128×128 weights. -/
abbrev Wt : S128x128.Idx → Elt Ideal .bf16 := V c (Pipeline.arrRef spec2 1)
/-- The 1×128 bias row. -/
abbrev B : S1x128.Idx → Elt Ideal .f32 := V c (Pipeline.arrRef spec2 2)

/-- The block index of every window at every tile: the row windows move with the tile, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of the left operand's block at tile t is row 10000 t + p of the operand. -/
theorem iblk_0_apply (t : Fin cfg2.N) (p : Fin 10000) (k : Fin 128) (r : Fin 100000) (hr : r.val = 10000 * t.val + p.val) :
    (iblk2 V c 0 t : Vec Ideal S10000x128 .f32) (ix2 p k) = X V c (ix2 r k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 10000 + 1 * p.val = r.val; rw [e0, hr]; omega
  | ⟨1, _⟩ => show win2_0.index t 1 * 128 + 1 * k.val = k.val; rw [e1]; omega

/-- The weights' block is the weights at every tile. -/
theorem iblk_1_apply (t : Fin cfg2.N) (k : Fin 128) (q : Fin 128) :
    (iblk2 V c 1 t : Vec Ideal S128x128 .bf16) (ix2 k q) = Wt V c (ix2 k q) := by
  obtain ⟨-, -, e0, e1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The bias row's block is the bias row at every tile. -/
theorem iblk_2_apply (t : Fin cfg2.N) (u : Fin 1) (q : Fin 128) :
    (iblk2 V c 2 t : Vec Ideal S1x128 .f32) (ix2 u q) = B V c (ix2 u q) := by
  obtain ⟨-, -, -, -, e0, e1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * u.val = u.val; rw [e0]; omega
  | ⟨1, _⟩ => show win2_2.index t 1 * 128 + 1 * q.val = q.val; rw [e1]; omega

/-! ## The h result -/

/-- The value of h at row r, column q. -/
def hval (r : Fin 100000) (q : Fin 128) : EReal :=
  (∑ k : Fin 128, X V c (ix2 r k) * Wt V c (ix2 k q)) + B V c (ix2 (0 : Fin 1) q)

/-- The tile of h the body forms at tile t, at (p, q), is h at row 10000 t + p. -/
theorem tile_apply (t : Fin cfg2.N) (p : Fin 10000) (q : Fin 128) (r : Fin 100000) (hr : r.val = 10000 * t.val + p.val) :
    k2_pay3 (F := Ideal) (iblk2 V c 0 t) (iblk2 V c 1 t) (iblk2 V c 2 t) (ix2 p q) = hval V c r q := by
  refine (pay3_apply (iblk2 V c 0 t) (iblk2 V c 1 t) (iblk2 V c 2 t) p q).trans ?_
  unfold hval
  exact congrArg₂ (· + ·) (Finset.sum_congr rfl fun k _ => congrArg₂ (· * ·) (iblk_0_apply V c t p k r hr) (iblk_1_apply V c t k q)) (iblk_2_apply V c t 0 q)

/-- After every tile the h block holds that tile of h, whichever case the tile is in. -/
theorem outs3_eq (t : Fin cfg2.N) : (outsAt2 V c t.val t.isLt).1 = k2_pay3 (F := Ideal) (iblk2 V c 0 t) (iblk2 V c 1 t) (iblk2 V c 2 t) := by
  by_cases h0 : t.val % 10 = 0
  · rw [outsAt2_A V c t h0]
    dsimp only
    exact out_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0]
    dsimp only
    exact out_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

/-- The whole h result. -/
def H : S100000x128.Idx → Elt Ideal .f32 := fun i => hval V c (i 0) (i 1)

/-- What tile t writes back is its block of H. -/
theorem flushed3_eq (t : Fin cfg2.N) : (dat2 V c).flushed 3 t = ((cfg2.win 3).blk t).view.read (Elt Ideal) (H V c) := by
  have hN : t.val < 10 := lt_of_lt_of_eq t.isLt (show cfg2.N = 10 from N_2)
  obtain ⟨-, -, -, -, -, -, e0, e1, -⟩ := idx_facts t
  show (cfg2.win 3).cut (grid2.coords t) ((dat2 V c).after 3 t) = _
  rw [after2_3, outs3_eq]
  funext j
  show k2_pay3 (F := Ideal) (iblk2 V c 0 t) (iblk2 V c 1 t) (iblk2 V c 2 t) j = H V c (((cfg2.win 3).blk t).view.emb j)
  obtain ⟨p, q, rfl⟩ : ∃ (p : Fin 10000) (q : Fin 128), j = ix2 p q := ⟨j 0, j 1, eq_ix2 (n0 := 10000) (n1 := 128) j⟩
  refine (tile_apply V c t p q ⟨10000 * t.val + p.val, by omega⟩ rfl).trans ?_
  unfold H
  congr 1 <;> apply Fin.ext
  · show 10000 * t.val + p.val = win2_3.index t 0 * 10000 + 1 * p.val
    rw [e0]; omega
  · show q.val = win2_3.index t 1 * 128 + 1 * q.val
    rw [e1]; omega

/-- An index of the h result is in tile t's block iff each coordinate is in the block's range. -/
theorem mem_blk3 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v53_0).slice (win2_3.rect t)).set ↔ _
  rw [View.set_slice_whole, Rect.mem_set_unit]
  exact Iff.rfl

/-- The ten tiles cover the h result (row r is in tile r / 10000), so it ends holding H. -/
theorem final3 : (dat2 V c).arrAt 3 cfg2.N = H V c :=
  (dat2 V c).arrAt_eq_of_cover 3 (H V c) (fun t _ => flushed3_eq V c t) fun i => by
    have hi0 : (i 0).val < 100000 := (i 0).isLt
    have hi1 : (i 1).val < 128 := (i 1).isLt
    have hN : cfg2.N = 10 := N_2
    refine ⟨⟨(i 0).val / 10000, by rw [hN]; omega⟩, flush2_3 _, ?_⟩
    rw [mem_blk3]
    obtain ⟨-, -, -, -, -, -, e0, e1, -⟩ := idx_facts ⟨(i 0).val / 10000, by rw [hN]; omega⟩
    intro a
    match a with
    | ⟨0, _⟩ =>
      show win2_3.index _ (0 : Fin 2) * 10000 ≤ (i 0).val ∧ (i 0).val < win2_3.index _ (0 : Fin 2) * 10000 + 10000
      rw [e0]; dsimp only; omega
    | ⟨1, _⟩ =>
      show win2_3.index _ (1 : Fin 2) * 128 ≤ (i 1).val ∧ (i 1).val < win2_3.index _ (1 : Fin 2) * 128 + 128
      rw [e1]; omega

/-- THE h RESULT, entry by entry. -/
theorem h_apply (r : Fin 100000) (q : Fin 128) :
    ((dat2 V c).arrAt 3 cfg2.N : S100000x128.Idx → Elt Ideal .f32) (ix2 r q) = hval V c r q := by
  rw [final3]
  rfl

end Cert.KernelIdeal.Linear2

end
-- ==== Proof.Linear2Stats.lean ====
/-
  The two statistics rows of the linear layer of region 2, read off its frame at the ideal values.

  Each of the ten tiles adds the column sums of its 10000 rows of h (and of h * h) onto a running 1×128 row that the
  first tile resets to the zero word; the row is written back once, after the last tile. By induction on the tile the
  row after tile n is the zero word plus the column sums over tiles 0 … n, and the ten tiles' rows are exactly the
  100000 rows, so at (0, q) the rows end holding the zero word plus the sum over all rows r of hval r q, and of
  hval r q * hval r q.
-/
import proofs.«176481_j81363860455527_1_alg».proof.Proof.Linear2
import proofs.«176481_j81363860455527_1_alg».proof.Proof.BnAlgebra

noncomputable section

open scoped BigOperators
open Idealize.ShloMosaic Idealize.ShloMosaic.TcCoe Idealize.SL.Sem
open Idealize.ShloMosaic.Pipeline (Dat)
open Idealize.ShloMosaic.ValueIdx

namespace Cert.KernelIdeal.Linear2

open Cert.KernelIdeal Cert.KernelIdeal.Gen

variable (V : (c : Dev nD) → (b : Ref sig .tc) → Buf (Elt Ideal) ((c : Thread nD τ).loc b)) (c : Dev nD)

/-! ## The two statistics rows -/

/-- h at a row number, zero past the last row. -/
def hvalN (r : ℕ) (q : Fin 128) : EReal := if h : r < 100000 then hval V c ⟨r, h⟩ q else 0

/-- The tile of h at tile t, at (p, q), by row number. -/
theorem tile_apply_N (t : Fin cfg2.N) (p : Fin 10000) (q : Fin 128) :
    k2_pay3 (F := Ideal) (iblk2 V c 0 t) (iblk2 V c 1 t) (iblk2 V c 2 t) (ix2 p q) = hvalN V c (10000 * t.val + p.val) q := by
  have hN : t.val < 10 := lt_of_lt_of_eq t.isLt (show cfg2.N = 10 from N_2)
  have hr : 10000 * t.val + p.val < 100000 := by omega
  refine (tile_apply V c t p q ⟨10000 * t.val + p.val, hr⟩ rfl).trans ?_
  unfold hvalN
  rw [dif_pos hr]

/-- The column sum of h over tile n. -/
def tileSum (n : ℕ) (q : Fin 128) : EReal := ∑ p : Fin 10000, hvalN V c (10000 * n + p.val) q

/-- At the first tile the row holds the zero word plus the tile's column sum of h. -/
theorem outs4_first (t : Fin cfg2.N) (h0 : t.val % 10 = 0) (q : Fin 128) :
    (outsAt2 V c t.val t.isLt).2.1 (ix2 (0 : Fin 1) q) = Ideal.ofBits .f32 0x00000000#32 + tileSum V c t.val q := by
  rw [outsAt2_A V c t h0]
  dsimp only
  refine (congrFun (out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)) (ix2 (0 : Fin 1) q)).trans ?_
  refine (pay4_apply (iblk2 V c 0 t) (iblk2 V c 1 t) (iblk2 V c 2 t) (k2_pay1 (F := Ideal)) q).trans ?_
  exact congrArg₂ (· + ·) rfl (Finset.sum_congr rfl fun p _ => tile_apply_N V c t p q)

/-- At a later tile the row holds what the tile before left plus the tile's column sum of h. -/
theorem outs4_step (t : Fin cfg2.N) (h0 : ¬t.val % 10 = 0) (q : Fin 128) :
    (outsAt2 V c t.val t.isLt).2.1 (ix2 (0 : Fin 1) q)
      = (outsAt2 V c (t.val - 1) (Nat.lt_of_le_of_lt (Nat.sub_le _ _) t.isLt)).2.1 (ix2 (0 : Fin 1) q) + tileSum V c t.val q := by
  rw [outsAt2_B V c t h0]
  dsimp only
  refine (congrFun (out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (pay4_apply (iblk2 V c 0 t) (iblk2 V c 1 t) (iblk2 V c 2 t) (outsAt2 V c (t.val - 1) (Nat.lt_of_le_of_lt (Nat.sub_le _ _) t.isLt)).2.1 q).trans ?_
  exact congrArg₂ (· + ·) rfl (Finset.sum_congr rfl fun p _ => tile_apply_N V c t p q)

/-- After tile n the row holds the zero word plus the column sums of h over tiles 0 … n. -/
theorem outs4_eq : ∀ (n : ℕ) (h : n < cfg2.N) (q : Fin 128),
    (outsAt2 V c n h).2.1 (ix2 (0 : Fin 1) q) = Ideal.ofBits .f32 0x00000000#32 + ∑ t ∈ Finset.range (n + 1), tileSum V c t q
  | 0, h, q => by
    refine (outs4_first V c ⟨0, h⟩ rfl q).trans ?_
    rw [Finset.sum_range_one]
  | n + 1, h, q => by
    have h' : n + 1 < 10 := lt_of_lt_of_eq h N_2
    refine (outs4_step V c ⟨n + 1, h⟩ (by dsimp only; omega) q).trans ?_
    show (outsAt2 V c n _).2.1 (ix2 (0 : Fin 1) q) + tileSum V c (n + 1) q = _
    rw [outs4_eq n _ q, Finset.sum_range_succ _ (n + 1), add_assoc]

/-- The ten tiles' column sums of h add up to the sum over all 100000 rows. -/
theorem sum_all (q : Fin 128) : ∑ t ∈ Finset.range 10, tileSum V c t q = ∑ r : Fin 100000, hval V c r q := by
  unfold tileSum
  rw [Cert.BnAlgebra.sum_tiles (fun r => hvalN V c r q)]
  exact Finset.sum_congr rfl fun r _ => by unfold hvalN; rw [dif_pos r.isLt]

/-- The whole row of column sums of h. -/
def S4 : S1x128.Idx → Elt Ideal .f32 := fun i => Ideal.ofBits .f32 0x00000000#32 + ∑ r : Fin 100000, hval V c r (i 1)

/-- The one write-back, after the last tile, writes that row. -/
theorem flushed4_eq (t : Fin cfg2.N) (hf : (cfg2.win 4).flush t = true) :
    (dat2 V c).flushed 4 t = ((cfg2.win 4).blk t).view.read (Elt Ideal) (S4 V c) := by
  have hN : t.val < 10 := lt_of_lt_of_eq t.isLt (show cfg2.N = 10 from N_2)
  have h9 : t.val = 9 := by have := (flush2_4 t).mp hf; omega
  obtain ⟨-, -, -, -, -, -, -, -, e0, e1, -⟩ := idx_facts t
  show (cfg2.win 4).cut (grid2.coords t) ((dat2 V c).after 4 t) = _
  rw [after2_4]
  funext j
  show (outsAt2 V c t.val t.isLt).2.1 j = S4 V c (((cfg2.win 4).blk t).view.emb j)
  obtain ⟨u, q, rfl⟩ : ∃ (u : Fin 1) (q : Fin 128), j = ix2 u q := ⟨j 0, j 1, eq_ix2 (n0 := 1) (n1 := 128) j⟩
  obtain rfl : u = 0 := Subsingleton.elim _ _
  refine (outs4_eq V c t.val t.isLt q).trans ?_
  unfold S4
  refine congrArg₂ (· + ·) rfl ?_
  rw [h9]
  refine (sum_all V c q).trans ?_
  have hq : q = ((cfg2.win 4).blk t).view.emb (ix2 (0 : Fin 1) q) 1 := by
    apply Fin.ext
    show q.val = win2_4.index t 1 * 128 + 1 * q.val
    rw [e1]; omega
  rw [← hq]

/-- An index of the row is in a tile's block iff each coordinate is in the block's range. -/
theorem mem_blk4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v53_1).slice (win2_4.rect t)).set ↔ _
  rw [View.set_slice_whole, Rect.mem_set_unit]
  exact Iff.rfl

/-- The last tile's block is the whole row, so the row ends holding the sums over all rows. -/
theorem final4 : (dat2 V c).arrAt 4 cfg2.N = S4 V c :=
  (dat2 V c).arrAt_eq_of_cover 4 (S4 V c) (flushed4_eq V c) fun i => by
    have hi0 : (i 0).val < 1 := (i 0).isLt
    have hi1 : (i 1).val < 128 := (i 1).isLt
    have hN : cfg2.N = 10 := N_2
    refine ⟨⟨9, by rw [hN]; omega⟩, (flush2_4 _).mpr rfl, ?_⟩
    rw [mem_blk4]
    obtain ⟨-, -, -, -, -, -, -, -, e0, e1, -⟩ := idx_facts ⟨9, by rw [hN]; omega⟩
    intro a
    match a with
    | ⟨0, _⟩ =>
      show win2_4.index _ (0 : Fin 2) * 1 ≤ (i 0).val ∧ (i 0).val < win2_4.index _ (0 : Fin 2) * 1 + 1
      rw [e0]; omega
    | ⟨1, _⟩ =>
      show win2_4.index _ (1 : Fin 2) * 128 ≤ (i 1).val ∧ (i 1).val < win2_4.index _ (1 : Fin 2) * 128 + 128
      rw [e1]; omega

/-- THE ROW OF COLUMN SUMS OF h, entry by entry. -/
theorem sum_apply (q : Fin 128) :
    ((dat2 V c).arrAt 4 cfg2.N : S1x128.Idx → Elt Ideal .f32) (ix2 (0 : Fin 1) q)
      = Ideal.ofBits .f32 0x00000000#32 + ∑ r : Fin 100000, hval V c r q := by
  rw [final4]
  rfl

/-- The column sum of h * h over tile n. -/
def tileSumSq (n : ℕ) (q : Fin 128) : EReal := ∑ p : Fin 10000, hvalN V c (10000 * n + p.val) q * hvalN V c (10000 * n + p.val) q

/-- At the first tile the row holds the zero word plus the tile's column sum of h * h. -/
theorem outs5_first (t : Fin cfg2.N) (h0 : t.val % 10 = 0) (q : Fin 128) :
    (outsAt2 V c t.val t.isLt).2.2 (ix2 (0 : Fin 1) q) = Ideal.ofBits .f32 0x00000000#32 + tileSumSq V c t.val q := by
  rw [outsAt2_A V c t h0]
  dsimp only
  refine (congrFun (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)) (ix2 (0 : Fin 1) q)).trans ?_
  refine (pay5_apply (iblk2 V c 0 t) (iblk2 V c 1 t) (iblk2 V c 2 t) (k2_pay2 (F := Ideal)) q).trans ?_
  exact congrArg₂ (· + ·) rfl (Finset.sum_congr rfl fun p _ => congrArg₂ (· * ·) (tile_apply_N V c t p q) (tile_apply_N V c t p q))

/-- At a later tile the row holds what the tile before left plus the tile's column sum of h * h. -/
theorem outs5_step (t : Fin cfg2.N) (h0 : ¬t.val % 10 = 0) (q : Fin 128) :
    (outsAt2 V c t.val t.isLt).2.2 (ix2 (0 : Fin 1) q)
      = (outsAt2 V c (t.val - 1) (Nat.lt_of_le_of_lt (Nat.sub_le _ _) t.isLt)).2.2 (ix2 (0 : Fin 1) q) + tileSumSq V c t.val q := by
  rw [outsAt2_B V c t h0]
  dsimp only
  refine (congrFun (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (pay5_apply (iblk2 V c 0 t) (iblk2 V c 1 t) (iblk2 V c 2 t) (outsAt2 V c (t.val - 1) (Nat.lt_of_le_of_lt (Nat.sub_le _ _) t.isLt)).2.2 q).trans ?_
  exact congrArg₂ (· + ·) rfl (Finset.sum_congr rfl fun p _ => congrArg₂ (· * ·) (tile_apply_N V c t p q) (tile_apply_N V c t p q))

/-- After tile n the row holds the zero word plus the column sums of h * h over tiles 0 … n. -/
theorem outs5_eq : ∀ (n : ℕ) (h : n < cfg2.N) (q : Fin 128),
    (outsAt2 V c n h).2.2 (ix2 (0 : Fin 1) q) = Ideal.ofBits .f32 0x00000000#32 + ∑ t ∈ Finset.range (n + 1), tileSumSq V c t q
  | 0, h, q => by
    refine (outs5_first V c ⟨0, h⟩ rfl q).trans ?_
    rw [Finset.sum_range_one]
  | n + 1, h, q => by
    have h' : n + 1 < 10 := lt_of_lt_of_eq h N_2
    refine (outs5_step V c ⟨n + 1, h⟩ (by dsimp only; omega) q).trans ?_
    show (outsAt2 V c n _).2.2 (ix2 (0 : Fin 1) q) + tileSumSq V c (n + 1) q = _
    rw [outs5_eq n _ q, Finset.sum_range_succ _ (n + 1), add_assoc]

/-- The ten tiles' column sums of h * h add up to the sum over all 100000 rows. -/
theorem sumsq_all (q : Fin 128) : ∑ t ∈ Finset.range 10, tileSumSq V c t q = ∑ r : Fin 100000, hval V c r q * hval V c r q := by
  unfold tileSumSq
  rw [Cert.BnAlgebra.sum_tiles (fun r => hvalN V c r q * hvalN V c r q)]
  exact Finset.sum_congr rfl fun r _ => by unfold hvalN; rw [dif_pos r.isLt]

/-- The whole row of column sums of h * h. -/
def S5 : S1x128.Idx → Elt Ideal .f32 := fun i => Ideal.ofBits .f32 0x00000000#32 + ∑ r : Fin 100000, hval V c r (i 1) * hval V c r (i 1)

/-- The one write-back, after the last tile, writes that row. -/
theorem flushed5_eq (t : Fin cfg2.N) (hf : (cfg2.win 5).flush t = true) :
    (dat2 V c).flushed 5 t = ((cfg2.win 5).blk t).view.read (Elt Ideal) (S5 V c) := by
  have hN : t.val < 10 := lt_of_lt_of_eq t.isLt (show cfg2.N = 10 from N_2)
  have h9 : t.val = 9 := by have := (flush2_5 t).mp hf; omega
  obtain ⟨-, -, -, -, -, -, -, -, -, -, e0, e1⟩ := idx_facts t
  show (cfg2.win 5).cut (grid2.coords t) ((dat2 V c).after 5 t) = _
  rw [after2_5]
  funext j
  show (outsAt2 V c t.val t.isLt).2.2 j = S5 V c (((cfg2.win 5).blk t).view.emb j)
  obtain ⟨u, q, rfl⟩ : ∃ (u : Fin 1) (q : Fin 128), j = ix2 u q := ⟨j 0, j 1, eq_ix2 (n0 := 1) (n1 := 128) j⟩
  obtain rfl : u = 0 := Subsingleton.elim _ _
  refine (outs5_eq V c t.val t.isLt q).trans ?_
  unfold S5
  refine congrArg₂ (· + ·) rfl ?_
  rw [h9]
  refine (sumsq_all V c q).trans ?_
  have hq : q = ((cfg2.win 5).blk t).view.emb (ix2 (0 : Fin 1) q) 1 := by
    apply Fin.ext
    show q.val = win2_5.index t 1 * 128 + 1 * q.val
    rw [e1]; omega
  rw [← hq]

/-- An index of the row is in a tile's block iff each coordinate is in the block's range. -/
theorem mem_blk5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v53_2).slice (win2_5.rect t)).set ↔ _
  rw [View.set_slice_whole, Rect.mem_set_unit]
  exact Iff.rfl

/-- The last tile's block is the whole row, so the row ends holding the sums over all rows. -/
theorem final5 : (dat2 V c).arrAt 5 cfg2.N = S5 V c :=
  (dat2 V c).arrAt_eq_of_cover 5 (S5 V c) (flushed5_eq V c) fun i => by
    have hi0 : (i 0).val < 1 := (i 0).isLt
    have hi1 : (i 1).val < 128 := (i 1).isLt
    have hN : cfg2.N = 10 := N_2
    refine ⟨⟨9, by rw [hN]; omega⟩, (flush2_5 _).mpr rfl, ?_⟩
    rw [mem_blk5]
    obtain ⟨-, -, -, -, -, -, -, -, -, -, e0, e1⟩ := idx_facts ⟨9, by rw [hN]; omega⟩
    intro a
    match a with
    | ⟨0, _⟩ =>
      show win2_5.index _ (0 : Fin 2) * 1 ≤ (i 0).val ∧ (i 0).val < win2_5.index _ (0 : Fin 2) * 1 + 1
      rw [e0]; omega
    | ⟨1, _⟩ =>
      show win2_5.index _ (1 : Fin 2) * 128 ≤ (i 1).val ∧ (i 1).val < win2_5.index _ (1 : Fin 2) * 128 + 128
      rw [e1]; omega

/-- THE ROW OF COLUMN SUMS OF h * h, entry by entry. -/
theorem sumsq_apply (q : Fin 128) :
    ((dat2 V c).arrAt 5 cfg2.N : S1x128.Idx → Elt Ideal .f32) (ix2 (0 : Fin 1) q)
      = Ideal.ofBits .f32 0x00000000#32 + ∑ r : Fin 100000, hval V c r q * hval V c r q := by
  rw [final5]
  rfl

end Cert.KernelIdeal.Linear2

end
-- ==== Proof.BnRelu3.lean ====
/-
  Batch normalization followed by rectification, launch two of two, at extended-real values. The launch
  runs over ten row tiles of 10000 rows of a 100000 x 128 array; the mean, variance, scale and shift are 1 x 128
  rows, the same at every tile. Written here: the body's result at a row and lane of a tile (`pay_apply`), each
  input block as the rows of its array (`tile_apply`, `row1_apply` … `row4_apply`), what each tile writes back
  (`flushed_eq`), the tiles cover the array (`cover`), and so the result array, entry by entry (`final`,
  `out_apply`, `out_apply_of`):
    out r q = max ((x r q - mean q) * rsqrt (var q + eps) * gamma q + beta q) 0.
-/
import proofs.«176481_j81363860455527_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BnRelu3

open Cert.KernelIdeal Cert.KernelIdeal.Gen

/-- The body's result at row p, lane q of a tile. -/
theorem pay_apply (x0 : Vec Ideal S10000x128 .f32) (x1 x2 x3 x4 : Vec Ideal S1x128 .f32) (p : Fin 10000) (q : Fin 128) :
    k3_pay1 (F := Ideal) x0 x2 x1 x3 x4 (ix2 p q)
      = max ((x0 (ix2 p q) - x1 (ix2 0 q)) * Ideal.rsqrt (x2 (ix2 0 q) + Ideal.ofBits .f32 0x3727C5AC#32) * x3 (ix2 0 q) + x4 (ix2 0 q))
          (Ideal.ofBits .f32 0x00000000#32) := by
  unfold k3_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- Batch normalization followed by rectification, index by index. -/
def bnRelu (H : S100000x128.Idx → Elt Ideal .f32) (Mu Va Ga Be : S1x128.Idx → Elt Ideal .f32) : S100000x128.Idx → Elt Ideal .f32 :=
  fun i => max ((H i - Mu (ix2 (0 : Fin 1) (i 1 : Fin 128))) * Ideal.rsqrt (Va (ix2 (0 : Fin 1) (i 1 : Fin 128)) + Ideal.ofBits .f32 0x3727C5AC#32)
      * Ga (ix2 (0 : Fin 1) (i 1 : Fin 128)) + Be (ix2 (0 : Fin 1) (i 1 : Fin 128))) (Ideal.ofBits .f32 0x00000000#32)

/-- The index maps over the grid: the tile windows sit at row block t, the row windows at block 0. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem t_lt (t : Fin cfg3.N) : t.val < 10 := lt_of_lt_of_eq t.isLt N_3

/-- The input tile at point t is rows 10000 t … 10000 t + 9999 of the activations. -/
theorem tile_apply (c : Dev nD) (t : Fin cfg3.N) (p : Fin 10000) (q : Fin 128) (h : t.val * 10000 + p.val < 100000) :
    (iblk3 V c 0 t : Vec Ideal S10000x128 .f32) (ix2 p q)
      = (V c (Pipeline.arrRef spec3 0) : S100000x128.Idx → Elt Ideal .f32) (ix2 (⟨t.val * 10000 + p.val, h⟩ : Fin 100000) q) := by
  obtain ⟨e0, e1, -⟩ := idx_facts t
  unfold iblk3
  rw [View.read_apply]
  refine congrArg (V c (Pipeline.arrRef spec3 0) : S100000x128.Idx → Elt Ideal .f32) ?_
  funext a; apply Fin.ext
  match a with
  | ⟨0, _⟩ => show win3_0.index t (0 : Fin 2) * 10000 + 1 * p.val = t.val * 10000 + p.val; omega
  | ⟨1, _⟩ => show win3_0.index t (1 : Fin 2) * 128 + 1 * q.val = q.val; omega

/-- The row windows' blocks are the whole rows at every point. -/
theorem row1_apply (c : Dev nD) (t : Fin cfg3.N) (q : Fin 128) :
    (iblk3 V c 1 t : Vec Ideal S1x128 .f32) (ix2 (0 : Fin 1) q) = (V c (Pipeline.arrRef spec3 1) : S1x128.Idx → Elt Ideal .f32) (ix2 (0 : Fin 1) q) := by
  obtain ⟨-, -, -, -, e0, e1, -⟩ := idx_facts t
  unfold iblk3
  rw [View.read_apply]
  refine congrArg (V c (Pipeline.arrRef spec3 1) : S1x128.Idx → Elt Ideal .f32) ?_
  funext a; apply Fin.ext
  match a with
  | ⟨0, _⟩ => show win3_1.index t (0 : Fin 2) * 1 + 1 * (0 : Fin 1).val = (0 : Fin 1).val; omega
  | ⟨1, _⟩ => show win3_1.index t (1 : Fin 2) * 128 + 1 * q.val = q.val; omega
theorem row2_apply (c : Dev nD) (t : Fin cfg3.N) (q : Fin 128) :
    (iblk3 V c 2 t : Vec Ideal S1x128 .f32) (ix2 (0 : Fin 1) q) = (V c (Pipeline.arrRef spec3 2) : S1x128.Idx → Elt Ideal .f32) (ix2 (0 : Fin 1) q) := by
  obtain ⟨-, -, -, -, -, -, e0, e1, -⟩ := idx_facts t
  unfold iblk3
  rw [View.read_apply]
  refine congrArg (V c (Pipeline.arrRef spec3 2) : S1x128.Idx → Elt Ideal .f32) ?_
  funext a; apply Fin.ext
  match a with
  | ⟨0, _⟩ => show win3_2.index t (0 : Fin 2) * 1 + 1 * (0 : Fin 1).val = (0 : Fin 1).val; omega
  | ⟨1, _⟩ => show win3_2.index t (1 : Fin 2) * 128 + 1 * q.val = q.val; omega
theorem row3_apply (c : Dev nD) (t : Fin cfg3.N) (q : Fin 128) :
    (iblk3 V c 3 t : Vec Ideal S1x128 .f32) (ix2 (0 : Fin 1) q) = (V c (Pipeline.arrRef spec3 3) : S1x128.Idx → Elt Ideal .f32) (ix2 (0 : Fin 1) q) := by
  obtain ⟨-, -, -, -, -, -, -, -, e0, e1, -⟩ := idx_facts t
  unfold iblk3
  rw [View.read_apply]
  refine congrArg (V c (Pipeline.arrRef spec3 3) : S1x128.Idx → Elt Ideal .f32) ?_
  funext a; apply Fin.ext
  match a with
  | ⟨0, _⟩ => show win3_3.index t (0 : Fin 2) * 1 + 1 * (0 : Fin 1).val = (0 : Fin 1).val; omega
  | ⟨1, _⟩ => show win3_3.index t (1 : Fin 2) * 128 + 1 * q.val = q.val; omega
theorem row4_apply (c : Dev nD) (t : Fin cfg3.N) (q : Fin 128) :
    (iblk3 V c 4 t : Vec Ideal S1x128 .f32) (ix2 (0 : Fin 1) q) = (V c (Pipeline.arrRef spec3 4) : S1x128.Idx → Elt Ideal .f32) (ix2 (0 : Fin 1) q) := by
  obtain ⟨-, -, -, -, -, -, -, -, -, -, e0, e1⟩ := idx_facts t
  unfold iblk3
  rw [View.read_apply]
  refine congrArg (V c (Pipeline.arrRef spec3 4) : S1x128.Idx → Elt Ideal .f32) ?_
  funext a; apply Fin.ext
  match a with
  | ⟨0, _⟩ => show win3_4.index t (0 : Fin 2) * 1 + 1 * (0 : Fin 1).val = (0 : Fin 1).val; omega
  | ⟨1, _⟩ => show win3_4.index t (1 : Fin 2) * 128 + 1 * q.val = q.val; omega

/-- Point t's output block sits at rows 10000 t … 10000 t + 9999 of the result array. -/
theorem read_out (G : S100000x128.Idx → Elt Ideal .f32) (t : Fin cfg3.N) (p : Fin 10000) (q : Fin 128) (h : t.val * 10000 + p.val < 100000) :
    ((cfg3.win 5).blk t).view.read (Elt Ideal) G (ix2 p q : S10000x128.Idx) = G (ix2 (⟨t.val * 10000 + p.val, h⟩ : Fin 100000) q) := by
  obtain ⟨-, -, e0, e1, -⟩ := idx_facts t
  rw [View.read_apply]
  refine congrArg G ?_
  funext a; apply Fin.ext
  match a with
  | ⟨0, _⟩ => show win3_5.index t (0 : Fin 2) * 10000 + 1 * p.val = t.val * 10000 + p.val; omega
  | ⟨1, _⟩ => show win3_5.index t (1 : Fin 2) * 128 + 1 * q.val = q.val; omega

/-- The entry formula respects equality of its five arguments. -/
theorem bn_congr {a a' b b' v v' g g' s s' : EReal} (ha : a = a') (hb : b = b') (hv : v = v') (hg : g = g') (hs : s = s') :
    max ((a - b) * Ideal.rsqrt (v + Ideal.ofBits .f32 0x3727C5AC#32) * g + s) (Ideal.ofBits .f32 0x00000000#32)
      = max ((a' - b') * Ideal.rsqrt (v' + Ideal.ofBits .f32 0x3727C5AC#32) * g' + s') (Ideal.ofBits .f32 0x00000000#32) := by
  subst ha hb hv hg hs; rfl

/-- What point t writes back is the body's result of the input blocks at t. -/
theorem flushed_pay (c : Dev nD) (t : Fin cfg3.N) :
    (dat3 V c).flushed 5 t = k3_pay1 (F := Ideal) (iblk3 V c 0 t) (iblk3 V c 2 t) (iblk3 V c 1 t) (iblk3 V c 3 t) (iblk3 V c 4 t) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  rfl

/-- What point t writes back is block t of the normalized, rectified activations. -/
theorem flushed_eq (c : Dev nD) (t : Fin cfg3.N) :
    (dat3 V c).flushed 5 t = ((cfg3.win 5).blk t).view.read (Elt Ideal)
      (bnRelu (V c (Pipeline.arrRef spec3 0)) (V c (Pipeline.arrRef spec3 1)) (V c (Pipeline.arrRef spec3 2)) (V c (Pipeline.arrRef spec3 3)) (V c (Pipeline.arrRef spec3 4))) := by
  rw [flushed_pay]
  funext j
  obtain ⟨p, q, rfl⟩ : ∃ (p : Fin 10000) (q : Fin 128), j = ix2 p q := ⟨j 0, j 1, eq_ix2 j⟩
  have h : t.val * 10000 + p.val < 100000 := by have := t_lt t; have := p.isLt; omega
  refine (pay_apply (iblk3 V c 0 t) (iblk3 V c 1 t) (iblk3 V c 2 t) (iblk3 V c 3 t) (iblk3 V c 4 t) p q).trans ?_
  refine Eq.trans ?_ (read_out _ t p q h).symm
  exact bn_congr (tile_apply V c t p q h) (row1_apply V c t q) (row2_apply V c t q) (row3_apply V c t q) (row4_apply V c t q)

/-- An index of the result array is in point t's block iff each coordinate is in the block's range on its axis. -/
theorem mem_blk (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v62).slice (win3_5.rect t)).set ↔ _
  rw [View.set_slice_whole, Rect.mem_set_unit]
  exact Iff.rfl

/-- Every row of the result array is in the block of the point its row block names: row r in point r / 10000. -/
theorem cover (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 10 := N_3
  let t : Fin cfg3.N := ⟨(i 0).val / 10000, by rw [hN]; omega⟩
  obtain ⟨-, -, e0, e1, -⟩ := idx_facts t
  have ht : t.val = (i 0).val / 10000 := rfl
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 128 ≤ (i 1).val ∧ (i 1).val < win3_5.index t (1 : Fin 2) * 128 + 128; omega

/-- The result array after the launch is the normalized, rectified activations. -/
theorem final (c : Dev nD) : (dat3 V c).arrAt 5 cfg3.N
    = bnRelu (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed_eq V c t) cover

/-- The launch's operands as the region finds them: activations, mean, variance, scale, shift. -/
abbrev opX (c : Dev nD) : S100000x128.Idx → EReal := V c (Pipeline.arrRef spec3 0)
abbrev opMean (c : Dev nD) : S1x128.Idx → EReal := V c (Pipeline.arrRef spec3 1)
abbrev opVar (c : Dev nD) : S1x128.Idx → EReal := V c (Pipeline.arrRef spec3 2)
abbrev opGamma (c : Dev nD) : S1x128.Idx → EReal := V c (Pipeline.arrRef spec3 3)
abbrev opBeta (c : Dev nD) : S1x128.Idx → EReal := V c (Pipeline.arrRef spec3 4)

/-- The result array at row r, lane q: max ((x - mean) * rsqrt (var + eps) * gamma + beta, 0). -/
theorem out_apply (c : Dev nD) (r : Fin 100000) (q : Fin 128) :
    (dat3 V c).arrAt 5 cfg3.N (ix2 r q)
      = max ((opX V c (ix2 r q) - opMean V c (ix2 0 q)) * Ideal.rsqrt (opVar V c (ix2 0 q) + Ideal.ofBits .f32 0x3727C5AC#32)
            * opGamma V c (ix2 0 q) + opBeta V c (ix2 0 q))
          (Ideal.ofBits .f32 0x00000000#32) :=
  congrFun (final V c) (ix2 r q)

/-- The same with the operands named by the caller. -/
theorem out_apply_of (c : Dev nD) (H : S100000x128.Idx → EReal) (Mu Va Ga Be : S1x128.Idx → EReal)
    (hH : (V c (Pipeline.arrRef spec3 0) : S100000x128.Idx → EReal) = H) (hMu : (V c (Pipeline.arrRef spec3 1) : S1x128.Idx → EReal) = Mu)
    (hVa : (V c (Pipeline.arrRef spec3 2) : S1x128.Idx → EReal) = Va) (hGa : (V c (Pipeline.arrRef spec3 3) : S1x128.Idx → EReal) = Ga)
    (hBe : (V c (Pipeline.arrRef spec3 4) : S1x128.Idx → EReal) = Be) (r : Fin 100000) (q : Fin 128) :
    (dat3 V c).arrAt 5 cfg3.N (ix2 r q)
      = max ((H (ix2 r q) - Mu (ix2 0 q)) * Ideal.rsqrt (Va (ix2 0 q) + Ideal.ofBits .f32 0x3727C5AC#32) * Ga (ix2 0 q) + Be (ix2 0 q))
          (Ideal.ofBits .f32 0x00000000#32) := by
  subst hH hMu hVa hGa hBe
  exact out_apply V c r q

end Cert.KernelIdeal.BnRelu3

end
-- ==== Proof.RefStages2.lean ====
/-
  The reference program's second graph-convolution layer read at explicit coordinates: the aggregated
  neighbour sum divided by (degree plus a small constant); the linear map; the column mean and the
  column mean of squared deviations over the hundred thousand rows; and the normalised, scaled, shifted
  and rectified entry.
-/
import proofs.«176481_j81363860455527_1_alg».proof.Proof.Gen.ReferenceIdeal.Read
import Idealize.ShloMosaic.Lib.ValueIdx
import Idealize.ShloMosaic.PureOps.Ideal.Laws

noncomputable section

namespace Cert.RefStages

open Cert.ReferenceIdeal Cert.ReferenceIdeal.Read Idealize.ShloMosaic Idealize.ShloMosaic.ValueIdx

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S64x128, .f32⟩ : BufTy).Contents (Elt Ideal))
  (x11 : (⟨S64, .f32⟩ : BufTy).Contents (Elt Ideal))

/-! ## Layer 2 -/

/-- Layer 2: the degree broadcast along the features reads the degree of the row. -/
theorem idx_l2_deg (r : Fin 100000) (k : Fin 128) : idx_main_v58 (idx_main_v71 (ix2 r k)) = ix1 r :=
  funext fun a => Fin.ext (by match a with | ⟨0, _⟩ => rfl)

/-- Layer 2, normalisation: the aggregated sum divided by the degree plus the small constant. -/
theorem l2_norm (r : Fin 100000) (k : Fin 128) :
    val_main_v72 (F := Ideal) x0 x1 x2 x3 x4 x5 (ix2 r k)
      = Ideal.div (val_main_v70 (F := Ideal) x0 x1 x2 x3 x4 x5 (ix2 r k))
          (val_main_v57 (F := Ideal) x1 (ix1 r) + Ideal.ofBits .f32 0x358637BD#32) := by
  rw [val_main_v72_apply, val_main_v71_apply, val_main_v60_apply, val_main_v58_apply, val_main_v59_apply,
    val_main_cst_11_apply]
  simp only [idx_l2_deg, Ideal.hostDivf_def, Ideal.addf_def, Ideal.ofBits_def]

/-- Layer 2: the left operand of the product at row `r`, feature `k`. -/
theorem lidx_l2 (r : Fin 100000) (q : Fin 128) (k : Fin 128) : lidx_main_v74 (ix2 r q) k = ix2 r k :=
  funext fun a => Fin.ext (by match a with | ⟨0, _⟩ => rfl | ⟨1, _⟩ => rfl)

/-- Layer 2: the right operand of the product is the transposed weight, entry `(q, k)`. -/
theorem ridx_l2 (r : Fin 100000) (q : Fin 128) (k : Fin 128) :
    idx_main_v73 (ridx_main_v74 (ix2 r q) k) = ix2 q k :=
  funext fun a => Fin.ext (by match a with | ⟨0, _⟩ => rfl | ⟨1, _⟩ => rfl)

/-- Layer 2: the offset broadcast along the rows reads the offset of the column. -/
theorem idx_l2_bias (r : Fin 100000) (q : Fin 128) : idx_main_v75 (idx_main_v76 (ix2 r q)) = ix1 q :=
  funext fun a => Fin.ext (by match a with | ⟨0, _⟩ => rfl)

/-- Layer 2, linear map: the sum over the features of normalised entry times weight, plus the
    offset. -/
theorem l2_lin (r : Fin 100000) (q : Fin 128) :
    val_main_v77 (F := Ideal) x0 x1 x2 x3 x4 x5 x6 x7 (ix2 r q)
      = (∑ k : Fin 128, val_main_v72 (F := Ideal) x0 x1 x2 x3 x4 x5 (ix2 r k) * x6 (ix2 q k)) + x7 (ix1 q) := by
  rw [val_main_v77_apply, val_main_v74_apply, val_main_v76_apply, val_main_v75_apply]
  simp only [val_main_v73_apply, lidx_l2, ridx_l2, idx_l2_bias, Ideal.addf_def]

/-- Layer 2: the column sum reads row `k` of column `q`. -/
theorem idx_l2_sum (q : Fin 128) (k : Fin 100000) : idx_main_v78 (ix1 q) k = ix2 k q :=
  funext fun a => Fin.ext (by match a with | ⟨0, _⟩ => rfl | ⟨1, _⟩ => rfl)

/-- Layer 2, column mean: the initial value plus the column sum, divided by the count. -/
theorem l2_mean (q : Fin 128) :
    val_main_v80 (F := Ideal) x0 x1 x2 x3 x4 x5 x6 x7 (ix1 q)
      = Ideal.div (Ideal.ofBits .f32 0x00000000#32
          + ∑ r : Fin 100000, val_main_v77 (F := Ideal) x0 x1 x2 x3 x4 x5 x6 x7 (ix2 r q))
          (Ideal.ofBits .f32 0x47C35000#32) := by
  rw [val_main_v80_apply, val_main_v78_apply, val_main_v79_apply, val_main_cst_15_apply,
    val_main_cst_16_apply]
  simp only [idx_l2_sum, Ideal.hostDivf_def, Ideal.ofBits_def]

/-- Layer 2: the column sum of squared deviations reads row `k` of column `q`. -/
theorem idx_l2_sqsum (q : Fin 128) (k : Fin 100000) : idx_main_v85 (ix1 q) k = ix2 k q :=
  funext fun a => Fin.ext (by match a with | ⟨0, _⟩ => rfl | ⟨1, _⟩ => rfl)

/-- Layer 2: the mean broadcast along the rows (for the squared deviations) reads the mean of the
    column. -/
theorem idx_l2_mean_a (r : Fin 100000) (q : Fin 128) : idx_main_v81 (idx_main_v82 (ix2 r q)) = ix1 q :=
  funext fun a => Fin.ext (by match a with | ⟨0, _⟩ => rfl)

/-- Layer 2, squared deviation: the entry minus the column mean, squared. -/
theorem l2_sq (r : Fin 100000) (q : Fin 128) :
    val_main_v84 (F := Ideal) x0 x1 x2 x3 x4 x5 x6 x7 (ix2 r q)
      = (val_main_v77 (F := Ideal) x0 x1 x2 x3 x4 x5 x6 x7 (ix2 r q) - val_main_v80 (F := Ideal) x0 x1 x2 x3 x4 x5 x6 x7 (ix1 q))
        * (val_main_v77 (F := Ideal) x0 x1 x2 x3 x4 x5 x6 x7 (ix2 r q) - val_main_v80 (F := Ideal) x0 x1 x2 x3 x4 x5 x6 x7 (ix1 q)) := by
  rw [val_main_v84_apply, val_main_v83_apply, val_main_v82_apply, val_main_v81_apply, idx_l2_mean_a]
  simp only [Ideal.mulf_def, Ideal.subf_def]

/-- Layer 2, column variance: the initial value plus the column sum of squared deviations from the
    column mean, divided by the count. -/
theorem l2_var (q : Fin 128) :
    val_main_v87 (F := Ideal) x0 x1 x2 x3 x4 x5 x6 x7 (ix1 q)
      = Ideal.div (Ideal.ofBits .f32 0x00000000#32
          + ∑ r : Fin 100000,
              (val_main_v77 (F := Ideal) x0 x1 x2 x3 x4 x5 x6 x7 (ix2 r q) - val_main_v80 (F := Ideal) x0 x1 x2 x3 x4 x5 x6 x7 (ix1 q))
              * (val_main_v77 (F := Ideal) x0 x1 x2 x3 x4 x5 x6 x7 (ix2 r q) - val_main_v80 (F := Ideal) x0 x1 x2 x3 x4 x5 x6 x7 (ix1 q)))
          (Ideal.ofBits .f32 0x47C35000#32) := by
  rw [val_main_v87_apply, val_main_v85_apply, val_main_v86_apply, val_main_cst_17_apply,
    val_main_cst_18_apply]
  simp only [idx_l2_sqsum, l2_sq, Ideal.hostDivf_def, Ideal.ofBits_def]

/-- Layer 2: the mean broadcast along the rows (for the output) reads the mean of the column. -/
theorem idx_l2_mean_b (r : Fin 100000) (q : Fin 128) : idx_main_v88 (idx_main_v89 (ix2 r q)) = ix1 q :=
  funext fun a => Fin.ext (by match a with | ⟨0, _⟩ => rfl)

/-- Layer 2: the reciprocal standard deviation broadcast along the rows reads that of the column. -/
theorem idx_l2_rstd (r : Fin 100000) (q : Fin 128) : idx_main_v94 (idx_main_v95 (ix2 r q)) = ix1 q :=
  funext fun a => Fin.ext (by match a with | ⟨0, _⟩ => rfl)

/-- Layer 2: the scale broadcast along the rows reads the scale of the column. -/
theorem idx_l2_scale (r : Fin 100000) (q : Fin 128) : idx_main_v97 (idx_main_v98 (ix2 r q)) = ix1 q :=
  funext fun a => Fin.ext (by match a with | ⟨0, _⟩ => rfl)

/-- Layer 2: the shift broadcast along the rows reads the shift of the column. -/
theorem idx_l2_shift (r : Fin 100000) (q : Fin 128) : idx_main_v100 (idx_main_v101 (ix2 r q)) = ix1 q :=
  funext fun a => Fin.ext (by match a with | ⟨0, _⟩ => rfl)

/-- Layer 2, output: the entry minus the column mean, times the reciprocal square root of the column
    variance plus the small constant, times the scale, plus the shift, rectified at the zero constant
    (the maximum of that value and the zero constant, in this order). -/
theorem l2_out (r : Fin 100000) (q : Fin 128) :
    val_main_v103 (F := Ideal) x0 x1 x2 x3 x4 x5 x6 x7 x8 x9 (ix2 r q)
      = max ((val_main_v77 (F := Ideal) x0 x1 x2 x3 x4 x5 x6 x7 (ix2 r q) - val_main_v80 (F := Ideal) x0 x1 x2 x3 x4 x5 x6 x7 (ix1 q))
            * Ideal.rsqrt (val_main_v87 (F := Ideal) x0 x1 x2 x3 x4 x5 x6 x7 (ix1 q) + Ideal.ofBits .f32 0x3727C5AC#32)
            * x8 (ix1 q) + x9 (ix1 q))
          (Ideal.ofBits .f32 0x00000000#32) := by
  rw [val_main_v103_apply, val_main_v102_apply, val_main_v99_apply, val_main_v96_apply, val_main_v90_apply,
    val_main_v89_apply, val_main_v88_apply, val_main_v95_apply, val_main_v94_apply, val_main_v93_apply,
    val_main_v92_apply, val_main_v91_apply, val_main_cst_19_apply, val_main_v98_apply, val_main_v97_apply,
    val_main_v101_apply, val_main_v100_apply, val_main_call1_v0_apply, val_main_call1_cst_apply]
  simp only [idx_l2_mean_b, idx_l2_rstd, idx_l2_scale, idx_l2_shift, Ideal.maximumf_def,
    Ideal.addf_def, Ideal.mulf_def, Ideal.subf_def, Ideal.hostUnary_rsqrt_def, Ideal.ofBits_def]

end Cert.RefStages

end
-- ==== Proof.Bridge2.lean ====
/-
  Layer 2 of the network, the kernel program against the reference, array by array, given that layer 1's output
  arrays agree: the neighbourhood sum is taken of equal arrays, and the rest repeats layer 1 at width 128.
-/
import proofs.«176481_j81363860455527_1_alg».proof.Proof.Bridge1b
import proofs.«176481_j81363860455527_1_alg».proof.Proof.Linear2Stats
import proofs.«176481_j81363860455527_1_alg».proof.Proof.BnRelu3
import proofs.«176481_j81363860455527_1_alg».proof.Proof.RefStages2

set_option maxRecDepth 16384
set_option maxHeartbeats 1000000
noncomputable section
namespace Cert.Bridge
open Cert.KernelIdeal Cert.KernelIdeal.Gen Cert.KernelIdeal.Boundary Idealize.ShloMosaic Idealize.ShloMosaic.TcCoe Idealize.ShloMosaic.ValueIdx
open Cert.ReferenceIdeal.Read Cert.RealValued

variable (m : (ℓ : Loc nD τ sig) → Buf (Elt Ideal) ℓ) (ρ : Dev nD → PrngReg) (c : Dev nD)

/-! ## The normalised neighbourhood sum -/

theorem norm2_read (H1 : ∀ r q, IsReal (hh1 m c r q)) (r : Fin 100000) (k : Fin 128) :
    (W5 m ρ c (Proc.devRef .tc main_v49) : FVec Ideal S100000x128 .f32) (ix2 r k)
      = val_main_v70 (F := Ideal) (a0 m c) (a1 m c) (a2 m c) (a3 m c) (a4 m c) (a5 m c) (ix2 r k) * Ideal.div (Ideal.ofBits .f32 0x3F800000#32) (val_main_v7 (F := Ideal) (a1 m c) (ix1 r) + Ideal.ofBits .f32 0x358637BD#32) := by
  rw [w5_v49, out1_arr m ρ c H1]
  have hagg : agg128 (val_main_v53 (F := Ideal) (a0 m c) (a1 m c) (a2 m c) (a3 m c) (a4 m c) (a5 m c)) (a1 m c) = val_main_v70 (F := Ideal) (a0 m c) (a1 m c) (a2 m c) (a3 m c) (a4 m c) (a5 m c) := rfl
  rw [hagg]
  generalize val_main_v70 (F := Ideal) (a0 m c) (a1 m c) (a2 m c) (a3 m c) (a4 m c) (a5 m c) = A
  rw [mulf_apply, bcast128_apply, dinv_apply]

theorem norm2 (H1 : ∀ r q, IsReal (hh1 m c r q)) (r : Fin 100000) (k : Fin 128) :
    (W5 m ρ c (Proc.devRef .tc main_v49) : FVec Ideal S100000x128 .f32) (ix2 r k) = val_main_v72 (F := Ideal) (a0 m c) (a1 m c) (a2 m c) (a3 m c) (a4 m c) (a5 m c) (ix2 r k) := by
  obtain ⟨d, hd, he⟩ := Cert.RefReal.deg_pos (a1 m c) r
  rw [norm2_read m ρ c H1 r k, Cert.RefStages.l2_norm (a0 m c) (a1 m c) (a2 m c) (a3 m c) (a4 m c) (a5 m c) r k, Cert.RefReal.deg_eq57 (a1 m c), he]
  generalize val_main_v70 (F := Ideal) (a0 m c) (a1 m c) (a2 m c) (a3 m c) (a4 m c) (a5 m c) (ix2 r k) = A
  exact Cert.Layer.norm_eq A _ _ Cert.Consts.ofBits_one hd.ne' rfl

/-! ## The linear map -/

theorem wt2_apply (k : Fin 128) (q : Fin 128) :
    (W5 m ρ c (Proc.devRef .tc main_v51) : FVec Ideal S128x128 .bf16) (ix2 k q) = a6 m c (ix2 q k) := by
  rw [w5_v51, truncf_apply]
  unfold val_main_v73
  exact transpose_ix2_apply _ _ k q

theorem b2_apply (q : Fin 128) :
    (W5 m ρ c (Proc.devRef .tc main_v52) : FVec Ideal S1x128 .f32) (ix2 (0 : Fin 1) q) = a7 m c (ix1 q) := by
  rw [w5_v52]
  exact shapeCast_a_1a_apply _ _ 0 q

theorem hval2 (H1 : ∀ r q, IsReal (hh1 m c r q)) (r : Fin 100000) (q : Fin 128) :
    Linear2.hval (V5 m ρ) c r q = val_main_v77 (F := Ideal) (a0 m c) (a1 m c) (a2 m c) (a3 m c) (a4 m c) (a5 m c) (a6 m c) (a7 m c) (ix2 r q) := by
  rw [Cert.RefStages.l2_lin (a0 m c) (a1 m c) (a2 m c) (a3 m c) (a4 m c) (a5 m c) (a6 m c) (a7 m c) r q]
  unfold Linear2.hval
  refine congrArg₂ (· + ·) (Finset.sum_congr rfl fun k _ => ?_) ?_
  · exact congrArg₂ (· * ·) (norm2 m ρ c H1 r k) (wt2_apply m ρ c k q)
  · exact b2_apply m ρ c q

theorem h2 (H1 : ∀ r q, IsReal (hh1 m c r q)) (r : Fin 100000) (q : Fin 128) :
    (W6 m ρ c (Proc.devRef .tc main_v53_0) : FVec Ideal S100000x128 .f32) (ix2 r q) = val_main_v77 (F := Ideal) (a0 m c) (a1 m c) (a2 m c) (a3 m c) (a4 m c) (a5 m c) (a6 m c) (a7 m c) (ix2 r q) := by
  rw [w6_h]
  exact (Linear2.h_apply (V5 m ρ) c r q).trans (hval2 m ρ c H1 r q)

theorem h2_arr (H1 : ∀ r q, IsReal (hh1 m c r q)) : (W7 m ρ c (Proc.devRef .tc main_v53_0) : FVec Ideal S100000x128 .f32) = val_main_v77 (F := Ideal) (a0 m c) (a1 m c) (a2 m c) (a3 m c) (a4 m c) (a5 m c) (a6 m c) (a7 m c) := by
  rw [w7_h, ← w6_h]
  funext i
  rw [eq_ix2 i]
  exact h2 m ρ c H1 (i 0) (i 1)

/-! ## The batch statistics -/

theorem sum2 (H1 : ∀ r q, IsReal (hh1 m c r q)) (q : Fin 128) :
    (W6 m ρ c (Proc.devRef .tc main_v53_1) : FVec Ideal S1x128 .f32) (ix2 (0 : Fin 1) q)
      = Ideal.ofBits .f32 0x00000000#32 + ∑ r : Fin 100000, val_main_v77 (F := Ideal) (a0 m c) (a1 m c) (a2 m c) (a3 m c) (a4 m c) (a5 m c) (a6 m c) (a7 m c) (ix2 r q) := by
  rw [w6_sum]
  refine (Linear2.sum_apply (V5 m ρ) c q).trans ?_
  exact congrArg (_ + ·) (Finset.sum_congr rfl fun r _ => hval2 m ρ c H1 r q)

theorem sumsq2 (H1 : ∀ r q, IsReal (hh1 m c r q)) (q : Fin 128) :
    (W6 m ρ c (Proc.devRef .tc main_v53_2) : FVec Ideal S1x128 .f32) (ix2 (0 : Fin 1) q)
      = Ideal.ofBits .f32 0x00000000#32 + ∑ r : Fin 100000, val_main_v77 (F := Ideal) (a0 m c) (a1 m c) (a2 m c) (a3 m c) (a4 m c) (a5 m c) (a6 m c) (a7 m c) (ix2 r q) * val_main_v77 (F := Ideal) (a0 m c) (a1 m c) (a2 m c) (a3 m c) (a4 m c) (a5 m c) (a6 m c) (a7 m c) (ix2 r q) := by
  rw [w6_sumsq]
  refine (Linear2.sumsq_apply (V5 m ρ) c q).trans ?_
  exact congrArg (_ + ·) (Finset.sum_congr rfl fun r _ => by rw [hval2 m ρ c H1 r q])

theorem mu2 (q : Fin 128) :
    (W7 m ρ c (Proc.devRef .tc main_v55) : FVec Ideal S1x128 .f32) (ix2 (0 : Fin 1) q)
      = Ideal.div ((W6 m ρ c (Proc.devRef .tc main_v53_1) : FVec Ideal S1x128 .f32) (ix2 (0 : Fin 1) q)) (Ideal.ofBits .f32 0x47C35000#32) := by
  rw [w7_mean]
  generalize (W6 m ρ c (Proc.devRef .tc main_v53_1) : FVec Ideal S1x128 .f32) = S
  rw [hostDivf_apply, bcast_const_apply]

theorem va2 (q : Fin 128) :
    (W7 m ρ c (Proc.devRef .tc main_v59) : FVec Ideal S1x128 .f32) (ix2 (0 : Fin 1) q)
      = Ideal.div ((W6 m ρ c (Proc.devRef .tc main_v53_2) : FVec Ideal S1x128 .f32) (ix2 (0 : Fin 1) q)) (Ideal.ofBits .f32 0x47C35000#32)
        - Ideal.div ((W6 m ρ c (Proc.devRef .tc main_v53_1) : FVec Ideal S1x128 .f32) (ix2 (0 : Fin 1) q)) (Ideal.ofBits .f32 0x47C35000#32)
          * Ideal.div ((W6 m ρ c (Proc.devRef .tc main_v53_1) : FVec Ideal S1x128 .f32) (ix2 (0 : Fin 1) q)) (Ideal.ofBits .f32 0x47C35000#32) := by
  rw [w7_var, w7_mean]
  generalize (W6 m ρ c (Proc.devRef .tc main_v53_2) : FVec Ideal S1x128 .f32) = Q
  generalize (W6 m ρ c (Proc.devRef .tc main_v53_1) : FVec Ideal S1x128 .f32) = S
  rw [subf_apply, mulf_apply, hostDivf_apply, hostDivf_apply, bcast_const_apply]

theorem ga2 (q : Fin 128) :
    (W7 m ρ c (Proc.devRef .tc main_v60) : FVec Ideal S1x128 .f32) (ix2 (0 : Fin 1) q) = a8 m c (ix1 q) := by
  rw [w7_gamma]
  exact shapeCast_a_1a_apply _ _ 0 q

theorem be2 (q : Fin 128) :
    (W7 m ρ c (Proc.devRef .tc main_v61) : FVec Ideal S1x128 .f32) (ix2 (0 : Fin 1) q) = a9 m c (ix1 q) := by
  rw [w7_beta]
  exact shapeCast_a_1a_apply _ _ 0 q

/-- Layer 1's pre-activation as a function of row and column. -/
abbrev hh2 : Fin 100000 → Fin 128 → EReal := fun r q => val_main_v77 (F := Ideal) (a0 m c) (a1 m c) (a2 m c) (a3 m c) (a4 m c) (a5 m c) (a6 m c) (a7 m c) (ix2 r q)

theorem mean2_ref (q : Fin 128) :
    val_main_v80 (F := Ideal) (a0 m c) (a1 m c) (a2 m c) (a3 m c) (a4 m c) (a5 m c) (a6 m c) (a7 m c) (ix1 q) = Cert.Layer.meanR (hh2 m c) (Ideal.ofBits .f32 0x47C35000#32) (Ideal.ofBits .f32 0x00000000#32) q :=
  (Cert.RefStages.l2_mean (a0 m c) (a1 m c) (a2 m c) (a3 m c) (a4 m c) (a5 m c) (a6 m c) (a7 m c) q).trans (Cert.Layer.meanR_def (hh2 m c) _ _ q).symm

theorem var2_ref (q : Fin 128) :
    val_main_v87 (F := Ideal) (a0 m c) (a1 m c) (a2 m c) (a3 m c) (a4 m c) (a5 m c) (a6 m c) (a7 m c) (ix1 q) = Cert.Layer.varR (hh2 m c) (Ideal.ofBits .f32 0x47C35000#32) (Ideal.ofBits .f32 0x00000000#32) q := by
  rw [Cert.RefStages.l2_var (a0 m c) (a1 m c) (a2 m c) (a3 m c) (a4 m c) (a5 m c) (a6 m c) (a7 m c) q, mean2_ref m c q]
  exact (Cert.Layer.varR_def (hh2 m c) _ _ q).symm

theorem out2 (H1 : ∀ r q, IsReal (hh1 m c r q)) (hh : ∀ r q, IsReal (hh2 m c r q)) (r : Fin 100000) (q : Fin 128) :
    (W8 m ρ c (Proc.devRef .tc main_v62) : FVec Ideal S100000x128 .f32) (ix2 r q) = val_main_v103 (F := Ideal) (a0 m c) (a1 m c) (a2 m c) (a3 m c) (a4 m c) (a5 m c) (a6 m c) (a7 m c) (a8 m c) (a9 m c) (ix2 r q) := by
  rw [w8_out]
  refine (BnRelu3.out_apply_of (V7 m ρ) c (val_main_v77 (F := Ideal) (a0 m c) (a1 m c) (a2 m c) (a3 m c) (a4 m c) (a5 m c) (a6 m c) (a7 m c))
    (W7 m ρ c (Proc.devRef .tc main_v55)) (W7 m ρ c (Proc.devRef .tc main_v59)) (W7 m ρ c (Proc.devRef .tc main_v60)) (W7 m ρ c (Proc.devRef .tc main_v61))
    (h2_arr m ρ c H1) rfl rfl rfl rfl r q).trans ?_
  rw [va2 m ρ c q, mu2 m ρ c q, ga2 m ρ c q, be2 m ρ c q, sum2 m ρ c H1 q, sumsq2 m ρ c H1 q]
  refine (Cert.Layer.out_eq (hh2 m c) hh (fun q => a8 m c (ix1 q)) (fun q => a9 m c (ix1 q)) (Ideal.ofBits .f32 0x47C35000#32) (Ideal.ofBits .f32 0x3727C5AC#32) (Ideal.ofBits .f32 0x00000000#32)
    Cert.Consts.ofBits_1e5 Cert.Consts.ofBits_zero
    (fun q => Ideal.ofBits .f32 0x00000000#32 + ∑ r : Fin 100000, hh2 m c r q) (fun q => Ideal.ofBits .f32 0x00000000#32 + ∑ r : Fin 100000, hh2 m c r q * hh2 m c r q)
    (fun _ => rfl) (fun _ => rfl) r q).trans ?_
  rw [Cert.RefStages.l2_out (a0 m c) (a1 m c) (a2 m c) (a3 m c) (a4 m c) (a5 m c) (a6 m c) (a7 m c) (a8 m c) (a9 m c) r q, mean2_ref m c q, var2_ref m c q]

theorem out2_arr (H1 : ∀ r q, IsReal (hh1 m c r q)) (hh : ∀ r q, IsReal (hh2 m c r q)) :
    (W8 m ρ c (Proc.devRef .tc main_v62) : FVec Ideal S100000x128 .f32) = val_main_v103 (F := Ideal) (a0 m c) (a1 m c) (a2 m c) (a3 m c) (a4 m c) (a5 m c) (a6 m c) (a7 m c) (a8 m c) (a9 m c) := by
  funext i
  rw [eq_ix2 i]
  exact out2 m ρ c H1 hh (i 0) (i 1)

end Cert.Bridge
end
-- ==== Proof.Linear4.lean ====
/-
  The linear layer with column statistics of region 4, read off its frame at the ideal values.

  The region runs over ten tiles of 10000 rows. At tile t the body forms h = x_t · W + b for the tile's rows (the
  left operand rounded to the narrower format, which is the identity at the ideal values; the product accumulated
  into zero), stores h, and adds the column sums of h and of h * h onto two running rows that the first tile resets
  to the zero word. With X the 100000×128 operand, W the 128×64 weights and b the 1×64 bias as the region
  finds them, and hval r q = (∑ k, X (r, k) * W (k, q)) + b (0, q):

    * the h result holds hval r q at (r, q);
    * the two statistics rows hold, at (0, q), the zero word plus the sum over all 100000 rows of hval r q, and of
      hval r q * hval r q (addition of extended reals is commutative and associative, so the tile order does not
      show).
-/
import proofs.«176481_j81363860455527_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«176481_j81363860455527_1_alg».proof.Proof.LibPlainDot

noncomputable section

open scoped BigOperators
open Idealize.ShloMosaic Idealize.ShloMosaic.TcCoe Idealize.SL.Sem
open Idealize.ShloMosaic.Pipeline (Dat)
open Idealize.ShloMosaic.ValueIdx

namespace Cert.KernelIdeal.Linear4

open Cert.KernelIdeal Cert.KernelIdeal.Gen

/-! ## The body's values at a tile, over any operand blocks -/

/-- The tile of h at (p, q): the row of x against the column of W, plus the bias. -/
theorem pay3_apply (x0 : Vec Ideal S10000x128 .f32) (x1 : Vec Ideal S128x64 .bf16) (x2 : Vec Ideal S1x64 .f32) (p : Fin 10000) (q : Fin 64) :
    k4_pay3 (F := Ideal) x0 x1 x2 (ix2 p q) = (∑ k : Fin 128, x0 (ix2 p k) * x1 (ix2 k q)) + x2 (ix2 (0 : Fin 1) q) := by
  unfold k4_pay3
  simp only [shapeCast_self]
  refine (addf_apply _ _ _).trans ?_
  refine congrArg₂ (· + ·) ?_ ?_
  · exact (PlainDot.matmul_zero_apply (M := 10000) (K := 128) (N := 64) none _ _ p q)
  · exact (broadcastTo_1b_ab_apply _ _ p q)

/-- The index a column sum reads at row p of column q. -/
theorem lift_eq (q : Fin 64) (p : Fin 10000) : reduces_S10000x64_S64.lift (ix1 q) p = ix2 p q := by
  funext a
  match a with
  | ⟨0, _⟩ => rfl
  | ⟨1, _⟩ => rfl

/-- The running sum row after a tile: what it held plus the tile's column sum of h. -/
theorem pay4_apply (x0 : Vec Ideal S10000x128 .f32) (x1 : Vec Ideal S128x64 .bf16) (x2 : Vec Ideal S1x64 .f32) (a : Vec Ideal S1x64 .f32) (q : Fin 64) :
    k4_pay4 (F := Ideal) x0 x1 x2 a (ix2 (0 : Fin 1) q)
      = a (ix2 (0 : Fin 1) q) + ∑ p : Fin 10000, k4_pay3 (F := Ideal) x0 x1 x2 (ix2 p q) := by
  unfold k4_pay4
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => congrArg _ (lift_eq q p)

/-- The running sum-of-squares row after a tile: what it held plus the tile's column sum of h * h. -/
theorem pay5_apply (x0 : Vec Ideal S10000x128 .f32) (x1 : Vec Ideal S128x64 .bf16) (x2 : Vec Ideal S1x64 .f32) (a : Vec Ideal S1x64 .f32) (q : Fin 64) :
    k4_pay5 (F := Ideal) x0 x1 x2 a (ix2 (0 : Fin 1) q)
      = a (ix2 (0 : Fin 1) q) + ∑ p : Fin 10000, k4_pay3 (F := Ideal) x0 x1 x2 (ix2 p q) * k4_pay3 (F := Ideal) x0 x1 x2 (ix2 p q) := by
  unfold k4_pay5
  simp only [shapeCast_self]
  refine (addf_apply _ _ _).trans ?_
  refine congrArg₂ (· + ·) rfl ?_
  refine (shapeCast_a_1a_apply _ _ (0 : Fin 1) q).trans ?_
  refine (Ideal.multiReduction_add_single _ _ _ _ _ _).trans ?_
  exact Finset.sum_congr rfl fun p _ => (congrArg _ (lift_eq q p)).trans (mulf_apply _ _ _)

/-! ## What each case of the body leaves in the three results' blocks -/

section Pieces
variable {F : FTy → Type} [FloatOps F]

theorem hz : (![0, 0] : Fin 2 → Nat) = fun _ => 0 := funext fun a => by fin_cases a <;> rfl

theorem out_A_3 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 : Vec F S10000x128 .f32) (x1 : Vec F S128x64 .bf16) (x2 : Vec F S1x64 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

theorem out_A_4 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 : Vec F S10000x128 .f32) (x1 : Vec F S128x64 .bf16) (x2 : Vec F S1x64 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

theorem out_A_5 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 : Vec F S10000x128 .f32) (x1 : Vec F S128x64 .bf16) (x2 : Vec F S1x64 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

theorem out_B_3 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 : Vec F S10000x128 .f32) (x1 : Vec F S128x64 .bf16) (x2 : Vec F S1x64 .f32) (xo4 xo5 : Vec F S1x64 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

theorem out_B_4 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 : Vec F S10000x128 .f32) (x1 : Vec F S128x64 .bf16) (x2 : Vec F S1x64 .f32) (xo4 xo5 : Vec F S1x64 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

theorem out_B_5 (c : Dev nD) (i : grid4.Coords) (a1 : Memref sig .tc .vmem S10000x128 .f32) (h1 : a1.IsWhole) (a2 : Memref sig .tc .vmem S128x64 .bf16) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 : Vec F S10000x128 .f32) (x1 : Vec F S128x64 .bf16) (x2 : Vec F S1x64 .f32) (xo4 xo5 : Vec F S1x64 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread,
    View.ld_unit_zero (S := S10000x128) hz, View.ld_unit_zero (S := S128x64) hz, View.ld_unit_zero (S := S1x64) hz]

end Pieces

/-! ## The operands as the region finds them, and the blocks the windows read -/

variable (V : (c : Dev nD) → (b : Ref sig .tc) → Buf (Elt Ideal) ((c : Thread nD τ).loc b)) (c : Dev nD)

/-- The 100000×128 left operand. -/
abbrev X : S100000x128.Idx → Elt Ideal .f32 := V c (Pipeline.arrRef spec4 0)
/-- The 128×64 weights. -/
abbrev Wt : S128x64.Idx → Elt Ideal .bf16 := V c (Pipeline.arrRef spec4 1)
/-- The 1×64 bias row. -/
abbrev B : S1x64.Idx → Elt Ideal .f32 := V c (Pipeline.arrRef spec4 2)

/-- The block index of every window at every tile: the row windows move with the tile, the others stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row p of the left operand's block at tile t is row 10000 t + p of the operand. -/
theorem iblk_0_apply (t : Fin cfg4.N) (p : Fin 10000) (k : Fin 128) (r : Fin 100000) (hr : r.val = 10000 * t.val + p.val) :
    (iblk4 V c 0 t : Vec Ideal S10000x128 .f32) (ix2 p k) = X V c (ix2 r k) := by
  obtain ⟨e0, e1, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t 0 * 10000 + 1 * p.val = r.val; rw [e0, hr]; omega
  | ⟨1, _⟩ => show win4_0.index t 1 * 128 + 1 * k.val = k.val; rw [e1]; omega

/-- The weights' block is the weights at every tile. -/
theorem iblk_1_apply (t : Fin cfg4.N) (k : Fin 128) (q : Fin 64) :
    (iblk4 V c 1 t : Vec Ideal S128x64 .bf16) (ix2 k q) = Wt V c (ix2 k q) := by
  obtain ⟨-, -, e0, e1, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t 0 * 128 + 1 * k.val = k.val; rw [e0]; omega
  | ⟨1, _⟩ => show win4_1.index t 1 * 64 + 1 * q.val = q.val; rw [e1]; omega

/-- The bias row's block is the bias row at every tile. -/
theorem iblk_2_apply (t : Fin cfg4.N) (u : Fin 1) (q : Fin 64) :
    (iblk4 V c 2 t : Vec Ideal S1x64 .f32) (ix2 u q) = B V c (ix2 u q) := by
  obtain ⟨-, -, -, -, e0, e1, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t 0 * 1 + 1 * u.val = u.val; rw [e0]; omega
  | ⟨1, _⟩ => show win4_2.index t 1 * 64 + 1 * q.val = q.val; rw [e1]; omega

/-! ## The h result -/

/-- The value of h at row r, column q. -/
def hval (r : Fin 100000) (q : Fin 64) : EReal :=
  (∑ k : Fin 128, X V c (ix2 r k) * Wt V c (ix2 k q)) + B V c (ix2 (0 : Fin 1) q)

/-- The tile of h the body forms at tile t, at (p, q), is h at row 10000 t + p. -/
theorem tile_apply (t : Fin cfg4.N) (p : Fin 10000) (q : Fin 64) (r : Fin 100000) (hr : r.val = 10000 * t.val + p.val) :
    k4_pay3 (F := Ideal) (iblk4 V c 0 t) (iblk4 V c 1 t) (iblk4 V c 2 t) (ix2 p q) = hval V c r q := by
  refine (pay3_apply (iblk4 V c 0 t) (iblk4 V c 1 t) (iblk4 V c 2 t) p q).trans ?_
  unfold hval
  exact congrArg₂ (· + ·) (Finset.sum_congr rfl fun k _ => congrArg₂ (· * ·) (iblk_0_apply V c t p k r hr) (iblk_1_apply V c t k q)) (iblk_2_apply V c t 0 q)

/-- After every tile the h block holds that tile of h, whichever case the tile is in. -/
theorem outs3_eq (t : Fin cfg4.N) : (outsAt4 V c t.val t.isLt).1 = k4_pay3 (F := Ideal) (iblk4 V c 0 t) (iblk4 V c 1 t) (iblk4 V c 2 t) := by
  by_cases h0 : t.val % 10 = 0
  · rw [outsAt4_A V c t h0]
    dsimp only
    exact out_A_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]
    dsimp only
    exact out_B_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- The whole h result. -/
def H : S100000x64.Idx → Elt Ideal .f32 := fun i => hval V c (i 0) (i 1)

/-- What tile t writes back is its block of H. -/
theorem flushed3_eq (t : Fin cfg4.N) : (dat4 V c).flushed 3 t = ((cfg4.win 3).blk t).view.read (Elt Ideal) (H V c) := by
  have hN : t.val < 10 := lt_of_lt_of_eq t.isLt (show cfg4.N = 10 from N_4)
  obtain ⟨-, -, -, -, -, -, e0, e1, -⟩ := idx_facts t
  show (cfg4.win 3).cut (grid4.coords t) ((dat4 V c).after 3 t) = _
  rw [after4_3, outs3_eq]
  funext j
  show k4_pay3 (F := Ideal) (iblk4 V c 0 t) (iblk4 V c 1 t) (iblk4 V c 2 t) j = H V c (((cfg4.win 3).blk t).view.emb j)
  obtain ⟨p, q, rfl⟩ : ∃ (p : Fin 10000) (q : Fin 64), j = ix2 p q := ⟨j 0, j 1, eq_ix2 (n0 := 10000) (n1 := 64) j⟩
  refine (tile_apply V c t p q ⟨10000 * t.val + p.val, by omega⟩ rfl).trans ?_
  unfold H
  congr 1 <;> apply Fin.ext
  · show 10000 * t.val + p.val = win4_3.index t 0 * 10000 + 1 * p.val
    rw [e0]; omega
  · show q.val = win4_3.index t 1 * 64 + 1 * q.val
    rw [e1]; omega

/-- An index of the h result is in tile t's block iff each coordinate is in the block's range. -/
theorem mem_blk3 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v78_0).slice (win4_3.rect t)).set ↔ _
  rw [View.set_slice_whole, Rect.mem_set_unit]
  exact Iff.rfl

/-- The ten tiles cover the h result (row r is in tile r / 10000), so it ends holding H. -/
theorem final3 : (dat4 V c).arrAt 3 cfg4.N = H V c :=
  (dat4 V c).arrAt_eq_of_cover 3 (H V c) (fun t _ => flushed3_eq V c t) fun i => by
    have hi0 : (i 0).val < 100000 := (i 0).isLt
    have hi1 : (i 1).val < 64 := (i 1).isLt
    have hN : cfg4.N = 10 := N_4
    refine ⟨⟨(i 0).val / 10000, by rw [hN]; omega⟩, flush4_3 _, ?_⟩
    rw [mem_blk3]
    obtain ⟨-, -, -, -, -, -, e0, e1, -⟩ := idx_facts ⟨(i 0).val / 10000, by rw [hN]; omega⟩
    intro a
    match a with
    | ⟨0, _⟩ =>
      show win4_3.index _ (0 : Fin 2) * 10000 ≤ (i 0).val ∧ (i 0).val < win4_3.index _ (0 : Fin 2) * 10000 + 10000
      rw [e0]; dsimp only; omega
    | ⟨1, _⟩ =>
      show win4_3.index _ (1 : Fin 2) * 64 ≤ (i 1).val ∧ (i 1).val < win4_3.index _ (1 : Fin 2) * 64 + 64
      rw [e1]; omega

/-- THE h RESULT, entry by entry. -/
theorem h_apply (r : Fin 100000) (q : Fin 64) :
    ((dat4 V c).arrAt 3 cfg4.N : S100000x64.Idx → Elt Ideal .f32) (ix2 r q) = hval V c r q := by
  rw [final3]
  rfl

end Cert.KernelIdeal.Linear4

end
-- ==== Proof.RefStages3.lean ====
/-
  The reference program's third graph-convolution layer read at explicit coordinates: the aggregated
  neighbour sum divided by (degree plus a small constant), and the linear map (a sum over the input
  features of entry times weight, plus an offset).
-/
import proofs.«176481_j81363860455527_1_alg».proof.Proof.Gen.ReferenceIdeal.Read
import Idealize.ShloMosaic.Lib.ValueIdx
import Idealize.ShloMosaic.PureOps.Ideal.Laws

noncomputable section

namespace Cert.RefStages

open Cert.ReferenceIdeal Cert.ReferenceIdeal.Read Idealize.ShloMosaic Idealize.ShloMosaic.ValueIdx

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S64x128, .f32⟩ : BufTy).Contents (Elt Ideal))
  (x11 : (⟨S64, .f32⟩ : BufTy).Contents (Elt Ideal))

/-! ## Layer 3 -/

/-- Layer 3: the degree broadcast along the features reads the degree of the row. -/
theorem idx_l3_deg (r : Fin 100000) (k : Fin 128) : idx_main_v108 (idx_main_v121 (ix2 r k)) = ix1 r :=
  funext fun a => Fin.ext (by match a with | ⟨0, _⟩ => rfl)

/-- Layer 3, normalisation: the aggregated sum divided by the degree plus the small constant. -/
theorem l3_norm (r : Fin 100000) (k : Fin 128) :
    val_main_v122 (F := Ideal) x0 x1 x2 x3 x4 x5 x6 x7 x8 x9 (ix2 r k)
      = Ideal.div (val_main_v120 (F := Ideal) x0 x1 x2 x3 x4 x5 x6 x7 x8 x9 (ix2 r k))
          (val_main_v107 (F := Ideal) x1 (ix1 r) + Ideal.ofBits .f32 0x358637BD#32) := by
  rw [val_main_v122_apply, val_main_v121_apply, val_main_v110_apply, val_main_v108_apply, val_main_v109_apply,
    val_main_cst_22_apply]
  simp only [idx_l3_deg, Ideal.hostDivf_def, Ideal.addf_def, Ideal.ofBits_def]

/-- Layer 3: the left operand of the product at row `r`, feature `k`. -/
theorem lidx_l3 (r : Fin 100000) (q : Fin 64) (k : Fin 128) : lidx_main_v124 (ix2 r q) k = ix2 r k :=
  funext fun a => Fin.ext (by match a with | ⟨0, _⟩ => rfl | ⟨1, _⟩ => rfl)

/-- Layer 3: the right operand of the product is the transposed weight, entry `(q, k)`. -/
theorem ridx_l3 (r : Fin 100000) (q : Fin 64) (k : Fin 128) :
    idx_main_v123 (ridx_main_v124 (ix2 r q) k) = ix2 q k :=
  funext fun a => Fin.ext (by match a with | ⟨0, _⟩ => rfl | ⟨1, _⟩ => rfl)

/-- Layer 3: the offset broadcast along the rows reads the offset of the column. -/
theorem idx_l3_bias (r : Fin 100000) (q : Fin 64) : idx_main_v125 (idx_main_v126 (ix2 r q)) = ix1 q :=
  funext fun a => Fin.ext (by match a with | ⟨0, _⟩ => rfl)

/-- Layer 3, linear map: the sum over the features of normalised entry times weight, plus the
    offset. -/
theorem l3_lin (r : Fin 100000) (q : Fin 64) :
    val_main_v127 (F := Ideal) x0 x1 x2 x3 x4 x5 x6 x7 x8 x9 x10 x11 (ix2 r q)
      = (∑ k : Fin 128, val_main_v122 (F := Ideal) x0 x1 x2 x3 x4 x5 x6 x7 x8 x9 (ix2 r k) * x10 (ix2 q k)) + x11 (ix1 q) := by
  rw [val_main_v127_apply, val_main_v124_apply, val_main_v126_apply, val_main_v125_apply]
  simp only [val_main_v123_apply, lidx_l3, ridx_l3, idx_l3_bias, Ideal.addf_def]

end Cert.RefStages

end
-- ==== Proof.RefReal2.lean ====
/-
  The reference program's stage arrays are real-valued, layer 2. The layer-1 outputs are real-valued, so
  their aggregated neighbour sums are; the degrees are the same positive-after-shift counts as in layer 1,
  so the normalised sums are real-valued; and the linear map and the batch normalisation keep real values
  real exactly as in layer 1.
-/
import proofs.«176481_j81363860455527_1_alg».proof.Proof.RefReal
import proofs.«176481_j81363860455527_1_alg».proof.Proof.RefStages2

noncomputable section

namespace Cert.RefReal

open Cert.ReferenceIdeal Cert.ReferenceIdeal.Read Idealize.ShloMosaic Idealize.ShloMosaic.ValueIdx
open Cert.RealValued Cert.BnAlgebra Cert.Layer Cert.RefStages

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))

/-- The zero array onto which the neighbour sums of layer 2 accumulate. -/
theorem v68_zero (i : S100000x128.Idx) : val_main_v68 (F := Ideal) i = 0 := by
  rw [val_main_v68_apply, val_main_cst_14_apply, Ideal.ofBits_def, Cert.Consts.ofBits_zero]

/-- Layer 2: the aggregated neighbour sums of the layer-1 outputs are real-valued. -/
theorem real_v70 (h0 : ∀ i, IsReal (x0 i)) (h2 : ∀ i, IsReal (x2 i)) (h3 : ∀ i, IsReal (x3 i))
    (h4 : ∀ i, IsReal (x4 i)) (h5 : ∀ i, IsReal (x5 i)) :
    ∀ i, IsReal (val_main_v70 (F := Ideal) x0 x1 x2 x3 x4 x5 i) := by
  intro i
  unfold val_main_v70
  have hupd : ∀ j, IsReal (val_main_v67 (F := Ideal) x0 x1 x2 x3 x4 x5 j) := by
    intro j
    unfold val_main_v67
    have h53 := real_v53 x0 x1 x2 x3 x4 x5 h0 h2 h3 h4 h5
    generalize val_main_v53 (F := Ideal) x0 x1 x2 x3 x4 x5 = y at h53 ⊢
    exact isReal_gather _ y _ h53 j
  have hz : ∀ j, IsReal (val_main_v68 (F := Ideal) j) := fun j => by rw [v68_zero]; exact IsReal.zero
  generalize val_main_v67 (F := Ideal) x0 x1 x2 x3 x4 x5 = upd at hupd ⊢
  generalize val_main_v69 (F := Ideal) x1 = idx
  generalize val_main_v68 (F := Ideal) = z at hz ⊢
  exact isReal_scatterAdd _ z idx upd hz hupd i

/-- Layer 2: the normalised neighbour sums are real-valued. -/
theorem real_v72 (h0 : ∀ i, IsReal (x0 i)) (h2 : ∀ i, IsReal (x2 i)) (h3 : ∀ i, IsReal (x3 i))
    (h4 : ∀ i, IsReal (x4 i)) (h5 : ∀ i, IsReal (x5 i)) :
    ∀ (r : Fin 100000) (k : Fin 128), IsReal (val_main_v72 (F := Ideal) x0 x1 x2 x3 x4 x5 (ix2 r k)) := by
  intro r k
  rw [l2_norm, deg_eq57]
  obtain ⟨d, hd, e⟩ := deg_pos x1 r
  exact isReal_norm (real_v70 x0 x1 x2 x3 x4 x5 h0 h2 h3 h4 h5 _) (ne_of_gt hd) e

/-- Layer 2: the linear map of the normalised neighbour sums is real-valued. -/
theorem real_v77 (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i)) :
    ∀ (r : Fin 100000) (q : Fin 128), IsReal (val_main_v77 (F := Ideal) x0 x1 x2 x3 x4 x5 x6 x7 (ix2 r q)) := by
  intro r q
  rw [l2_lin]
  exact isReal_lin (fun k => val_main_v72 (F := Ideal) x0 x1 x2 x3 x4 x5 (ix2 r k)) (fun k => x6 (ix2 q k))
    (x7 (ix1 q)) (fun k => real_v72 x0 x1 x2 x3 x4 x5 h0 h2 h3 h4 h5 r k) (fun k => h6 _) (h7 _)

/-- Layer 2: the batch-normalised, rectified output is real-valued. -/
theorem real_v103 (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) :
    ∀ i, IsReal (val_main_v103 (F := Ideal) x0 x1 x2 x3 x4 x5 x6 x7 x8 x9 i) := by
  intro i
  rw [eq_ix2 i]
  exact isReal_bn (fun r q => val_main_v77 (F := Ideal) x0 x1 x2 x3 x4 x5 x6 x7 (ix2 r q))
    (real_v77 x0 x1 x2 x3 x4 x5 x6 x7 h0 h2 h3 h4 h5 h6 h7)
    (fun q => x8 (ix1 q)) (fun q => x9 (ix1 q)) (fun q => h8 _) (fun q => h9 _)
    (fun q => val_main_v80 (F := Ideal) x0 x1 x2 x3 x4 x5 x6 x7 (ix1 q))
    (fun q => val_main_v87 (F := Ideal) x0 x1 x2 x3 x4 x5 x6 x7 (ix1 q))
    (fun r q => val_main_v103 (F := Ideal) x0 x1 x2 x3 x4 x5 x6 x7 x8 x9 (ix2 r q))
    (Ideal.ofBits .f32 0x47C35000#32) (Ideal.ofBits .f32 0x3727C5AC#32) (Ideal.ofBits .f32 0x00000000#32)
    Cert.Consts.ofBits_1e5 Cert.Consts.eps_bn Cert.Consts.ofBits_zero
    (fun q => l2_mean x0 x1 x2 x3 x4 x5 x6 x7 q) (fun q => l2_var x0 x1 x2 x3 x4 x5 x6 x7 q)
    (fun r q => l2_out x0 x1 x2 x3 x4 x5 x6 x7 x8 x9 r q)
    (i 0) (i 1)

end Cert.RefReal

end
-- ==== Proof.Bridge3.lean ====
/-
  Layer 3 of the network and the result: given that layer 2's output arrays agree, the last linear map gives equal
  arrays, which are the two programs' results.
-/
import proofs.«176481_j81363860455527_1_alg».proof.Proof.Bridge2
import proofs.«176481_j81363860455527_1_alg».proof.Proof.Linear4
import proofs.«176481_j81363860455527_1_alg».proof.Proof.RefStages3
import proofs.«176481_j81363860455527_1_alg».proof.Proof.RefReal2

set_option maxRecDepth 16384
set_option maxHeartbeats 1000000
noncomputable section
namespace Cert.Bridge
open Cert.KernelIdeal Cert.KernelIdeal.Gen Cert.KernelIdeal.Boundary Idealize.ShloMosaic Idealize.ShloMosaic.TcCoe Idealize.ShloMosaic.ValueIdx
open Cert.ReferenceIdeal.Read Cert.RealValued

variable (m : (ℓ : Loc nD τ sig) → Buf (Elt Ideal) ℓ) (ρ : Dev nD → PrngReg) (c : Dev nD)

theorem norm3_read (H1 : ∀ r q, IsReal (hh1 m c r q)) (H2 : ∀ r q, IsReal (hh2 m c r q)) (r : Fin 100000) (k : Fin 128) :
    (W9 m ρ c (Proc.devRef .tc main_v74) : FVec Ideal S100000x128 .f32) (ix2 r k)
      = val_main_v120 (F := Ideal) (a0 m c) (a1 m c) (a2 m c) (a3 m c) (a4 m c) (a5 m c) (a6 m c) (a7 m c) (a8 m c) (a9 m c) (ix2 r k) * Ideal.div (Ideal.ofBits .f32 0x3F800000#32) (val_main_v7 (F := Ideal) (a1 m c) (ix1 r) + Ideal.ofBits .f32 0x358637BD#32) := by
  rw [w9_v74, out2_arr m ρ c H1 H2]
  have hagg : agg128 (val_main_v103 (F := Ideal) (a0 m c) (a1 m c) (a2 m c) (a3 m c) (a4 m c) (a5 m c) (a6 m c) (a7 m c) (a8 m c) (a9 m c)) (a1 m c) = val_main_v120 (F := Ideal) (a0 m c) (a1 m c) (a2 m c) (a3 m c) (a4 m c) (a5 m c) (a6 m c) (a7 m c) (a8 m c) (a9 m c) := rfl
  rw [hagg]
  generalize val_main_v120 (F := Ideal) (a0 m c) (a1 m c) (a2 m c) (a3 m c) (a4 m c) (a5 m c) (a6 m c) (a7 m c) (a8 m c) (a9 m c) = A
  rw [mulf_apply, bcast128_apply, dinv_apply]

theorem norm3 (H1 : ∀ r q, IsReal (hh1 m c r q)) (H2 : ∀ r q, IsReal (hh2 m c r q)) (r : Fin 100000) (k : Fin 128) :
    (W9 m ρ c (Proc.devRef .tc main_v74) : FVec Ideal S100000x128 .f32) (ix2 r k) = val_main_v122 (F := Ideal) (a0 m c) (a1 m c) (a2 m c) (a3 m c) (a4 m c) (a5 m c) (a6 m c) (a7 m c) (a8 m c) (a9 m c) (ix2 r k) := by
  obtain ⟨d, hd, he⟩ := Cert.RefReal.deg_pos (a1 m c) r
  rw [norm3_read m ρ c H1 H2 r k, Cert.RefStages.l3_norm (a0 m c) (a1 m c) (a2 m c) (a3 m c) (a4 m c) (a5 m c) (a6 m c) (a7 m c) (a8 m c) (a9 m c) r k, Cert.RefReal.deg_eq107 (a1 m c), he]
  generalize val_main_v120 (F := Ideal) (a0 m c) (a1 m c) (a2 m c) (a3 m c) (a4 m c) (a5 m c) (a6 m c) (a7 m c) (a8 m c) (a9 m c) (ix2 r k) = A
  exact Cert.Layer.norm_eq A _ _ Cert.Consts.ofBits_one hd.ne' rfl

theorem wt3_apply (k : Fin 128) (q : Fin 64) :
    (W9 m ρ c (Proc.devRef .tc main_v76) : FVec Ideal S128x64 .bf16) (ix2 k q) = a10 m c (ix2 q k) := by
  rw [w9_v76, truncf_apply]
  unfold val_main_v123
  exact transpose_ix2_apply _ _ k q

theorem b3_apply (q : Fin 64) :
    (W9 m ρ c (Proc.devRef .tc main_v77) : FVec Ideal S1x64 .f32) (ix2 (0 : Fin 1) q) = a11 m c (ix1 q) := by
  rw [w9_v77]
  exact shapeCast_a_1a_apply _ _ 0 q

theorem hval3 (H1 : ∀ r q, IsReal (hh1 m c r q)) (H2 : ∀ r q, IsReal (hh2 m c r q)) (r : Fin 100000) (q : Fin 64) :
    Linear4.hval (V9 m ρ) c r q = val_main_v127 (F := Ideal) (a0 m c) (a1 m c) (a2 m c) (a3 m c) (a4 m c) (a5 m c) (a6 m c) (a7 m c) (a8 m c) (a9 m c) (a10 m c) (a11 m c) (ix2 r q) := by
  rw [Cert.RefStages.l3_lin (a0 m c) (a1 m c) (a2 m c) (a3 m c) (a4 m c) (a5 m c) (a6 m c) (a7 m c) (a8 m c) (a9 m c) (a10 m c) (a11 m c) r q]
  unfold Linear4.hval
  refine congrArg₂ (· + ·) (Finset.sum_congr rfl fun k _ => ?_) ?_
  · exact congrArg₂ (· * ·) (norm3 m ρ c H1 H2 r k) (wt3_apply m ρ c k q)
  · exact b3_apply m ρ c q

/-- The kernel program's result array is the reference's result term of the same argument arrays, when the float
    arguments are real numbers. -/
theorem result_eq (h0 : ∀ i, IsReal (a0 m c i)) (h2 : ∀ i, IsReal (a2 m c i)) (h3 : ∀ i, IsReal (a3 m c i)) (h4 : ∀ i, IsReal (a4 m c i))
    (h5 : ∀ i, IsReal (a5 m c i)) (h6 : ∀ i, IsReal (a6 m c i)) (h7 : ∀ i, IsReal (a7 m c i)) (h8 : ∀ i, IsReal (a8 m c i))
    (h9 : ∀ i, IsReal (a9 m c i)) (h10 : ∀ i, IsReal (a10 m c i)) (h11 : ∀ i, IsReal (a11 m c i)) :
    (W11 m ρ c (Proc.devRef .tc main_v78_0) : FVec Ideal S100000x64 .f32) = val_main_v127 (F := Ideal) (a0 m c) (a1 m c) (a2 m c) (a3 m c) (a4 m c) (a5 m c) (a6 m c) (a7 m c) (a8 m c) (a9 m c) (a10 m c) (a11 m c) := by
  have H1 : ∀ r q, IsReal (hh1 m c r q) := Cert.RefReal.real_v27 (a0 m c) (a1 m c) (a2 m c) (a3 m c) h0 h2 h3
  have H2 : ∀ r q, IsReal (hh2 m c r q) := Cert.RefReal.real_v77 (a0 m c) (a1 m c) (a2 m c) (a3 m c) (a4 m c) (a5 m c) (a6 m c) (a7 m c) h0 h2 h3 h4 h5 h6 h7
  rw [w11_result]
  funext i
  rw [eq_ix2 i]
  exact (Linear4.h_apply (V9 m ρ) c (i 0) (i 1)).trans (hval3 m ρ c H1 H2 (i 0) (i 1))

end Cert.Bridge
end
-- ==== Proof.lean ====
/-
  The certificate of a three-layer graph convolution network: a kernel program of five launches (a linear map with
  running column sums and sums of squares over ten row tiles, three times; a batch normalisation with rectifier,
  twice) among host operations, against a reference written with whole-array operations.

  At the ideal values the two programs compute the same arrays, layer by layer. The neighbourhood sum (gather the
  rows the edges start from, add them at the rows the edges end at) is the same operation on both sides; the kernel
  program multiplies it by 1/(deg + ε) where the reference divides by deg + ε, the same for a positive real
  deg + ε. The linear map is the same sum of products over the feature axis plus the bias, whatever the tiling. The
  batch statistics differ in form: the kernel program takes var = E[h²] − (E[h])² from the running sums, the reference
  the mean squared deviation; they agree because every entry of h is a real number, which follows from the finiteness
  of the inputs through every stage (sums of reals, a quotient by a positive real, the reciprocal square root of a
  positive real). The frames of the kernel programs are the generated ones; the reference's is its run.
-/
import proofs.«176481_j81363860455527_1_alg».proof.Defs
import proofs.«176481_j81363860455527_1_alg».proof.Proof.Gen.Kernel
import proofs.«176481_j81363860455527_1_alg».proof.Proof.Gen.Kernel.Skeleton
import proofs.«176481_j81363860455527_1_alg».proof.Proof.Gen.Kernel.Launch
import proofs.«176481_j81363860455527_1_alg».proof.Proof.Gen.Kernel.Points
import proofs.«176481_j81363860455527_1_alg».proof.Proof.Gen.Kernel.Frame
import proofs.«176481_j81363860455527_1_alg».proof.Proof.Gen.KernelIdeal
import proofs.«176481_j81363860455527_1_alg».proof.Proof.Gen.KernelIdeal.Skeleton
import proofs.«176481_j81363860455527_1_alg».proof.Proof.Gen.KernelIdeal.Launch
import proofs.«176481_j81363860455527_1_alg».proof.Proof.Gen.KernelIdeal.Points
import proofs.«176481_j81363860455527_1_alg».proof.Proof.Gen.KernelIdeal.Frame
import proofs.«176481_j81363860455527_1_alg».proof.Proof.Gen.ReferenceIdeal
import proofs.«176481_j81363860455527_1_alg».proof.Proof.Gen.ReferenceIdeal.Run
import proofs.«176481_j81363860455527_1_alg».proof.Proof.Gen.ReferenceIdeal.Read
import proofs.«176481_j81363860455527_1_alg».proof.Proof.Gen.Pre_finite_inputs
import proofs.«176481_j81363860455527_1_alg».proof.Proof.KernelRun
import proofs.«176481_j81363860455527_1_alg».proof.Proof.KernelBoundary
import proofs.«176481_j81363860455527_1_alg».proof.Proof.FiniteInputs
import proofs.«176481_j81363860455527_1_alg».proof.Proof.LibRealValued
import Idealize.ShloMosaic.Adequacy
import Idealize.ShloMosaic.Init

import proofs.«176481_j81363860455527_1_alg».proof.Proof.Bridge3

noncomputable section

namespace Cert.Proof

open Idealize.ShloMosaic Idealize.ShloMosaic.TcCoe Idealize.SL.Sem

/-- The kernel program as printed runs and leaves its argument arrays unchanged. -/
theorem frame_Kernel : Cert.frame_Kernel := fun m ρ _ => Cert.Kernel.Gen.frame m ρ

/-- The idealized kernel program runs and leaves its argument arrays unchanged. -/
theorem frame_KernelIdeal : Cert.frame_KernelIdeal := fun m ρ _ => Cert.KernelIdeal.Gen.frame m ρ

/-- The idealized reference program runs and leaves its argument arrays unchanged: its run with the result
    dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- Over the extended reals, from memories that agree on the arguments and whose floating-point arguments are
    real-valued, the kernel's result array and the reference's result array are the same function of the
    arguments, and both programs leave the arguments unchanged. -/
theorem algebraic : Cert.algebraic_KernelIdeal_ReferenceIdeal := by
  intro m ρ m' ρ' hpre hagree
  refine ⟨fun c => Cert.KernelIdeal.Gen.W11 m ρ c (Proc.devRef .tc Cert.KernelIdeal.main_v78_0),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5, h6, h7, h8, h9, h10, h11⟩ :=
    Cert.FiniteInputs.real_of_fn _ _ _ _ _ _ _ _ _ _ _ _ (hpre c)
  obtain ⟨e0, e1, e2, e3, e4, e5, e6, e7, e8, e9, e10, e11⟩ := hagree c
  rw [Cert.ReferenceIdeal.Read.val_main_v127_eq m' c, e0, e1, e2, e3, e4, e5, e6, e7, e8, e9, e10, e11]
  exact (Cert.Bridge.result_eq m ρ c h0 h2 h3 h4 h5 h6 h7 h8 h9 h10 h11).symm

theorem claim : Cert.Claim := ⟨Cert.Kernel.Gen.facts, Cert.KernelIdeal.Gen.facts, Cert.ReferenceIdeal.Gen.facts,
  Cert.Pre_finite_inputs.Gen.facts, frame_Kernel, frame_KernelIdeal, frame_ReferenceIdeal, preserves, algebraic⟩

end Cert.Proof

end
